-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x44 : Shape := ⟨2, ![100000, 44]⟩
abbrev S2x200000 : Shape := ⟨2, ![2, 200000]⟩
abbrev S100000 : Shape := ⟨1, ![100000]⟩
abbrev S44x256 : Shape := ⟨2, ![44, 256]⟩
abbrev S256 : Shape := ⟨1, ![256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256x512 : Shape := ⟨2, ![256, 512]⟩
abbrev S512 : Shape := ⟨1, ![512]⟩
abbrev S_ : Shape := ⟨0, ![]⟩

class Facts : Prop where
  bcast_S_S100000x44 : S_.BroadcastsInDim S100000x44 (![] : Fin 0 → Fin S100000x44.rank)
  reducesTo_S100000x44_S_d0_1 : S100000x44.ReducesTo [0, 1] S_
  h_S_ : 0 < S_.numel
  bcast_S_S44x256 : S_.BroadcastsInDim S44x256 (![] : Fin 0 → Fin S44x256.rank)
  reducesTo_S44x256_S_d0_1 : S44x256.ReducesTo [0, 1] S_
  bcast_S_S256 : S_.BroadcastsInDim S256 (![] : Fin 0 → Fin S256.rank)
  reducesTo_S256_S_d0 : S256.ReducesTo [0] S_
  bcast_S_S4x256x512 : S_.BroadcastsInDim S4x256x512 (![] : Fin 0 → Fin S4x256x512.rank)
  reducesTo_S4x256x512_S_d0_1_2 : S4x256x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x512 .f32) (main_arg12 : FVec F S512 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg11
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg6 : FVec F S4x512 .f32) (main_arg7 : FVec F S4x512x256 .f32) (main_arg8 : FVec F S4x256 .f32) (main_arg9 : FVec F S256x256 .f32) (main_arg10 : FVec F S256 .f32) (main_arg11 : FVec F S256x512 .f32) (main_arg12 : FVec F S512 .f32) (main_v13 : IVec S_ 1) (main_v16 : IVec S4x256x512 1) : IVec S_ 1 :=
  let main_c_5 : IVec S_ 1 := constantI S_ 1 1#1
  let main_v17 : IVec S_ 1 := (fun x v => Host.reduce IntOp.andi x v reducesTo_S4x256x512_S_d0_1_2 h_S_) main_v16 main_c_5
  let main_v18 : IVec S_ 1 := andi main_v13 main_v17
  let main_v19 : FVec F S4x512 .f32 := Host.absf main_arg6
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x256 .f32 := Host.absf main_arg7
  let main_cst_8 : FVec F S_ .f32 := constant S_ .f32 0x7F800000#32
  let main_v25 : FVec F S4x512x256 .f32 := broadcastInDim S4x512x256 ![] bcast_S_S4x512x256 main_cst_8
  let main_v26 : IVec S4x512x256 1 := cmpf .olt main_v24 main_v25
  let main_c_9 : IVec S_ 1 := constantI S_ 1 1#1
  let main_v27 : IVec S_ 1 := (fun x v => Host.reduce IntOp.andi x v reducesTo_S4x512x256_S_d0_1_2 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x44 .f32) (main_arg1 : IVec S2x200000 32) (main_arg2 : IVec S100000 32) (main_arg3 : FVec F S44x256 .f32) (main_arg4 : FVec F S256 .f32) (main_arg5 : FVec F S4x256x512 .f32) (main_arg6 : FVec F S4x512 .f32) (main_arg7 : FVec F S4x512x256 .f32) (main_arg8 : FVec F S4x256 .f32) (main_arg9 : FVec F S256x256 .f32) (main_arg10 : FVec F S256 .f32) (main_arg11 : FVec F S256x512 .f32) (main_arg12 : FVec F S512 .f32) : IVec S_ 1 :=
  let main_v0 : FVec F S100000x44 .f32 := Host.absf main_arg0
  let main_cst : FVec F S_ .f32 := constant S_ .f32 0x7F800000#32
  let main_v1 : FVec F S100000x44 .f32 := broadcastInDim S100000x44 ![] bcast_S_S100000x44 main_cst
  let main_v2 : IVec S100000x44 1 := cmpf .olt main_v0 main_v1
  let main_c : IVec S_ 1 := constantI S_ 1 1#1
  let main_v3 : IVec S_ 1 := (fun x v => Host.reduce IntOp.andi x v reducesTo_S100000x44_S_d0_1 h_S_) main_v2 main_c
  let main_v4 : FVec F S44x256 .f32 := Host.absf main_arg3
  let main_cst_0 : FVec F S_ .f32 := constant S_ .f32 0x7F800000#32
  let main_v5 : FVec F S44x256 .f32 := broadcastInDim S44x256 ![] bcast_S_S44x256 main_cst_0
  let main_v6 : IVec S44x256 1 := cmpf .olt main_v4 main_v5
  let main_c_1 : IVec S_ 1 := constantI S_ 1 1#1
  let main_v7 : IVec S_ 1 := (fun x v => Host.reduce IntOp.andi x v reducesTo_S44x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x512 .f32 := Host.absf main_arg5
  let main_cst_4 : FVec F S_ .f32 := constant S_ .f32 0x7F800000#32
  let main_v15 : FVec F S4x256x512 .f32 := broadcastInDim S4x256x512 ![] bcast_S_S4x256x512 main_cst_4
  let main_v16 : IVec S4x256x512 1 := cmpf .olt main_v14 main_v15
  fn_part1 (F := F) main_arg6 main_arg7 main_arg8 main_arg9 main_arg10 main_arg11 main_arg12 main_v13 main_v16
-- ==== Kernel.lean ====
abbrev S100000x44 : Shape := ⟨2, ![100000, 44]⟩
abbrev S2x200000 : Shape := ⟨2, ![2, 200000]⟩
abbrev S100000 : Shape := ⟨1, ![100000]⟩
abbrev S44x256 : Shape := ⟨2, ![44, 256]⟩
abbrev S256 : Shape := ⟨1, ![256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256x512 : Shape := ⟨2, ![256, 512]⟩
abbrev S512 : Shape := ⟨1, ![512]⟩
abbrev S1x200000 : Shape := ⟨2, ![1, 200000]⟩
abbrev S200000 : Shape := ⟨1, ![200000]⟩
abbrev S100000x256 : Shape := ⟨2, ![100000, 256]⟩
abbrev S2000x44 : Shape := ⟨2, ![2000, 44]⟩
abbrev S2000x256 : Shape := ⟨2, ![2000, 256]⟩
abbrev S1x256 : Shape := ⟨2, ![1, 256]⟩
abbrev S_ : Shape := ⟨0, ![]⟩
abbrev S200000x1 : Shape := ⟨2, ![200000, 1]⟩
abbrev S200000x256 : Shape := ⟨2, ![200000, 256]⟩
abbrev S1x256x512 : Shape := ⟨3, ![1, 256, 512]⟩
abbrev S1x512x256 : Shape := ⟨3, ![1, 512, 256]⟩
abbrev S512x256 : Shape := ⟨2, ![512, 256]⟩
abbrev S1x512 : Shape := ⟨2, ![1, 512]⟩
abbrev S2000x512 : Shape := ⟨2, ![2000, 512]⟩
abbrev S4000x256 : Shape := ⟨2, ![4000, 256]⟩
abbrev S100000x1 : Shape := ⟨2, ![100000, 1]⟩
abbrev S4000 : Shape := ⟨1, ![4000]⟩
abbrev S4000x1 : Shape := ⟨2, ![4000, 1]⟩
abbrev S4000x512 : Shape := ⟨2, ![4000, 512]⟩
abbrev S1000x256 : Shape := ⟨2, ![1000, 256]⟩
abbrev S1000x512 : Shape := ⟨2, ![1000, 512]⟩

abbrev nBuf : Space → Nat
  | .hbm => 134
  | .vmem => 54
  | .smem => 0
  | _ => 0

abbrev hbmTy0_0 (i : Nat) : BufTy := match i % 128 with
  | 0 => ⟨S100000x44, .f32⟩
  | 1 => ⟨S2x200000, .i32⟩
  | 2 => ⟨S100000, .i32⟩
  | 3 => ⟨S44x256, .f32⟩
  | 4 => ⟨S256, .f32⟩
  | 5 => ⟨S4x256x512, .f32⟩
  | 6 => ⟨S4x512, .f32⟩
  | 7 => ⟨S4x512x256, .f32⟩
  | 8 => ⟨S4x256, .f32⟩
  | 9 => ⟨S256x256, .f32⟩
  | 10 => ⟨S256, .f32⟩
  | 11 => ⟨S256x512, .f32⟩
  | 12 => ⟨S512, .f32⟩
  | 13 => ⟨S1x200000, .i32⟩
  | 14 => ⟨S200000, .i32⟩
  | 15 => ⟨S1x200000, .i32⟩
  | 16 => ⟨S200000, .i32⟩
  | 17 => ⟨S44x256, .bf16⟩
  | 18 => ⟨S100000x256, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x256, .f32⟩
  | 28 => ⟨S_, .f32⟩
  | 29 => ⟨S100000x256, .f32⟩
  | 30 => ⟨S200000x1, .i32⟩
  | 31 => ⟨S100000x256, .f32⟩
  | 32 => ⟨S1x256x512, .f32⟩
  | 33 => ⟨S256x512, .f32⟩
  | 34 => ⟨S256x512, .bf16⟩
  | 35 => ⟨S1x512x256, .f32⟩
  | 36 => ⟨S512x256, .f32⟩
  | 37 => ⟨S512x256, .bf16⟩
  | 38 => ⟨S1x512, .f32⟩
  | 39 => ⟨S512, .f32⟩
  | 40 => ⟨S1x256, .f32⟩
  | 41 => ⟨S256, .f32⟩
  | 42 => ⟨S100000x256, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x256, .f32⟩
  | 52 => ⟨S_, .f32⟩
  | 53 => ⟨S100000x256, .f32⟩
  | 54 => ⟨S200000x1, .i32⟩
  | 55 => ⟨S100000x256, .f32⟩
  | 56 => ⟨S1x256x512, .f32⟩
  | 57 => ⟨S256x512, .f32⟩
  | 58 => ⟨S256x512, .bf16⟩
  | 59 => ⟨S1x512x256, .f32⟩
  | 60 => ⟨S512x256, .f32⟩
  | 61 => ⟨S512x256, .bf16⟩
  | 62 => ⟨S1x512, .f32⟩
  | 63 => ⟨S512, .f32⟩
  | 64 => ⟨S1x256, .f32⟩
  | 65 => ⟨S256, .f32⟩
  | 66 => ⟨S100000x256, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x256, .f32⟩
  | 76 => ⟨S_, .f32⟩
  | 77 => ⟨S100000x256, .f32⟩
  | 78 => ⟨S200000x1, .i32⟩
  | 79 => ⟨S100000x256, .f32⟩
  | 80 => ⟨S1x256x512, .f32⟩
  | 81 => ⟨S256x512, .f32⟩
  | 82 => ⟨S256x512, .bf16⟩
  | 83 => ⟨S1x512x256, .f32⟩
  | 84 => ⟨S512x256, .f32⟩
  | 85 => ⟨S512x256, .bf16⟩
  | 86 => ⟨S1x512, .f32⟩
  | 87 => ⟨S512, .f32⟩
  | 88 => ⟨S1x256, .f32⟩
  | 89 => ⟨S256, .f32⟩
  | 90 => ⟨S100000x256, .f32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S200000x256, .f32⟩
  | 100 => ⟨S_, .f32⟩
  | 101 => ⟨S100000x256, .f32⟩
  | 102 => ⟨S200000x1, .i32⟩
  | 103 => ⟨S100000x256, .f32⟩
  | 104 => ⟨S1x256x512, .f32⟩
  | 105 => ⟨S256x512, .f32⟩
  | 106 => ⟨S256x512, .bf16⟩
  | 107 => ⟨S1x512x256, .f32⟩
  | 108 => ⟨S512x256, .f32⟩
  | 109 => ⟨S512x256, .bf16⟩
  | 110 => ⟨S1x512, .f32⟩
  | 111 => ⟨S512, .f32⟩
  | 112 => ⟨S1x256, .f32⟩
  | 113 => ⟨S256, .f32⟩
  | 114 => ⟨S100000x256, .f32⟩
  | 115 => ⟨S_, .f32⟩
  | 116 => ⟨S4000x256, .f32⟩
  | 117 => ⟨S100000x1, .i32⟩
  | 118 => ⟨S4000x256, .f32⟩
  | 119 => ⟨S_, .f32⟩
  | 120 => ⟨S100000, .f32⟩
  | 121 => ⟨S_, .f32⟩
  | 122 => ⟨S4000, .f32⟩
  | 123 => ⟨S100000x1, .i32⟩
  | 124 => ⟨S4000, .f32⟩
  | 125 => ⟨S_, .f32⟩
  | 126 => ⟨S4000, .f32⟩
  | 127 => ⟨S4000, .f32⟩
  | _ => ⟨S100000x44, .f32⟩

abbrev hbmTy0_1 (i : Nat) : BufTy := match i % 128 with
  | 0 => ⟨S4000x1, .f32⟩
  | 1 => ⟨S4000x256, .f32⟩
  | 2 => ⟨S4000x256, .f32⟩
  | 3 => ⟨S256x256, .bf16⟩
  | 4 => ⟨S256x512, .bf16⟩
  | 5 => ⟨S4000x512, .f32⟩
  | _ => ⟨S100000x44, .f32⟩

abbrev hbmTy (i : Nat) : BufTy := match i / 128 with
  | 0 => hbmTy0_0 i
  | 1 => hbmTy0_1 i
  | _ => ⟨S100000x44, .f32⟩

abbrev bufTy : (tb : Table) → Fin (tcTables nBuf tb) → BufTy
  | .hbm, ⟨i, _⟩ => hbmTy i
  | .local _ .vmem, ⟨0, _⟩ => ⟨S2000x44, .f32⟩
  | .local _ .vmem, ⟨1, _⟩ => ⟨S2000x44, .f32⟩
  | .local _ .vmem, ⟨2, _⟩ => ⟨S44x256, .bf16⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x512, .bf16⟩
  | .local _ .vmem, ⟨11, _⟩ => ⟨S512, .f32⟩
  | .local _ .vmem, ⟨12, _⟩ => ⟨S512x256, .bf16⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x512, .bf16⟩
  | .local _ .vmem, ⟨21, _⟩ => ⟨S512, .f32⟩
  | .local _ .vmem, ⟨22, _⟩ => ⟨S512x256, .bf16⟩
  | .local _ .vmem, ⟨23, _⟩ => ⟨S256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x512, .bf16⟩
  | .local _ .vmem, ⟨31, _⟩ => ⟨S512, .f32⟩
  | .local _ .vmem, ⟨32, _⟩ => ⟨S512x256, .bf16⟩
  | .local _ .vmem, ⟨33, _⟩ => ⟨S256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x512, .bf16⟩
  | .local _ .vmem, ⟨41, _⟩ => ⟨S512, .f32⟩
  | .local _ .vmem, ⟨42, _⟩ => ⟨S512x256, .bf16⟩
  | .local _ .vmem, ⟨43, _⟩ => ⟨S256, .f32⟩
  | .local _ .vmem, ⟨44, _⟩ => ⟨S2000x256, .f32⟩
  | .local _ .vmem, ⟨45, _⟩ => ⟨S2000x256, .f32⟩
  | .local _ .vmem, ⟨46, _⟩ => ⟨S1000x256, .f32⟩
  | .local _ .vmem, ⟨47, _⟩ => ⟨S1000x256, .f32⟩
  | .local _ .vmem, ⟨48, _⟩ => ⟨S256x256, .bf16⟩
  | .local _ .vmem, ⟨49, _⟩ => ⟨S256, .f32⟩
  | .local _ .vmem, ⟨50, _⟩ => ⟨S256x512, .bf16⟩
  | .local _ .vmem, ⟨51, _⟩ => ⟨S512, .f32⟩
  | .local _ .vmem, ⟨52, _⟩ => ⟨S1000x512, .f32⟩
  | .local _ .vmem, ⟨53, _⟩ => ⟨S1000x512, .f32⟩
  | _, _ => ⟨S100000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_v49 : Ref sig .tc := ⟨.hbm, 69, rfl⟩
abbrev main_c_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_7 : Ref sig .tc := ⟨.hbm, 91, rfl⟩
abbrev main_v69 : Ref sig .tc := ⟨.hbm, 92, rfl⟩
abbrev main_v70 : Ref sig .tc := ⟨.hbm, 93, rfl⟩
abbrev main_c_8 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_10 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_11 : Ref sig .tc := ⟨.hbm, 119, rfl⟩
abbrev main_v93 : Ref sig .tc := ⟨.hbm, 120, rfl⟩
abbrev main_cst_12 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_13 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S44x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x512 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bitsLt_bf16_f32 : FTy.bits .bf16 < FTy.bits .f32
  inb_S2000x44_S2000x44_0_0 : ∀ a, (![0, 0] : Fin 2 → Nat) a + S2000x44.size a ≤ S2000x44.size a
  h_S2000x44 : 0 < S2000x44.numel
  inb_S44x256_S44x256_0_0 : ∀ a, (![0, 0] : Fin 2 → Nat) a + S44x256.size a ≤ S44x256.size a
  h_S44x256 : 0 < S44x256.numel
  shapeCasts_S44x256_S44x256 : S44x256.ShapeCasts S44x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S200000 : S_.BroadcastsInDim S200000 (![] : Fin 0 → Fin S200000.rank)
  bcast_S200000_S200000x1_0 : S200000.BroadcastsInDim S200000x1 (![0] : Fin 1 → Fin S200000x1.rank)
  bcast_S_S100000x256 : S_.BroadcastsInDim S100000x256 (![] : Fin 0 → Fin S100000x256.rank)
  slices_S4x256x512_S1x256x512_0_0_0 : S4x256x512.Slices ![0, 0, 0] S1x256x512
  shapeCasts_S1x256x512_S256x512 : S1x256x512.ShapeCasts S256x512
  slices_S4x512x256_S1x512x256_0_0_0 : S4x512x256.Slices ![0, 0, 0] S1x512x256
  shapeCasts_S1x512x256_S512x256 : S1x512x256.ShapeCasts S512x256
  slices_S4x512_S1x512_0_0 : S4x512.Slices ![0, 0] S1x512
  shapeCasts_S1x512_S512 : S1x512.ShapeCasts S512
  slices_S4x256_S1x256_0_0 : S4x256.Slices ![0, 0] S1x256
  shapeCasts_S1x256_S256 : S1x256.ShapeCasts S256
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S256_S256 : S256.ShapeCasts S256
  slices_S4x256x512_S1x256x512_1_0_0 : S4x256x512.Slices ![1, 0, 0] S1x256x512
  slices_S4x512x256_S1x512x256_1_0_0 : S4x512x256.Slices ![1, 0, 0] S1x512x256
  slices_S4x512_S1x512_1_0 : S4x512.Slices ![1, 0] S1x512
  slices_S4x256_S1x256_1_0 : S4x256.Slices ![1, 0] S1x256
  slices_S4x256x512_S1x256x512_2_0_0 : S4x256x512.Slices ![2, 0, 0] S1x256x512
  slices_S4x512x256_S1x512x256_2_0_0 : S4x512x256.Slices ![2, 0, 0] S1x512x256
  slices_S4x512_S1x512_2_0 : S4x512.Slices ![2, 0] S1x512
  slices_S4x256_S1x256_2_0 : S4x256.Slices ![2, 0] S1x256
  slices_S4x256x512_S1x256x512_3_0_0 : S4x256x512.Slices ![3, 0, 0] S1x256x512
  slices_S4x512x256_S1x512x256_3_0_0 : S4x512x256.Slices ![3, 0, 0] S1x512x256
  slices_S4x512_S1x512_3_0 : S4x512.Slices ![3, 0] S1x512
  slices_S4x256_S1x256_3_0 : S4x256.Slices ![3, 0] S1x256
  bcast_S_S4000x256 : S_.BroadcastsInDim S4000x256 (![] : Fin 0 → Fin S4000x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x256_0_1 : S4000x1.BroadcastsInDim S4000x256 (![0, 1] : Fin 2 → Fin S4000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1000x256 : S1x256.Broadcasts S1000x256
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  dot_S2000x44_S44x256_S2000x256_1_0_0_1_n_n_wf : DotDims.WF S2000x44 S44x256 S2000x256 [1] [0] [0] [1] [] []
  gather_S100000x256_S200000x1_S200000x256_1_0_n_n_0_1_1256_wf : GatherDims.WF S100000x256 S200000x1 S200000x256 [1] [0] [] [0] [] 1 ![1, 256]
  scatter_S100000x256_S200000x1_S200000x256_1_0_0_1_wf : ScatterDims.WF S100000x256 S200000x1 S200000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  scatter_S4000x256_S100000x1_S100000x256_1_0_0_1_wf : ScatterDims.WF S4000x256 S100000x1 S100000x256 [1] [0] [0] 1
  scatter_S4000_S100000x1_S100000_n_0_0_1_wf : ScatterDims.WF S4000 S100000x1 S100000 [] [0] [0] 1
  dot_S1000x256_S256x256_S1000x256_1_0_0_1_n_n_wf : DotDims.WF S1000x256 S256x256 S1000x256 [1] [0] [0] [1] [] []
  dot_S1000x256_S256x512_S1000x512_1_0_0_1_n_n_wf : DotDims.WF S1000x256 S256x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x44.size a ≤ S100000x44.size a
  hwx0_0 : ∀ i : grid0.Coords, EltTy.bits .f32 = 32 ∨ (Rect.block (s := S100000x44) S2000x44.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S44x256.size a ≤ S44x256.size a
  hwx0_1 : ∀ i : grid0.Coords, EltTy.bits .bf16 = 32 ∨ (Rect.block (s := S44x256) S44x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .bf16 = 32 ∨ (Rect.block (s := S512x256) S512x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .bf16 = 32 ∨ (Rect.block (s := S256x512) S256x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S512x256.size a
  hwx2_4 : ∀ i : grid2.Coords, EltTy.bits .bf16 = 32 ∨ (Rect.block (s := S512x256) S512x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S256x512.size a
  hwx3_2 : ∀ i : grid3.Coords, EltTy.bits .bf16 = 32 ∨ (Rect.block (s := S256x512) S256x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S512x256.size a
  hwx3_4 : ∀ i : grid3.Coords, EltTy.bits .bf16 = 32 ∨ (Rect.block (s := S512x256) S512x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .bf16 = 32 ∨ (Rect.block (s := S256x512) S256x512.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512.size a ≤ S512.size a
  hwx4_3 : ∀ i : grid4.Coords, EltTy.bits .f32 = 32 ∨ (Rect.block (s := S512) S512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S512x256.size a
  hwx4_4 : ∀ i : grid4.Coords, EltTy.bits .bf16 = 32 ∨ (Rect.block (s := S512x256) S512x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256.size a ≤ S256.size a
  hwx4_5 : ∀ i : grid4.Coords, EltTy.bits .f32 = 32 ∨ (Rect.block (s := S256) S256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S100000x256.size a
  hwx4_6 : ∀ i : grid4.Coords, EltTy.bits .f32 = 32 ∨ (Rect.block (s := S100000x256) S2000x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S4000x256.size a
  hwx5_0 : ∀ i : grid5.Coords, EltTy.bits .f32 = 32 ∨ (Rect.block (s := S4000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x512.size a ≤ S256x512.size a
  hwx5_3 : ∀ i : grid5.Coords, EltTy.bits .bf16 = 32 ∨ (Rect.block (s := S256x512) S256x512.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512.size a ≤ S512.size a
  hwx5_4 : ∀ i : grid5.Coords, EltTy.bits .f32 = 32 ∨ (Rect.block (s := S512) S512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x512.size a ≤ S4000x512.size a
  hwx5_5 : ∀ i : grid5.Coords, EltTy.bits .f32 = 32 ∨ (Rect.block (s := S4000x512) S1000x512.size (cc5_transform_5 i) (hinb5_5 i)).WholeWords (EltTy.packing .f32)

variable [Facts₀]

def dot_S2000x44_S44x256_S2000x256_1_0_0_1_n_n : DotDims S2000x44 S44x256 S2000x256 where
  lhsContracting := [1]
  rhsContracting := [0]
  lhsNonContracting := [0]
  rhsNonContracting := [1]
  lhsBatch := []
  rhsBatch := []
  wf := dot_S2000x44_S44x256_S2000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S4000x256_S100000x1_S100000x256_1_0_0_1 : ScatterDims S4000x256 S100000x1 S100000x256 where
  updateWindowDims := [1]
  insertedWindowDims := [0]
  scatterDimsToOperandDims := [0]
  indexVectorDim := 1
  wf := scatter_S4000x256_S100000x1_S100000x256_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf

abbrev win0_0 : Pipeline.Window sig grid0 :=
  Pipeline.Window.ofSpec (Memref.whole main_arg0) S2000x44.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S44x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S512x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S256x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S512x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S256x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S512x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v101) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S256x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S1000x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x44 : Shape := ⟨2, ![100000, 44]⟩
abbrev S2x200000 : Shape := ⟨2, ![2, 200000]⟩
abbrev S100000 : Shape := ⟨1, ![100000]⟩
abbrev S44x256 : Shape := ⟨2, ![44, 256]⟩
abbrev S256 : Shape := ⟨1, ![256]⟩
abbrev S4x256x512 : Shape := ⟨3, ![4, 256, 512]⟩
abbrev S4x512 : Shape := ⟨2, ![4, 512]⟩
abbrev S4x512x256 : Shape := ⟨3, ![4, 512, 256]⟩
abbrev S4x256 : Shape := ⟨2, ![4, 256]⟩
abbrev S256x256 : Shape := ⟨2, ![256, 256]⟩
abbrev S256x512 : Shape := ⟨2, ![256, 512]⟩
abbrev S512 : Shape := ⟨1, ![512]⟩
abbrev S1x200000 : Shape := ⟨2, ![1, 200000]⟩
abbrev S200000 : Shape := ⟨1, ![200000]⟩
abbrev S100000x256 : Shape := ⟨2, ![100000, 256]⟩
abbrev S1x256 : Shape := ⟨2, ![1, 256]⟩
abbrev S_ : Shape := ⟨0, ![]⟩
abbrev S200000x1 : Shape := ⟨2, ![200000, 1]⟩
abbrev S200000x256 : Shape := ⟨2, ![200000, 256]⟩
abbrev S1x256x512 : Shape := ⟨3, ![1, 256, 512]⟩
abbrev S100000x512 : Shape := ⟨2, ![100000, 512]⟩
abbrev S1x512 : Shape := ⟨2, ![1, 512]⟩
abbrev S1x512x256 : Shape := ⟨3, ![1, 512, 256]⟩
abbrev S512x256 : Shape := ⟨2, ![512, 256]⟩
abbrev S4000x256 : Shape := ⟨2, ![4000, 256]⟩
abbrev S100000x1 : Shape := ⟨2, ![100000, 1]⟩
abbrev S4000 : Shape := ⟨1, ![4000]⟩
abbrev S4000x1 : Shape := ⟨2, ![4000, 1]⟩
abbrev S4000x512 : Shape := ⟨2, ![4000, 512]⟩

abbrev nBuf : Space → Nat
  | .hbm => 195
  | .vmem => 0
  | .smem => 0
  | _ => 0

abbrev hbmTy0_0 (i : Nat) : BufTy := match i % 128 with
  | 0 => ⟨S100000x44, .f32⟩
  | 1 => ⟨S2x200000, .i32⟩
  | 2 => ⟨S100000, .i32⟩
  | 3 => ⟨S44x256, .f32⟩
  | 4 => ⟨S256, .f32⟩
  | 5 => ⟨S4x256x512, .f32⟩
  | 6 => ⟨S4x512, .f32⟩
  | 7 => ⟨S4x512x256, .f32⟩
  | 8 => ⟨S4x256, .f32⟩
  | 9 => ⟨S256x256, .f32⟩
  | 10 => ⟨S256, .f32⟩
  | 11 => ⟨S256x512, .f32⟩
  | 12 => ⟨S512, .f32⟩
  | 13 => ⟨S1x200000, .i32⟩
  | 14 => ⟨S200000, .i32⟩
  | 15 => ⟨S1x200000, .i32⟩
  | 16 => ⟨S200000, .i32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x256, .f32⟩
  | 33 => ⟨S_, .f32⟩
  | 34 => ⟨S100000x256, .f32⟩
  | 35 => ⟨S200000x1, .i32⟩
  | 36 => ⟨S100000x256, .f32⟩
  | 37 => ⟨S100000x256, .f32⟩
  | 38 => ⟨S1x256x512, .f32⟩
  | 39 => ⟨S256x512, .f32⟩
  | 40 => ⟨S100000x512, .f32⟩
  | 41 => ⟨S1x512, .f32⟩
  | 42 => ⟨S512, .f32⟩
  | 43 => ⟨S1x512, .f32⟩
  | 44 => ⟨S100000x512, .f32⟩
  | 45 => ⟨S100000x512, .f32⟩
  | 46 => ⟨S_, .f32⟩
  | 47 => ⟨S100000x512, .f32⟩
  | 48 => ⟨S100000x512, .f32⟩
  | 49 => ⟨S1x512x256, .f32⟩
  | 50 => ⟨S512x256, .f32⟩
  | 51 => ⟨S100000x256, .f32⟩
  | 52 => ⟨S1x256, .f32⟩
  | 53 => ⟨S256, .f32⟩
  | 54 => ⟨S1x256, .f32⟩
  | 55 => ⟨S100000x256, .f32⟩
  | 56 => ⟨S100000x256, .f32⟩
  | 57 => ⟨S_, .f32⟩
  | 58 => ⟨S100000x256, .f32⟩
  | 59 => ⟨S100000x256, .f32⟩
  | 60 => ⟨S_, .i32⟩
  | 61 => ⟨S200000, .i32⟩
  | 62 => ⟨S200000, .i1⟩
  | 63 => ⟨S_, .i32⟩
  | 64 => ⟨S200000, .i32⟩
  | 65 => ⟨S200000, .i32⟩
  | 66 => ⟨S200000, .i32⟩
  | 67 => ⟨S200000x1, .i32⟩
  | 68 => ⟨S200000x256, .f32⟩
  | 69 => ⟨S_, .f32⟩
  | 70 => ⟨S100000x256, .f32⟩
  | 71 => ⟨S200000x1, .i32⟩
  | 72 => ⟨S100000x256, .f32⟩
  | 73 => ⟨S100000x256, .f32⟩
  | 74 => ⟨S1x256x512, .f32⟩
  | 75 => ⟨S256x512, .f32⟩
  | 76 => ⟨S100000x512, .f32⟩
  | 77 => ⟨S1x512, .f32⟩
  | 78 => ⟨S512, .f32⟩
  | 79 => ⟨S1x512, .f32⟩
  | 80 => ⟨S100000x512, .f32⟩
  | 81 => ⟨S100000x512, .f32⟩
  | 82 => ⟨S_, .f32⟩
  | 83 => ⟨S100000x512, .f32⟩
  | 84 => ⟨S100000x512, .f32⟩
  | 85 => ⟨S1x512x256, .f32⟩
  | 86 => ⟨S512x256, .f32⟩
  | 87 => ⟨S100000x256, .f32⟩
  | 88 => ⟨S1x256, .f32⟩
  | 89 => ⟨S256, .f32⟩
  | 90 => ⟨S1x256, .f32⟩
  | 91 => ⟨S100000x256, .f32⟩
  | 92 => ⟨S100000x256, .f32⟩
  | 93 => ⟨S_, .f32⟩
  | 94 => ⟨S100000x256, .f32⟩
  | 95 => ⟨S100000x256, .f32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000x256, .f32⟩
  | 105 => ⟨S_, .f32⟩
  | 106 => ⟨S100000x256, .f32⟩
  | 107 => ⟨S200000x1, .i32⟩
  | 108 => ⟨S100000x256, .f32⟩
  | 109 => ⟨S100000x256, .f32⟩
  | 110 => ⟨S1x256x512, .f32⟩
  | 111 => ⟨S256x512, .f32⟩
  | 112 => ⟨S100000x512, .f32⟩
  | 113 => ⟨S1x512, .f32⟩
  | 114 => ⟨S512, .f32⟩
  | 115 => ⟨S1x512, .f32⟩
  | 116 => ⟨S100000x512, .f32⟩
  | 117 => ⟨S100000x512, .f32⟩
  | 118 => ⟨S_, .f32⟩
  | 119 => ⟨S100000x512, .f32⟩
  | 120 => ⟨S100000x512, .f32⟩
  | 121 => ⟨S1x512x256, .f32⟩
  | 122 => ⟨S512x256, .f32⟩
  | 123 => ⟨S100000x256, .f32⟩
  | 124 => ⟨S1x256, .f32⟩
  | 125 => ⟨S256, .f32⟩
  | 126 => ⟨S1x256, .f32⟩
  | 127 => ⟨S100000x256, .f32⟩
  | _ => ⟨S100000x44, .f32⟩

abbrev hbmTy0_1 (i : Nat) : BufTy := match i % 128 with
  | 0 => ⟨S100000x256, .f32⟩
  | 1 => ⟨S_, .f32⟩
  | 2 => ⟨S100000x256, .f32⟩
  | 3 => ⟨S100000x256, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x256, .f32⟩
  | 13 => ⟨S_, .f32⟩
  | 14 => ⟨S100000x256, .f32⟩
  | 15 => ⟨S200000x1, .i32⟩
  | 16 => ⟨S100000x256, .f32⟩
  | 17 => ⟨S100000x256, .f32⟩
  | 18 => ⟨S1x256x512, .f32⟩
  | 19 => ⟨S256x512, .f32⟩
  | 20 => ⟨S100000x512, .f32⟩
  | 21 => ⟨S1x512, .f32⟩
  | 22 => ⟨S512, .f32⟩
  | 23 => ⟨S1x512, .f32⟩
  | 24 => ⟨S100000x512, .f32⟩
  | 25 => ⟨S100000x512, .f32⟩
  | 26 => ⟨S_, .f32⟩
  | 27 => ⟨S100000x512, .f32⟩
  | 28 => ⟨S100000x512, .f32⟩
  | 29 => ⟨S1x512x256, .f32⟩
  | 30 => ⟨S512x256, .f32⟩
  | 31 => ⟨S100000x256, .f32⟩
  | 32 => ⟨S1x256, .f32⟩
  | 33 => ⟨S256, .f32⟩
  | 34 => ⟨S1x256, .f32⟩
  | 35 => ⟨S100000x256, .f32⟩
  | 36 => ⟨S100000x256, .f32⟩
  | 37 => ⟨S_, .f32⟩
  | 38 => ⟨S100000x256, .f32⟩
  | 39 => ⟨S100000x256, .f32⟩
  | 40 => ⟨S_, .f32⟩
  | 41 => ⟨S4000x256, .f32⟩
  | 42 => ⟨S100000x1, .i32⟩
  | 43 => ⟨S4000x256, .f32⟩
  | 44 => ⟨S_, .f32⟩
  | 45 => ⟨S100000, .f32⟩
  | 46 => ⟨S_, .f32⟩
  | 47 => ⟨S4000, .f32⟩
  | 48 => ⟨S100000x1, .i32⟩
  | 49 => ⟨S4000, .f32⟩
  | 50 => ⟨S_, .f32⟩
  | 51 => ⟨S4000, .f32⟩
  | 52 => ⟨S4000, .f32⟩
  | 53 => ⟨S4000x1, .f32⟩
  | 54 => ⟨S4000x256, .f32⟩
  | 55 => ⟨S4000x256, .f32⟩
  | 56 => ⟨S4000x256, .f32⟩
  | 57 => ⟨S1x256, .f32⟩
  | 58 => ⟨S4000x256, .f32⟩
  | 59 => ⟨S4000x256, .f32⟩
  | 60 => ⟨S_, .f32⟩
  | 61 => ⟨S4000x256, .f32⟩
  | 62 => ⟨S4000x256, .f32⟩
  | 63 => ⟨S4000x512, .f32⟩
  | 64 => ⟨S1x512, .f32⟩
  | 65 => ⟨S4000x512, .f32⟩
  | 66 => ⟨S4000x512, .f32⟩
  | _ => ⟨S100000x44, .f32⟩

abbrev hbmTy (i : Nat) : BufTy := match i / 128 with
  | 0 => hbmTy0_0 i
  | 1 => hbmTy0_1 i
  | _ => ⟨S100000x44, .f32⟩

abbrev bufTy : (tb : Table) → Fin (tcTables nBuf tb) → BufTy
  | .hbm, ⟨i, _⟩ => hbmTy i
  | _, _ => ⟨S100000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_c_1 : Ref sig .tc := ⟨.hbm, 60, rfl⟩
abbrev main_v38 : Ref sig .tc := ⟨.hbm, 61, rfl⟩
abbrev main_v39 : Ref sig .tc := ⟨.hbm, 62, rfl⟩
abbrev main_c_2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call3_cst : Ref sig .tc := ⟨.hbm, 82, rfl⟩
abbrev main_call3_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call4_cst : Ref sig .tc := ⟨.hbm, 93, rfl⟩
abbrev main_call4_v0 : Ref sig .tc := ⟨.hbm, 94, rfl⟩
abbrev main_v66 : Ref sig .tc := ⟨.hbm, 95, rfl⟩
abbrev main_c_4 : Ref sig .tc := ⟨.hbm, 96, rfl⟩
abbrev main_v67 : Ref sig .tc := ⟨.hbm, 97, rfl⟩
abbrev main_v68 : Ref sig .tc := ⟨.hbm, 98, rfl⟩
abbrev main_c_5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call5_cst : Ref sig .tc := ⟨.hbm, 118, rfl⟩
abbrev main_call5_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call6_cst : Ref sig .tc := ⟨.hbm, 129, rfl⟩
abbrev main_call6_v0 : Ref sig .tc := ⟨.hbm, 130, rfl⟩
abbrev main_v95 : Ref sig .tc := ⟨.hbm, 131, rfl⟩
abbrev main_c_7 : Ref sig .tc := ⟨.hbm, 132, rfl⟩
abbrev main_v96 : Ref sig .tc := ⟨.hbm, 133, rfl⟩
abbrev main_v97 : Ref sig .tc := ⟨.hbm, 134, rfl⟩
abbrev main_c_8 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_9 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call7_cst : Ref sig .tc := ⟨.hbm, 154, rfl⟩
abbrev main_call7_v0 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call8_cst : Ref sig .tc := ⟨.hbm, 165, rfl⟩
abbrev main_call8_v0 : Ref sig .tc := ⟨.hbm, 166, rfl⟩
abbrev main_v124 : Ref sig .tc := ⟨.hbm, 167, rfl⟩
abbrev main_cst_10 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_11 : Ref sig .tc := ⟨.hbm, 172, rfl⟩
abbrev main_v128 : Ref sig .tc := ⟨.hbm, 173, rfl⟩
abbrev main_cst_12 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_13 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call9_cst : Ref sig .tc := ⟨.hbm, 188, rfl⟩
abbrev main_call9_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S200000 : S_.BroadcastsInDim S200000 (![] : Fin 0 → Fin S200000.rank)
  bcast_S200000_S200000x1_0 : S200000.BroadcastsInDim S200000x1 (![0] : Fin 1 → Fin S200000x1.rank)
  slices_S4x256x512_S1x256x512_0_0_0 : S4x256x512.Slices ![0, 0, 0] S1x256x512
  shapeCasts_S1x256x512_S256x512 : S1x256x512.ShapeCasts S256x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  slices_S4x512x256_S1x512x256_0_0_0 : S4x512x256.Slices ![0, 0, 0] S1x512x256
  shapeCasts_S1x512x256_S512x256 : S1x512x256.ShapeCasts S512x256
  slices_S4x256_S1x256_0_0 : S4x256.Slices ![0, 0] S1x256
  shapeCasts_S1x256_S256 : S1x256.ShapeCasts S256
  slices_S4x256x512_S1x256x512_1_0_0 : S4x256x512.Slices ![1, 0, 0] S1x256x512
  slices_S4x512_S1x512_1_0 : S4x512.Slices ![1, 0] S1x512
  slices_S4x512x256_S1x512x256_1_0_0 : S4x512x256.Slices ![1, 0, 0] S1x512x256
  slices_S4x256_S1x256_1_0 : S4x256.Slices ![1, 0] S1x256
  slices_S4x256x512_S1x256x512_2_0_0 : S4x256x512.Slices ![2, 0, 0] S1x256x512
  slices_S4x512_S1x512_2_0 : S4x512.Slices ![2, 0] S1x512
  slices_S4x512x256_S1x512x256_2_0_0 : S4x512x256.Slices ![2, 0, 0] S1x512x256
  slices_S4x256_S1x256_2_0 : S4x256.Slices ![2, 0] S1x256
  slices_S4x256x512_S1x256x512_3_0_0 : S4x256x512.Slices ![3, 0, 0] S1x256x512
  slices_S4x512_S1x512_3_0 : S4x512.Slices ![3, 0] S1x512
  slices_S4x512x256_S1x512x256_3_0_0 : S4x512x256.Slices ![3, 0, 0] S1x512x256
  slices_S4x256_S1x256_3_0 : S4x256.Slices ![3, 0] S1x256
  bcast_S_S4000x256 : S_.BroadcastsInDim S4000x256 (![] : Fin 0 → Fin S4000x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x256_0_1 : S4000x1.BroadcastsInDim S4000x256 (![0, 1] : Fin 2 → Fin S4000x256.rank)
  bcast_S1x256_S4000x256_0_1 : S1x256.BroadcastsInDim S4000x256 (![0, 1] : Fin 2 → Fin S4000x256.rank)
  bcast_S1x512_S4000x512_0_1 : S1x512.BroadcastsInDim S4000x512 (![0, 1] : Fin 2 → Fin S4000x512.rank)
  dot_S100000x44_S44x256_S100000x256_1_0_0_1_n_n_wf : DotDims.WF S100000x44 S44x256 S100000x256 [1] [0] [0] [1] [] []
  gather_S100000x256_S200000x1_S200000x256_1_0_n_n_0_1_1256_wf : GatherDims.WF S100000x256 S200000x1 S200000x256 [1] [0] [] [0] [] 1 ![1, 256]
  scatter_S100000x256_S200000x1_S200000x256_1_0_0_1_wf : ScatterDims.WF S100000x256 S200000x1 S200000x256 [1] [0] [0] 1
  dot_S100000x256_S256x512_S100000x512_1_0_0_1_n_n_wf : DotDims.WF S100000x256 S256x512 S100000x512 [1] [0] [0] [1] [] []
  dot_S100000x512_S512x256_S100000x256_1_0_0_1_n_n_wf : DotDims.WF S100000x512 S512x256 S100000x256 [1] [0] [0] [1] [] []
  scatter_S4000x256_S100000x1_S100000x256_1_0_0_1_wf : ScatterDims.WF S4000x256 S100000x1 S100000x256 [1] [0] [0] 1
  scatter_S4000_S100000x1_S100000_n_0_0_1_wf : ScatterDims.WF S4000 S100000x1 S100000 [] [0] [0] 1
  dot_S4000x256_S256x256_S4000x256_1_0_0_1_n_n_wf : DotDims.WF S4000x256 S256x256 S4000x256 [1] [0] [0] [1] [] []
  dot_S4000x256_S256x512_S4000x512_1_0_0_1_n_n_wf : DotDims.WF S4000x256 S256x512 S4000x512 [1] [0] [0] [1] [] []

variable [Facts₀]

def dot_S100000x44_S44x256_S100000x256_1_0_0_1_n_n : DotDims S100000x44 S44x256 S100000x256 where
  lhsContracting := [1]
  rhsContracting := [0]
  lhsNonContracting := [0]
  rhsNonContracting := [1]
  lhsBatch := []
  rhsBatch := []
  wf := dot_S100000x44_S44x256_S100000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S4000x256_S100000x1_S100000x256_1_0_0_1 : ScatterDims S4000x256 S100000x1 S100000x256 where
  updateWindowDims := [1]
  insertedWindowDims := [0]
  scatterDimsToOperandDims := [0]
  indexVectorDim := 1
  wf := scatter_S4000x256_S100000x1_S100000x256_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf

class Facts : Prop extends Facts₀ where

variable [Facts]
-- ==== Proof.KernelRun.lean ====
/-
  The idealized kernel program's run with its RESULT named. The program is six pipelined regions among stretches of
  host operations; its buffer contents at each boundary are a fold from the launch memory (`Gen.W0` … `Gen.W12`: a
  host stretch applies its operations, a region replaces its arrays by what its write-backs leave). Every weakly fair
  execution terminates without a fault in a state whose every unscoped buffer holds the last boundary's contents; read
  at the result buffer this names the program's result as `Gen.W12 m ρ c main_v104`, and read at the argument
  buffers it says they end as launched.
-/
import proofs.«101421_j70815420776483_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v104) = W12 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v104 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Result

end
-- ==== Proof.Boundaries.lean ====
/-
  Which buffers each later stage finds untouched. The program's buffer contents at its boundaries are a fold
  (`Gen.W0` … `Gen.W12`); a host stretch changes only the buffers its operations write and a region only its own
  arrays, so a weight array, the graph's index arrays and the edge lists derived from them read, at every boundary
  where a later stage needs them, as they did where they were last written: an argument as launched, the edge
  lists `main_v1` / `main_v3` as the first stretch left them, a layer's output as its region left it.
-/
import proofs.«101421_j70815420776483_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.SL.Sem

/-- A buffer that no operation of the stretch writes keeps its contents across the stretch: each operation's written
    reference is compared with the buffer's. -/
syntax "host_keeps " ident : tactic
macro_rules
  | `(tactic| host_keeps $ops:ident) => `(tactic| (
      refine StableHlo.after_of_forall_not_mem _ _ (List.forall_iff_forall_mem.mp ?_)
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

variable {F : FTy → Type} [FloatOps F]
variable (m : (ℓ : Loc nD τ sig) → Buf (Elt F) ℓ) (ρ : Dev nD → PrngReg)

/-! ## The arguments, as launched, at the boundaries where a later stage reads them -/
theorem arg0_at1 (c : Dev nD) : W1 m ρ c (Proc.devRef .tc main_arg0) = m ((c : Thread nD τ).loc main_arg0) :=
  (show W1 m ρ c (Proc.devRef .tc main_arg0) = W0 m ρ c (Proc.devRef .tc main_arg0) from by host_keeps hostOps0).trans rfl

theorem arg2_at1 (c : Dev nD) : W1 m ρ c (Proc.devRef .tc main_arg2) = m ((c : Thread nD τ).loc main_arg2) :=
  (show W1 m ρ c (Proc.devRef .tc main_arg2) = W0 m ρ c (Proc.devRef .tc main_arg2) from by host_keeps hostOps0).trans rfl
theorem arg2_at2 (c : Dev nD) : W2 m ρ c (Proc.devRef .tc main_arg2) = m ((c : Thread nD τ).loc main_arg2) :=
  (show W2 m ρ c (Proc.devRef .tc main_arg2) = W1 m ρ c (Proc.devRef .tc main_arg2) from W2_of_ne m ρ c main_arg2 (by decide)).trans (arg2_at1 m ρ c)
theorem arg2_at3 (c : Dev nD) : W3 m ρ c (Proc.devRef .tc main_arg2) = m ((c : Thread nD τ).loc main_arg2) :=
  (show W3 m ρ c (Proc.devRef .tc main_arg2) = W2 m ρ c (Proc.devRef .tc main_arg2) from by host_keeps hostOps1).trans (arg2_at2 m ρ c)
theorem arg2_at4 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (arg2_at3 m ρ c)
theorem arg2_at5 (c : Dev nD) : W5 m ρ c (Proc.devRef .tc main_arg2) = m ((c : Thread nD τ).loc main_arg2) :=
  (show W5 m ρ c (Proc.devRef .tc main_arg2) = W4 m ρ c (Proc.devRef .tc main_arg2) from by host_keeps hostOps2).trans (arg2_at4 m ρ c)
theorem arg2_at6 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (arg2_at5 m ρ c)
theorem arg2_at7 (c : Dev nD) : W7 m ρ c (Proc.devRef .tc main_arg2) = m ((c : Thread nD τ).loc main_arg2) :=
  (show W7 m ρ c (Proc.devRef .tc main_arg2) = W6 m ρ c (Proc.devRef .tc main_arg2) from by host_keeps hostOps3).trans (arg2_at6 m ρ c)
theorem arg2_at8 (c : Dev nD) : W8 m ρ c (Proc.devRef .tc main_arg2) = m ((c : Thread nD τ).loc main_arg2) :=
  (show W8 m ρ c (Proc.devRef .tc main_arg2) = W7 m ρ c (Proc.devRef .tc main_arg2) from W8_of_ne m ρ c main_arg2 (by decide)).trans (arg2_at7 m ρ c)
theorem arg2_at9 (c : Dev nD) : W9 m ρ c (Proc.devRef .tc main_arg2) = m ((c : Thread nD τ).loc main_arg2) :=
  (show W9 m ρ c (Proc.devRef .tc main_arg2) = W8 m ρ c (Proc.devRef .tc main_arg2) from by host_keeps hostOps4).trans (arg2_at8 m ρ c)
theorem arg2_at10 (c : Dev nD) : W10 m ρ c (Proc.devRef .tc main_arg2) = m ((c : Thread nD τ).loc main_arg2) :=
  (show W10 m ρ c (Proc.devRef .tc main_arg2) = W9 m ρ c (Proc.devRef .tc main_arg2) from W10_of_ne m ρ c main_arg2 (by decide)).trans (arg2_at9 m ρ c)

theorem arg4_at1 (c : Dev nD) : W1 m ρ c (Proc.devRef .tc main_arg4) = m ((c : Thread nD τ).loc main_arg4) :=
  (show W1 m ρ c (Proc.devRef .tc main_arg4) = W0 m ρ c (Proc.devRef .tc main_arg4) from by host_keeps hostOps0).trans rfl

theorem arg5_at1 (c : Dev nD) : W1 m ρ c (Proc.devRef .tc main_arg5) = m ((c : Thread nD τ).loc main_arg5) :=
  (show W1 m ρ c (Proc.devRef .tc main_arg5) = W0 m ρ c (Proc.devRef .tc main_arg5) from by host_keeps hostOps0).trans rfl
theorem arg5_at2 (c : Dev nD) : W2 m ρ c (Proc.devRef .tc main_arg5) = m ((c : Thread nD τ).loc main_arg5) :=
  (show W2 m ρ c (Proc.devRef .tc main_arg5) = W1 m ρ c (Proc.devRef .tc main_arg5) from W2_of_ne m ρ c main_arg5 (by decide)).trans (arg5_at1 m ρ c)
theorem arg5_at3 (c : Dev nD) : W3 m ρ c (Proc.devRef .tc main_arg5) = m ((c : Thread nD τ).loc main_arg5) :=
  (show W3 m ρ c (Proc.devRef .tc main_arg5) = W2 m ρ c (Proc.devRef .tc main_arg5) from by host_keeps hostOps1).trans (arg5_at2 m ρ c)
theorem arg5_at4 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (arg5_at3 m ρ c)
theorem arg5_at5 (c : Dev nD) : W5 m ρ c (Proc.devRef .tc main_arg5) = m ((c : Thread nD τ).loc main_arg5) :=
  (show W5 m ρ c (Proc.devRef .tc main_arg5) = W4 m ρ c (Proc.devRef .tc main_arg5) from by host_keeps hostOps2).trans (arg5_at4 m ρ c)
theorem arg5_at6 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (arg5_at5 m ρ c)
theorem arg5_at7 (c : Dev nD) : W7 m ρ c (Proc.devRef .tc main_arg5) = m ((c : Thread nD τ).loc main_arg5) :=
  (show W7 m ρ c (Proc.devRef .tc main_arg5) = W6 m ρ c (Proc.devRef .tc main_arg5) from by host_keeps hostOps3).trans (arg5_at6 m ρ c)
theorem arg5_at8 (c : Dev nD) : W8 m ρ c (Proc.devRef .tc main_arg5) = m ((c : Thread nD τ).loc main_arg5) :=
  (show W8 m ρ c (Proc.devRef .tc main_arg5) = W7 m ρ c (Proc.devRef .tc main_arg5) from W8_of_ne m ρ c main_arg5 (by decide)).trans (arg5_at7 m ρ c)

theorem arg6_at1 (c : Dev nD) : W1 m ρ c (Proc.devRef .tc main_arg6) = m ((c : Thread nD τ).loc main_arg6) :=
  (show W1 m ρ c (Proc.devRef .tc main_arg6) = W0 m ρ c (Proc.devRef .tc main_arg6) from by host_keeps hostOps0).trans rfl
theorem arg6_at2 (c : Dev nD) : W2 m ρ c (Proc.devRef .tc main_arg6) = m ((c : Thread nD τ).loc main_arg6) :=
  (show W2 m ρ c (Proc.devRef .tc main_arg6) = W1 m ρ c (Proc.devRef .tc main_arg6) from W2_of_ne m ρ c main_arg6 (by decide)).trans (arg6_at1 m ρ c)
theorem arg6_at3 (c : Dev nD) : W3 m ρ c (Proc.devRef .tc main_arg6) = m ((c : Thread nD τ).loc main_arg6) :=
  (show W3 m ρ c (Proc.devRef .tc main_arg6) = W2 m ρ c (Proc.devRef .tc main_arg6) from by host_keeps hostOps1).trans (arg6_at2 m ρ c)
theorem arg6_at4 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (arg6_at3 m ρ c)
theorem arg6_at5 (c : Dev nD) : W5 m ρ c (Proc.devRef .tc main_arg6) = m ((c : Thread nD τ).loc main_arg6) :=
  (show W5 m ρ c (Proc.devRef .tc main_arg6) = W4 m ρ c (Proc.devRef .tc main_arg6) from by host_keeps hostOps2).trans (arg6_at4 m ρ c)
theorem arg6_at6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (arg6_at5 m ρ c)
theorem arg6_at7 (c : Dev nD) : W7 m ρ c (Proc.devRef .tc main_arg6) = m ((c : Thread nD τ).loc main_arg6) :=
  (show W7 m ρ c (Proc.devRef .tc main_arg6) = W6 m ρ c (Proc.devRef .tc main_arg6) from by host_keeps hostOps3).trans (arg6_at6 m ρ c)
theorem arg6_at8 (c : Dev nD) : W8 m ρ c (Proc.devRef .tc main_arg6) = m ((c : Thread nD τ).loc main_arg6) :=
  (show W8 m ρ c (Proc.devRef .tc main_arg6) = W7 m ρ c (Proc.devRef .tc main_arg6) from W8_of_ne m ρ c main_arg6 (by decide)).trans (arg6_at7 m ρ c)

theorem arg7_at1 (c : Dev nD) : W1 m ρ c (Proc.devRef .tc main_arg7) = m ((c : Thread nD τ).loc main_arg7) :=
  (show W1 m ρ c (Proc.devRef .tc main_arg7) = W0 m ρ c (Proc.devRef .tc main_arg7) from by host_keeps hostOps0).trans rfl
theorem arg7_at2 (c : Dev nD) : W2 m ρ c (Proc.devRef .tc main_arg7) = m ((c : Thread nD τ).loc main_arg7) :=
  (show W2 m ρ c (Proc.devRef .tc main_arg7) = W1 m ρ c (Proc.devRef .tc main_arg7) from W2_of_ne m ρ c main_arg7 (by decide)).trans (arg7_at1 m ρ c)
theorem arg7_at3 (c : Dev nD) : W3 m ρ c (Proc.devRef .tc main_arg7) = m ((c : Thread nD τ).loc main_arg7) :=
  (show W3 m ρ c (Proc.devRef .tc main_arg7) = W2 m ρ c (Proc.devRef .tc main_arg7) from by host_keeps hostOps1).trans (arg7_at2 m ρ c)
theorem arg7_at4 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (arg7_at3 m ρ c)
theorem arg7_at5 (c : Dev nD) : W5 m ρ c (Proc.devRef .tc main_arg7) = m ((c : Thread nD τ).loc main_arg7) :=
  (show W5 m ρ c (Proc.devRef .tc main_arg7) = W4 m ρ c (Proc.devRef .tc main_arg7) from by host_keeps hostOps2).trans (arg7_at4 m ρ c)
theorem arg7_at6 (c : Dev nD) : W6 m ρ c (Proc.devRef .tc main_arg7) = m ((c : Thread nD τ).loc main_arg7) :=
  (show W6 m ρ c (Proc.devRef .tc main_arg7) = W5 m ρ c (Proc.devRef .tc main_arg7) from W6_of_ne m ρ c main_arg7 (by decide)).trans (arg7_at5 m ρ c)
theorem arg7_at7 (c : Dev nD) : W7 m ρ c (Proc.devRef .tc main_arg7) = m ((c : Thread nD τ).loc main_arg7) :=
  (show W7 m ρ c (Proc.devRef .tc main_arg7) = W6 m ρ c (Proc.devRef .tc main_arg7) from by host_keeps hostOps3).trans (arg7_at6 m ρ c)
theorem arg7_at8 (c : Dev nD) : W8 m ρ c (Proc.devRef .tc main_arg7) = m ((c : Thread nD τ).loc main_arg7) :=
  (show W8 m ρ c (Proc.devRef .tc main_arg7) = W7 m ρ c (Proc.devRef .tc main_arg7) from W8_of_ne m ρ c main_arg7 (by decide)).trans (arg7_at7 m ρ c)

theorem arg8_at1 (c : Dev nD) : W1 m ρ c (Proc.devRef .tc main_arg8) = m ((c : Thread nD τ).loc main_arg8) :=
  (show W1 m ρ c (Proc.devRef .tc main_arg8) = W0 m ρ c (Proc.devRef .tc main_arg8) from by host_keeps hostOps0).trans rfl
theorem arg8_at2 (c : Dev nD) : W2 m ρ c (Proc.devRef .tc main_arg8) = m ((c : Thread nD τ).loc main_arg8) :=
  (show W2 m ρ c (Proc.devRef .tc main_arg8) = W1 m ρ c (Proc.devRef .tc main_arg8) from W2_of_ne m ρ c main_arg8 (by decide)).trans (arg8_at1 m ρ c)
theorem arg8_at3 (c : Dev nD) : W3 m ρ c (Proc.devRef .tc main_arg8) = m ((c : Thread nD τ).loc main_arg8) :=
  (show W3 m ρ c (Proc.devRef .tc main_arg8) = W2 m ρ c (Proc.devRef .tc main_arg8) from by host_keeps hostOps1).trans (arg8_at2 m ρ c)
theorem arg8_at4 (c : Dev nD) : W4 m ρ c (Proc.devRef .tc main_arg8) = m ((c : Thread nD τ).loc main_arg8) :=
  (show W4 m ρ c (Proc.devRef .tc main_arg8) = W3 m ρ c (Proc.devRef .tc main_arg8) from W4_of_ne m ρ c main_arg8 (by decide)).trans (arg8_at3 m ρ c)
theorem arg8_at5 (c : Dev nD) : W5 m ρ c (Proc.devRef .tc main_arg8) = m ((c : Thread nD τ).loc main_arg8) :=
  (show W5 m ρ c (Proc.devRef .tc main_arg8) = W4 m ρ c (Proc.devRef .tc main_arg8) from by host_keeps hostOps2).trans (arg8_at4 m ρ c)
theorem arg8_at6 (c : Dev nD) : W6 m ρ c (Proc.devRef .tc main_arg8) = m ((c : Thread nD τ).loc main_arg8) :=
  (show W6 m ρ c (Proc.devRef .tc main_arg8) = W5 m ρ c (Proc.devRef .tc main_arg8) from W6_of_ne m ρ c main_arg8 (by decide)).trans (arg8_at5 m ρ c)
theorem arg8_at7 (c : Dev nD) : W7 m ρ c (Proc.devRef .tc main_arg8) = m ((c : Thread nD τ).loc main_arg8) :=
  (show W7 m ρ c (Proc.devRef .tc main_arg8) = W6 m ρ c (Proc.devRef .tc main_arg8) from by host_keeps hostOps3).trans (arg8_at6 m ρ c)
theorem arg8_at8 (c : Dev nD) : W8 m ρ c (Proc.devRef .tc main_arg8) = m ((c : Thread nD τ).loc main_arg8) :=
  (show W8 m ρ c (Proc.devRef .tc main_arg8) = W7 m ρ c (Proc.devRef .tc main_arg8) from W8_of_ne m ρ c main_arg8 (by decide)).trans (arg8_at7 m ρ c)

theorem arg9_at1 (c : Dev nD) : W1 m ρ c (Proc.devRef .tc main_arg9) = m ((c : Thread nD τ).loc main_arg9) :=
  (show W1 m ρ c (Proc.devRef .tc main_arg9) = W0 m ρ c (Proc.devRef .tc main_arg9) from by host_keeps hostOps0).trans rfl
theorem arg9_at2 (c : Dev nD) : W2 m ρ c (Proc.devRef .tc main_arg9) = m ((c : Thread nD τ).loc main_arg9) :=
  (show W2 m ρ c (Proc.devRef .tc main_arg9) = W1 m ρ c (Proc.devRef .tc main_arg9) from W2_of_ne m ρ c main_arg9 (by decide)).trans (arg9_at1 m ρ c)
theorem arg9_at3 (c : Dev nD) : W3 m ρ c (Proc.devRef .tc main_arg9) = m ((c : Thread nD τ).loc main_arg9) :=
  (show W3 m ρ c (Proc.devRef .tc main_arg9) = W2 m ρ c (Proc.devRef .tc main_arg9) from by host_keeps hostOps1).trans (arg9_at2 m ρ c)
theorem arg9_at4 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (arg9_at3 m ρ c)
theorem arg9_at5 (c : Dev nD) : W5 m ρ c (Proc.devRef .tc main_arg9) = m ((c : Thread nD τ).loc main_arg9) :=
  (show W5 m ρ c (Proc.devRef .tc main_arg9) = W4 m ρ c (Proc.devRef .tc main_arg9) from by host_keeps hostOps2).trans (arg9_at4 m ρ c)
theorem arg9_at6 (c : Dev nD) : W6 m ρ c (Proc.devRef .tc main_arg9) = m ((c : Thread nD τ).loc main_arg9) :=
  (show W6 m ρ c (Proc.devRef .tc main_arg9) = W5 m ρ c (Proc.devRef .tc main_arg9) from W6_of_ne m ρ c main_arg9 (by decide)).trans (arg9_at5 m ρ c)
theorem arg9_at7 (c : Dev nD) : W7 m ρ c (Proc.devRef .tc main_arg9) = m ((c : Thread nD τ).loc main_arg9) :=
  (show W7 m ρ c (Proc.devRef .tc main_arg9) = W6 m ρ c (Proc.devRef .tc main_arg9) from by host_keeps hostOps3).trans (arg9_at6 m ρ c)
theorem arg9_at8 (c : Dev nD) : W8 m ρ c (Proc.devRef .tc main_arg9) = m ((c : Thread nD τ).loc main_arg9) :=
  (show W8 m ρ c (Proc.devRef .tc main_arg9) = W7 m ρ c (Proc.devRef .tc main_arg9) from W8_of_ne m ρ c main_arg9 (by decide)).trans (arg9_at7 m ρ c)
theorem arg9_at9 (c : Dev nD) : W9 m ρ c (Proc.devRef .tc main_arg9) = m ((c : Thread nD τ).loc main_arg9) :=
  (show W9 m ρ c (Proc.devRef .tc main_arg9) = W8 m ρ c (Proc.devRef .tc main_arg9) from by host_keeps hostOps4).trans (arg9_at8 m ρ c)
theorem arg9_at10 (c : Dev nD) : W10 m ρ c (Proc.devRef .tc main_arg9) = m ((c : Thread nD τ).loc main_arg9) :=
  (show W10 m ρ c (Proc.devRef .tc main_arg9) = W9 m ρ c (Proc.devRef .tc main_arg9) from W10_of_ne m ρ c main_arg9 (by decide)).trans (arg9_at9 m ρ c)

theorem arg10_at1 (c : Dev nD) : W1 m ρ c (Proc.devRef .tc main_arg10) = m ((c : Thread nD τ).loc main_arg10) :=
  (show W1 m ρ c (Proc.devRef .tc main_arg10) = W0 m ρ c (Proc.devRef .tc main_arg10) from by host_keeps hostOps0).trans rfl
theorem arg10_at2 (c : Dev nD) : W2 m ρ c (Proc.devRef .tc main_arg10) = m ((c : Thread nD τ).loc main_arg10) :=
  (show W2 m ρ c (Proc.devRef .tc main_arg10) = W1 m ρ c (Proc.devRef .tc main_arg10) from W2_of_ne m ρ c main_arg10 (by decide)).trans (arg10_at1 m ρ c)
theorem arg10_at3 (c : Dev nD) : W3 m ρ c (Proc.devRef .tc main_arg10) = m ((c : Thread nD τ).loc main_arg10) :=
  (show W3 m ρ c (Proc.devRef .tc main_arg10) = W2 m ρ c (Proc.devRef .tc main_arg10) from by host_keeps hostOps1).trans (arg10_at2 m ρ c)
theorem arg10_at4 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (arg10_at3 m ρ c)
theorem arg10_at5 (c : Dev nD) : W5 m ρ c (Proc.devRef .tc main_arg10) = m ((c : Thread nD τ).loc main_arg10) :=
  (show W5 m ρ c (Proc.devRef .tc main_arg10) = W4 m ρ c (Proc.devRef .tc main_arg10) from by host_keeps hostOps2).trans (arg10_at4 m ρ c)
theorem arg10_at6 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (arg10_at5 m ρ c)
theorem arg10_at7 (c : Dev nD) : W7 m ρ c (Proc.devRef .tc main_arg10) = m ((c : Thread nD τ).loc main_arg10) :=
  (show W7 m ρ c (Proc.devRef .tc main_arg10) = W6 m ρ c (Proc.devRef .tc main_arg10) from by host_keeps hostOps3).trans (arg10_at6 m ρ c)
theorem arg10_at8 (c : Dev nD) : W8 m ρ c (Proc.devRef .tc main_arg10) = m ((c : Thread nD τ).loc main_arg10) :=
  (show W8 m ρ c (Proc.devRef .tc main_arg10) = W7 m ρ c (Proc.devRef .tc main_arg10) from W8_of_ne m ρ c main_arg10 (by decide)).trans (arg10_at7 m ρ c)
theorem arg10_at9 (c : Dev nD) : W9 m ρ c (Proc.devRef .tc main_arg10) = m ((c : Thread nD τ).loc main_arg10) :=
  (show W9 m ρ c (Proc.devRef .tc main_arg10) = W8 m ρ c (Proc.devRef .tc main_arg10) from by host_keeps hostOps4).trans (arg10_at8 m ρ c)
theorem arg10_at10 (c : Dev nD) : W10 m ρ c (Proc.devRef .tc main_arg10) = m ((c : Thread nD τ).loc main_arg10) :=
  (show W10 m ρ c (Proc.devRef .tc main_arg10) = W9 m ρ c (Proc.devRef .tc main_arg10) from W10_of_ne m ρ c main_arg10 (by decide)).trans (arg10_at9 m ρ c)
theorem arg10_at11 (c : Dev nD) : W11 m ρ c (Proc.devRef .tc main_arg10) = m ((c : Thread nD τ).loc main_arg10) :=
  (show W11 m ρ c (Proc.devRef .tc main_arg10) = W10 m ρ c (Proc.devRef .tc main_arg10) from by host_keeps hostOps5).trans (arg10_at10 m ρ c)

theorem arg11_at1 (c : Dev nD) : W1 m ρ c (Proc.devRef .tc main_arg11) = m ((c : Thread nD τ).loc main_arg11) :=
  (show W1 m ρ c (Proc.devRef .tc main_arg11) = W0 m ρ c (Proc.devRef .tc main_arg11) from by host_keeps hostOps0).trans rfl
theorem arg11_at2 (c : Dev nD) : W2 m ρ c (Proc.devRef .tc main_arg11) = m ((c : Thread nD τ).loc main_arg11) :=
  (show W2 m ρ c (Proc.devRef .tc main_arg11) = W1 m ρ c (Proc.devRef .tc main_arg11) from W2_of_ne m ρ c main_arg11 (by decide)).trans (arg11_at1 m ρ c)
theorem arg11_at3 (c : Dev nD) : W3 m ρ c (Proc.devRef .tc main_arg11) = m ((c : Thread nD τ).loc main_arg11) :=
  (show W3 m ρ c (Proc.devRef .tc main_arg11) = W2 m ρ c (Proc.devRef .tc main_arg11) from by host_keeps hostOps1).trans (arg11_at2 m ρ c)
theorem arg11_at4 (c : Dev nD) : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (arg11_at3 m ρ c)
theorem arg11_at5 (c : Dev nD) : W5 m ρ c (Proc.devRef .tc main_arg11) = m ((c : Thread nD τ).loc main_arg11) :=
  (show W5 m ρ c (Proc.devRef .tc main_arg11) = W4 m ρ c (Proc.devRef .tc main_arg11) from by host_keeps hostOps2).trans (arg11_at4 m ρ c)
theorem arg11_at6 (c : Dev nD) : W6 m ρ c (Proc.devRef .tc main_arg11) = m ((c : Thread nD τ).loc main_arg11) :=
  (show W6 m ρ c (Proc.devRef .tc main_arg11) = W5 m ρ c (Proc.devRef .tc main_arg11) from W6_of_ne m ρ c main_arg11 (by decide)).trans (arg11_at5 m ρ c)
theorem arg11_at7 (c : Dev nD) : W7 m ρ c (Proc.devRef .tc main_arg11) = m ((c : Thread nD τ).loc main_arg11) :=
  (show W7 m ρ c (Proc.devRef .tc main_arg11) = W6 m ρ c (Proc.devRef .tc main_arg11) from by host_keeps hostOps3).trans (arg11_at6 m ρ c)
theorem arg11_at8 (c : Dev nD) : W8 m ρ c (Proc.devRef .tc main_arg11) = m ((c : Thread nD τ).loc main_arg11) :=
  (show W8 m ρ c (Proc.devRef .tc main_arg11) = W7 m ρ c (Proc.devRef .tc main_arg11) from W8_of_ne m ρ c main_arg11 (by decide)).trans (arg11_at7 m ρ c)
theorem arg11_at9 (c : Dev nD) : W9 m ρ c (Proc.devRef .tc main_arg11) = m ((c : Thread nD τ).loc main_arg11) :=
  (show W9 m ρ c (Proc.devRef .tc main_arg11) = W8 m ρ c (Proc.devRef .tc main_arg11) from by host_keeps hostOps4).trans (arg11_at8 m ρ c)
theorem arg11_at10 (c : Dev nD) : W10 m ρ c (Proc.devRef .tc main_arg11) = m ((c : Thread nD τ).loc main_arg11) :=
  (show W10 m ρ c (Proc.devRef .tc main_arg11) = W9 m ρ c (Proc.devRef .tc main_arg11) from W10_of_ne m ρ c main_arg11 (by decide)).trans (arg11_at9 m ρ c)

theorem arg12_at1 (c : Dev nD) : W1 m ρ c (Proc.devRef .tc main_arg12) = m ((c : Thread nD τ).loc main_arg12) :=
  (show W1 m ρ c (Proc.devRef .tc main_arg12) = W0 m ρ c (Proc.devRef .tc main_arg12) from by host_keeps hostOps0).trans rfl
theorem arg12_at2 (c : Dev nD) : W2 m ρ c (Proc.devRef .tc main_arg12) = m ((c : Thread nD τ).loc main_arg12) :=
  (show W2 m ρ c (Proc.devRef .tc main_arg12) = W1 m ρ c (Proc.devRef .tc main_arg12) from W2_of_ne m ρ c main_arg12 (by decide)).trans (arg12_at1 m ρ c)
theorem arg12_at3 (c : Dev nD) : W3 m ρ c (Proc.devRef .tc main_arg12) = m ((c : Thread nD τ).loc main_arg12) :=
  (show W3 m ρ c (Proc.devRef .tc main_arg12) = W2 m ρ c (Proc.devRef .tc main_arg12) from by host_keeps hostOps1).trans (arg12_at2 m ρ c)
theorem arg12_at4 (c : Dev nD) : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (arg12_at3 m ρ c)
theorem arg12_at5 (c : Dev nD) : W5 m ρ c (Proc.devRef .tc main_arg12) = m ((c : Thread nD τ).loc main_arg12) :=
  (show W5 m ρ c (Proc.devRef .tc main_arg12) = W4 m ρ c (Proc.devRef .tc main_arg12) from by host_keeps hostOps2).trans (arg12_at4 m ρ c)
theorem arg12_at6 (c : Dev nD) : W6 m ρ c (Proc.devRef .tc main_arg12) = m ((c : Thread nD τ).loc main_arg12) :=
  (show W6 m ρ c (Proc.devRef .tc main_arg12) = W5 m ρ c (Proc.devRef .tc main_arg12) from W6_of_ne m ρ c main_arg12 (by decide)).trans (arg12_at5 m ρ c)
theorem arg12_at7 (c : Dev nD) : W7 m ρ c (Proc.devRef .tc main_arg12) = m ((c : Thread nD τ).loc main_arg12) :=
  (show W7 m ρ c (Proc.devRef .tc main_arg12) = W6 m ρ c (Proc.devRef .tc main_arg12) from by host_keeps hostOps3).trans (arg12_at6 m ρ c)
theorem arg12_at8 (c : Dev nD) : W8 m ρ c (Proc.devRef .tc main_arg12) = m ((c : Thread nD τ).loc main_arg12) :=
  (show W8 m ρ c (Proc.devRef .tc main_arg12) = W7 m ρ c (Proc.devRef .tc main_arg12) from W8_of_ne m ρ c main_arg12 (by decide)).trans (arg12_at7 m ρ c)
theorem arg12_at9 (c : Dev nD) : W9 m ρ c (Proc.devRef .tc main_arg12) = m ((c : Thread nD τ).loc main_arg12) :=
  (show W9 m ρ c (Proc.devRef .tc main_arg12) = W8 m ρ c (Proc.devRef .tc main_arg12) from by host_keeps hostOps4).trans (arg12_at8 m ρ c)
theorem arg12_at10 (c : Dev nD) : W10 m ρ c (Proc.devRef .tc main_arg12) = m ((c : Thread nD τ).loc main_arg12) :=
  (show W10 m ρ c (Proc.devRef .tc main_arg12) = W9 m ρ c (Proc.devRef .tc main_arg12) from W10_of_ne m ρ c main_arg12 (by decide)).trans (arg12_at9 m ρ c)
theorem arg12_at11 (c : Dev nD) : W11 m ρ c (Proc.devRef .tc main_arg12) = m ((c : Thread nD τ).loc main_arg12) :=
  (show W11 m ρ c (Proc.devRef .tc main_arg12) = W10 m ρ c (Proc.devRef .tc main_arg12) from by host_keeps hostOps5).trans (arg12_at10 m ρ c)

/-! ## The edge lists, as the first stretch left them -/
theorem v1_at2 (c : Dev nD) : W2 m ρ c (Proc.devRef .tc main_v1) = W1 m ρ c (Proc.devRef .tc main_v1) :=
  (show W2 m ρ c (Proc.devRef .tc main_v1) = W1 m ρ c (Proc.devRef .tc main_v1) from W2_of_ne m ρ c main_v1 (by decide)).trans rfl
theorem v1_at3 (c : Dev nD) : W3 m ρ c (Proc.devRef .tc main_v1) = W1 m ρ c (Proc.devRef .tc main_v1) :=
  (show W3 m ρ c (Proc.devRef .tc main_v1) = W2 m ρ c (Proc.devRef .tc main_v1) from by host_keeps hostOps1).trans (v1_at2 m ρ c)
theorem v1_at4 (c : Dev nD) : W4 m ρ c (Proc.devRef .tc main_v1) = W1 m ρ c (Proc.devRef .tc main_v1) :=
  (show W4 m ρ c (Proc.devRef .tc main_v1) = W3 m ρ c (Proc.devRef .tc main_v1) from W4_of_ne m ρ c main_v1 (by decide)).trans (v1_at3 m ρ c)
theorem v1_at5 (c : Dev nD) : W5 m ρ c (Proc.devRef .tc main_v1) = W1 m ρ c (Proc.devRef .tc main_v1) :=
  (show W5 m ρ c (Proc.devRef .tc main_v1) = W4 m ρ c (Proc.devRef .tc main_v1) from by host_keeps hostOps2).trans (v1_at4 m ρ c)
theorem v1_at6 (c : Dev nD) : W6 m ρ c (Proc.devRef .tc main_v1) = W1 m ρ c (Proc.devRef .tc main_v1) :=
  (show W6 m ρ c (Proc.devRef .tc main_v1) = W5 m ρ c (Proc.devRef .tc main_v1) from W6_of_ne m ρ c main_v1 (by decide)).trans (v1_at5 m ρ c)
theorem v1_at7 (c : Dev nD) : W7 m ρ c (Proc.devRef .tc main_v1) = W1 m ρ c (Proc.devRef .tc main_v1) :=
  (show W7 m ρ c (Proc.devRef .tc main_v1) = W6 m ρ c (Proc.devRef .tc main_v1) from by host_keeps hostOps3).trans (v1_at6 m ρ c)
theorem v1_at8 (c : Dev nD) : W8 m ρ c (Proc.devRef .tc main_v1) = W1 m ρ c (Proc.devRef .tc main_v1) :=
  (show W8 m ρ c (Proc.devRef .tc main_v1) = W7 m ρ c (Proc.devRef .tc main_v1) from W8_of_ne m ρ c main_v1 (by decide)).trans (v1_at7 m ρ c)

theorem v3_at2 (c : Dev nD) : W2 m ρ c (Proc.devRef .tc main_v3) = W1 m ρ c (Proc.devRef .tc main_v3) :=
  (show W2 m ρ c (Proc.devRef .tc main_v3) = W1 m ρ c (Proc.devRef .tc main_v3) from W2_of_ne m ρ c main_v3 (by decide)).trans rfl
theorem v3_at3 (c : Dev nD) : W3 m ρ c (Proc.devRef .tc main_v3) = W1 m ρ c (Proc.devRef .tc main_v3) :=
  (show W3 m ρ c (Proc.devRef .tc main_v3) = W2 m ρ c (Proc.devRef .tc main_v3) from by host_keeps hostOps1).trans (v3_at2 m ρ c)
theorem v3_at4 (c : Dev nD) : W4 m ρ c (Proc.devRef .tc main_v3) = W1 m ρ c (Proc.devRef .tc main_v3) :=
  (show W4 m ρ c (Proc.devRef .tc main_v3) = W3 m ρ c (Proc.devRef .tc main_v3) from W4_of_ne m ρ c main_v3 (by decide)).trans (v3_at3 m ρ c)
theorem v3_at5 (c : Dev nD) : W5 m ρ c (Proc.devRef .tc main_v3) = W1 m ρ c (Proc.devRef .tc main_v3) :=
  (show W5 m ρ c (Proc.devRef .tc main_v3) = W4 m ρ c (Proc.devRef .tc main_v3) from by host_keeps hostOps2).trans (v3_at4 m ρ c)
theorem v3_at6 (c : Dev nD) : W6 m ρ c (Proc.devRef .tc main_v3) = W1 m ρ c (Proc.devRef .tc main_v3) :=
  (show W6 m ρ c (Proc.devRef .tc main_v3) = W5 m ρ c (Proc.devRef .tc main_v3) from W6_of_ne m ρ c main_v3 (by decide)).trans (v3_at5 m ρ c)
theorem v3_at7 (c : Dev nD) : W7 m ρ c (Proc.devRef .tc main_v3) = W1 m ρ c (Proc.devRef .tc main_v3) :=
  (show W7 m ρ c (Proc.devRef .tc main_v3) = W6 m ρ c (Proc.devRef .tc main_v3) from by host_keeps hostOps3).trans (v3_at6 m ρ c)
theorem v3_at8 (c : Dev nD) : W8 m ρ c (Proc.devRef .tc main_v3) = W1 m ρ c (Proc.devRef .tc main_v3) :=
  (show W8 m ρ c (Proc.devRef .tc main_v3) = W7 m ρ c (Proc.devRef .tc main_v3) from W8_of_ne m ρ c main_v3 (by decide)).trans (v3_at7 m ρ c)

/-! ## A layer's output, across the stretch that follows its region -/
theorem v5_at3 (c : Dev nD) : W3 m ρ c (Proc.devRef .tc main_v5) = W2 m ρ c (Proc.devRef .tc main_v5) := by
  host_keeps hostOps1
theorem v26_at5 (c : Dev nD) : W5 m ρ c (Proc.devRef .tc main_v26) = W4 m ρ c (Proc.devRef .tc main_v26) := by
  host_keeps hostOps2
theorem v47_at7 (c : Dev nD) : W7 m ρ c (Proc.devRef .tc main_v47) = W6 m ρ c (Proc.devRef .tc main_v47) := by
  host_keeps hostOps3
theorem v68_at9 (c : Dev nD) : W9 m ρ c (Proc.devRef .tc main_v68) = W8 m ρ c (Proc.devRef .tc main_v68) := by
  host_keeps hostOps4

end Cert.KernelIdeal.Result

end
-- ==== Proof.Stretches.lean ====
/-
  What the host stretches compute, as closed terms. Between the regions the program derives, on the host: the edge
  sources and targets (the two rows of the edge-index array), the source indices wrapped the way array indexing wraps
  a negative index, each layer's neighbour sum (gather the source rows, scatter-add them at the targets onto zeros),
  each layer's weight and bias slices (the weights rounded to bfloat16), and at the end the mean pool (the per-graph
  sum of node rows divided by the node count floored at one). Each lemma reads one buffer at a region's entry as its
  term over the previous boundary's contents.
-/
import proofs.«101421_j70815420776483_1_alg».proof.Proof.Boundaries

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable {F : FTy → Type} [FloatOps F]

/-! ## The pieces -/

/-- Row `r` of the edge-index array as a list of 200000 node indices (row 0: sources, row 1: targets). -/
def srcList (x1 : (⟨S2x200000, .i32⟩ : BufTy).Contents (Elt F)) : (⟨S200000, .i32⟩ : BufTy).Contents (Elt F) :=
  shapeCast _ (extractStridedSlice S1x200000 ![0, 0] x1 slices_S2x200000_S1x200000_0_0) shapeCasts_S1x200000_S200000
def dstList (x1 : (⟨S2x200000, .i32⟩ : BufTy).Contents (Elt F)) : (⟨S200000, .i32⟩ : BufTy).Contents (Elt F) :=
  shapeCast _ (extractStridedSlice S1x200000 ![1, 0] x1 slices_S2x200000_S1x200000_1_0) shapeCasts_S1x200000_S200000

/-- A negative index counts from the end: `s + 100000` where `s < 0`, else `s`. -/
def wrapIdx (s : (⟨S200000, .i32⟩ : BufTy).Contents (Elt F)) : (⟨S200000, .i32⟩ : BufTy).Contents (Elt F) :=
  select (cmpi .slt s (broadcastInDim S200000 ![] bcast_S_S200000 (constantI S_ 32 0#32)))
    (addi s (broadcastInDim S200000 ![] bcast_S_S200000 (constantI S_ 32 100000#32))) s

/-- The neighbours' sum: the rows of `h` at the (wrapped) sources, added up at the targets, from zeros. -/
def neighbourSum (h : (⟨S100000x256, .f32⟩ : BufTy).Contents (Elt F)) (s d : (⟨S200000, .i32⟩ : BufTy).Contents (Elt F)) : (⟨S100000x256, .f32⟩ : BufTy).Contents (Elt F) :=
  Host.scatterAdd scatter_S100000x256_S200000x1_S200000x256_1_0_0_1
    (broadcastInDim S100000x256 ![] bcast_S_S100000x256 (constant S_ .f32 0x00000000#32))
    (broadcastInDim S200000x1 ![0] bcast_S200000_S200000x1_0 d)
    (Host.gather gather_S100000x256_S200000x1_S200000x256_1_0_n_n_0_1_1256 h (broadcastInDim S200000x1 ![0] bcast_S200000_S200000x1_0 (wrapIdx s)))

/-- The mean pool: per graph, the sum of its nodes' rows divided by the number of its nodes floored at one. -/
def meanPool (h : (⟨S100000x256, .f32⟩ : BufTy).Contents (Elt F)) (g : (⟨S100000, .i32⟩ : BufTy).Contents (Elt F)) : (⟨S4000x256, .f32⟩ : BufTy).Contents (Elt F) :=
  Host.divf
    (Host.scatterAdd scatter_S4000x256_S100000x1_S100000x256_1_0_0_1 (broadcastInDim S4000x256 ![] bcast_S_S4000x256 (constant S_ .f32 0x00000000#32))
      (broadcastInDim S100000x1 ![0] bcast_S100000_S100000x1_0 g) h)
    (broadcastInDim S4000x256 ![0, 1] bcast_S4000x1_S4000x256_0_1 (broadcastInDim S4000x1 ![0] bcast_S4000_S4000x1_0
      (maximumf (Host.scatterAdd scatter_S4000_S100000x1_S100000_n_0_0_1 (broadcastInDim S4000 ![] bcast_S_S4000 (constant S_ .f32 0x00000000#32))
          (broadcastInDim S100000x1 ![0] bcast_S100000_S100000x1_0 g) (broadcastInDim S100000 ![] bcast_S_S100000 (constant S_ .f32 0x3F800000#32)))
        (broadcastInDim S4000 ![] bcast_S_S4000 (constant S_ .f32 0x3F800000#32)))))

/-- Layer 0's weights and biases: slice `0` of each stacked array, the weights rounded to bfloat16. -/
def w1L0 (x5 : (⟨S4x256x512, .f32⟩ : BufTy).Contents (Elt F)) : (⟨S256x512, .bf16⟩ : BufTy).Contents (Elt F) :=
  truncf .bf16 (shapeCast _ (extractStridedSlice S1x256x512 ![0, 0, 0] x5 slices_S4x256x512_S1x256x512_0_0_0) shapeCasts_S1x256x512_S256x512) bitsLt_bf16_f32
def w2L0 (x7 : (⟨S4x512x256, .f32⟩ : BufTy).Contents (Elt F)) : (⟨S512x256, .bf16⟩ : BufTy).Contents (Elt F) :=
  truncf .bf16 (shapeCast _ (extractStridedSlice S1x512x256 ![0, 0, 0] x7 slices_S4x512x256_S1x512x256_0_0_0) shapeCasts_S1x512x256_S512x256) bitsLt_bf16_f32
def b1L0 (x6 : (⟨S4x512, .f32⟩ : BufTy).Contents (Elt F)) : (⟨S512, .f32⟩ : BufTy).Contents (Elt F) :=
  shapeCast _ (extractStridedSlice S1x512 ![0, 0] x6 slices_S4x512_S1x512_0_0) shapeCasts_S1x512_S512
def b2L0 (x8 : (⟨S4x256, .f32⟩ : BufTy).Contents (Elt F)) : (⟨S256, .f32⟩ : BufTy).Contents (Elt F) :=
  shapeCast _ (extractStridedSlice S1x256 ![0, 0] x8 slices_S4x256_S1x256_0_0) shapeCasts_S1x256_S256
/-- Layer 1's weights and biases: slice `1` of each stacked array, the weights rounded to bfloat16. -/
def w1L1 (x5 : (⟨S4x256x512, .f32⟩ : BufTy).Contents (Elt F)) : (⟨S256x512, .bf16⟩ : BufTy).Contents (Elt F) :=
  truncf .bf16 (shapeCast _ (extractStridedSlice S1x256x512 ![1, 0, 0] x5 slices_S4x256x512_S1x256x512_1_0_0) shapeCasts_S1x256x512_S256x512) bitsLt_bf16_f32
def w2L1 (x7 : (⟨S4x512x256, .f32⟩ : BufTy).Contents (Elt F)) : (⟨S512x256, .bf16⟩ : BufTy).Contents (Elt F) :=
  truncf .bf16 (shapeCast _ (extractStridedSlice S1x512x256 ![1, 0, 0] x7 slices_S4x512x256_S1x512x256_1_0_0) shapeCasts_S1x512x256_S512x256) bitsLt_bf16_f32
def b1L1 (x6 : (⟨S4x512, .f32⟩ : BufTy).Contents (Elt F)) : (⟨S512, .f32⟩ : BufTy).Contents (Elt F) :=
  shapeCast _ (extractStridedSlice S1x512 ![1, 0] x6 slices_S4x512_S1x512_1_0) shapeCasts_S1x512_S512
def b2L1 (x8 : (⟨S4x256, .f32⟩ : BufTy).Contents (Elt F)) : (⟨S256, .f32⟩ : BufTy).Contents (Elt F) :=
  shapeCast _ (extractStridedSlice S1x256 ![1, 0] x8 slices_S4x256_S1x256_1_0) shapeCasts_S1x256_S256
/-- Layer 2's weights and biases: slice `2` of each stacked array, the weights rounded to bfloat16. -/
def w1L2 (x5 : (⟨S4x256x512, .f32⟩ : BufTy).Contents (Elt F)) : (⟨S256x512, .bf16⟩ : BufTy).Contents (Elt F) :=
  truncf .bf16 (shapeCast _ (extractStridedSlice S1x256x512 ![2, 0, 0] x5 slices_S4x256x512_S1x256x512_2_0_0) shapeCasts_S1x256x512_S256x512) bitsLt_bf16_f32
def w2L2 (x7 : (⟨S4x512x256, .f32⟩ : BufTy).Contents (Elt F)) : (⟨S512x256, .bf16⟩ : BufTy).Contents (Elt F) :=
  truncf .bf16 (shapeCast _ (extractStridedSlice S1x512x256 ![2, 0, 0] x7 slices_S4x512x256_S1x512x256_2_0_0) shapeCasts_S1x512x256_S512x256) bitsLt_bf16_f32
def b1L2 (x6 : (⟨S4x512, .f32⟩ : BufTy).Contents (Elt F)) : (⟨S512, .f32⟩ : BufTy).Contents (Elt F) :=
  shapeCast _ (extractStridedSlice S1x512 ![2, 0] x6 slices_S4x512_S1x512_2_0) shapeCasts_S1x512_S512
def b2L2 (x8 : (⟨S4x256, .f32⟩ : BufTy).Contents (Elt F)) : (⟨S256, .f32⟩ : BufTy).Contents (Elt F) :=
  shapeCast _ (extractStridedSlice S1x256 ![2, 0] x8 slices_S4x256_S1x256_2_0) shapeCasts_S1x256_S256
/-- Layer 3's weights and biases: slice `3` of each stacked array, the weights rounded to bfloat16. -/
def w1L3 (x5 : (⟨S4x256x512, .f32⟩ : BufTy).Contents (Elt F)) : (⟨S256x512, .bf16⟩ : BufTy).Contents (Elt F) :=
  truncf .bf16 (shapeCast _ (extractStridedSlice S1x256x512 ![3, 0, 0] x5 slices_S4x256x512_S1x256x512_3_0_0) shapeCasts_S1x256x512_S256x512) bitsLt_bf16_f32
def w2L3 (x7 : (⟨S4x512x256, .f32⟩ : BufTy).Contents (Elt F)) : (⟨S512x256, .bf16⟩ : BufTy).Contents (Elt F) :=
  truncf .bf16 (shapeCast _ (extractStridedSlice S1x512x256 ![3, 0, 0] x7 slices_S4x512x256_S1x512x256_3_0_0) shapeCasts_S1x512x256_S512x256) bitsLt_bf16_f32
def b1L3 (x6 : (⟨S4x512, .f32⟩ : BufTy).Contents (Elt F)) : (⟨S512, .f32⟩ : BufTy).Contents (Elt F) :=
  shapeCast _ (extractStridedSlice S1x512 ![3, 0] x6 slices_S4x512_S1x512_3_0) shapeCasts_S1x512_S512
def b2L3 (x8 : (⟨S4x256, .f32⟩ : BufTy).Contents (Elt F)) : (⟨S256, .f32⟩ : BufTy).Contents (Elt F) :=
  shapeCast _ (extractStridedSlice S1x256 ![3, 0] x8 slices_S4x256_S1x256_3_0) shapeCasts_S1x256_S256

variable (m : (ℓ : Loc nD τ sig) → Buf (Elt F) ℓ) (ρ : Dev nD → PrngReg)

/-! ## The first stretch: the edge lists and the embedding's weights -/

theorem v1_entry (c : Dev nD) : W1 m ρ c (Proc.devRef .tc main_v1) = srcList (m ((c : Thread nD τ).loc main_arg1)) := by
  show StableHlo.after hostOps0 (W0 m ρ c) (Proc.devRef .tc main_v1) = _
  after_results; rfl
theorem v3_entry (c : Dev nD) : W1 m ρ c (Proc.devRef .tc main_v3) = dstList (m ((c : Thread nD τ).loc main_arg1)) := by
  show StableHlo.after hostOps0 (W0 m ρ c) (Proc.devRef .tc main_v3) = _
  after_results; rfl
theorem v4_entry (c : Dev nD) : W1 m ρ c (Proc.devRef .tc main_v4) = truncf .bf16 (m ((c : Thread nD τ).loc main_arg3)) bitsLt_bf16_f32 := by
  show StableHlo.after hostOps0 (W0 m ρ c) (Proc.devRef .tc main_v4) = _
  after_results

/-! ## The stretch before each message-passing region -/

theorem v15_entry (c : Dev nD) : W3 m ρ c (Proc.devRef .tc main_v15) = neighbourSum (W2 m ρ c (Proc.devRef .tc main_v5)) (W2 m ρ c (Proc.devRef .tc main_v1)) (W2 m ρ c (Proc.devRef .tc main_v3)) := by
  show StableHlo.after hostOps1 (W2 m ρ c) (Proc.devRef .tc main_v15) = _
  after_results_simp; rfl
theorem v18_entry (c : Dev nD) : W3 m ρ c (Proc.devRef .tc main_v18) = w1L0 (W2 m ρ c (Proc.devRef .tc main_arg5)) := by
  show StableHlo.after hostOps1 (W2 m ρ c) (Proc.devRef .tc main_v18) = _
  after_results; rfl
theorem v23_entry (c : Dev nD) : W3 m ρ c (Proc.devRef .tc main_v23) = b1L0 (W2 m ρ c (Proc.devRef .tc main_arg6)) := by
  show StableHlo.after hostOps1 (W2 m ρ c) (Proc.devRef .tc main_v23) = _
  after_results; rfl
theorem v21_entry (c : Dev nD) : W3 m ρ c (Proc.devRef .tc main_v21) = w2L0 (W2 m ρ c (Proc.devRef .tc main_arg7)) := by
  show StableHlo.after hostOps1 (W2 m ρ c) (Proc.devRef .tc main_v21) = _
  after_results; rfl
theorem v25_entry (c : Dev nD) : W3 m ρ c (Proc.devRef .tc main_v25) = b2L0 (W2 m ρ c (Proc.devRef .tc main_arg8)) := by
  show StableHlo.after hostOps1 (W2 m ρ c) (Proc.devRef .tc main_v25) = _
  after_results; rfl

theorem v36_entry (c : Dev nD) : W5 m ρ c (Proc.devRef .tc main_v36) = neighbourSum (W4 m ρ c (Proc.devRef .tc main_v26)) (W4 m ρ c (Proc.devRef .tc main_v1)) (W4 m ρ c (Proc.devRef .tc main_v3)) := by
  show StableHlo.after hostOps2 (W4 m ρ c) (Proc.devRef .tc main_v36) = _
  after_results_simp; rfl
theorem v39_entry (c : Dev nD) : W5 m ρ c (Proc.devRef .tc main_v39) = w1L1 (W4 m ρ c (Proc.devRef .tc main_arg5)) := by
  show StableHlo.after hostOps2 (W4 m ρ c) (Proc.devRef .tc main_v39) = _
  after_results; rfl
theorem v44_entry (c : Dev nD) : W5 m ρ c (Proc.devRef .tc main_v44) = b1L1 (W4 m ρ c (Proc.devRef .tc main_arg6)) := by
  show StableHlo.after hostOps2 (W4 m ρ c) (Proc.devRef .tc main_v44) = _
  after_results; rfl
theorem v42_entry (c : Dev nD) : W5 m ρ c (Proc.devRef .tc main_v42) = w2L1 (W4 m ρ c (Proc.devRef .tc main_arg7)) := by
  show StableHlo.after hostOps2 (W4 m ρ c) (Proc.devRef .tc main_v42) = _
  after_results; rfl
theorem v46_entry (c : Dev nD) : W5 m ρ c (Proc.devRef .tc main_v46) = b2L1 (W4 m ρ c (Proc.devRef .tc main_arg8)) := by
  show StableHlo.after hostOps2 (W4 m ρ c) (Proc.devRef .tc main_v46) = _
  after_results; rfl

theorem v57_entry (c : Dev nD) : W7 m ρ c (Proc.devRef .tc main_v57) = neighbourSum (W6 m ρ c (Proc.devRef .tc main_v47)) (W6 m ρ c (Proc.devRef .tc main_v1)) (W6 m ρ c (Proc.devRef .tc main_v3)) := by
  show StableHlo.after hostOps3 (W6 m ρ c) (Proc.devRef .tc main_v57) = _
  after_results_simp; rfl
theorem v60_entry (c : Dev nD) : W7 m ρ c (Proc.devRef .tc main_v60) = w1L2 (W6 m ρ c (Proc.devRef .tc main_arg5)) := by
  show StableHlo.after hostOps3 (W6 m ρ c) (Proc.devRef .tc main_v60) = _
  after_results; rfl
theorem v65_entry (c : Dev nD) : W7 m ρ c (Proc.devRef .tc main_v65) = b1L2 (W6 m ρ c (Proc.devRef .tc main_arg6)) := by
  show StableHlo.after hostOps3 (W6 m ρ c) (Proc.devRef .tc main_v65) = _
  after_results; rfl
theorem v63_entry (c : Dev nD) : W7 m ρ c (Proc.devRef .tc main_v63) = w2L2 (W6 m ρ c (Proc.devRef .tc main_arg7)) := by
  show StableHlo.after hostOps3 (W6 m ρ c) (Proc.devRef .tc main_v63) = _
  after_results; rfl
theorem v67_entry (c : Dev nD) : W7 m ρ c (Proc.devRef .tc main_v67) = b2L2 (W6 m ρ c (Proc.devRef .tc main_arg8)) := by
  show StableHlo.after hostOps3 (W6 m ρ c) (Proc.devRef .tc main_v67) = _
  after_results; rfl

theorem v78_entry (c : Dev nD) : W9 m ρ c (Proc.devRef .tc main_v78) = neighbourSum (W8 m ρ c (Proc.devRef .tc main_v68)) (W8 m ρ c (Proc.devRef .tc main_v1)) (W8 m ρ c (Proc.devRef .tc main_v3)) := by
  show StableHlo.after hostOps4 (W8 m ρ c) (Proc.devRef .tc main_v78) = _
  after_results_simp; rfl
theorem v81_entry (c : Dev nD) : W9 m ρ c (Proc.devRef .tc main_v81) = w1L3 (W8 m ρ c (Proc.devRef .tc main_arg5)) := by
  show StableHlo.after hostOps4 (W8 m ρ c) (Proc.devRef .tc main_v81) = _
  after_results; rfl
theorem v86_entry (c : Dev nD) : W9 m ρ c (Proc.devRef .tc main_v86) = b1L3 (W8 m ρ c (Proc.devRef .tc main_arg6)) := by
  show StableHlo.after hostOps4 (W8 m ρ c) (Proc.devRef .tc main_v86) = _
  after_results; rfl
theorem v84_entry (c : Dev nD) : W9 m ρ c (Proc.devRef .tc main_v84) = w2L3 (W8 m ρ c (Proc.devRef .tc main_arg7)) := by
  show StableHlo.after hostOps4 (W8 m ρ c) (Proc.devRef .tc main_v84) = _
  after_results; rfl
theorem v88_entry (c : Dev nD) : W9 m ρ c (Proc.devRef .tc main_v88) = b2L3 (W8 m ρ c (Proc.devRef .tc main_arg8)) := by
  show StableHlo.after hostOps4 (W8 m ρ c) (Proc.devRef .tc main_v88) = _
  after_results; rfl

/-! ## The last stretch: the mean pool and the head's weights -/

theorem v101_entry (c : Dev nD) : W11 m ρ c (Proc.devRef .tc main_v101) = meanPool (W10 m ρ c (Proc.devRef .tc main_v89)) (W10 m ρ c (Proc.devRef .tc main_arg2)) := by
  show StableHlo.after hostOps5 (W10 m ρ c) (Proc.devRef .tc main_v101) = _
  after_results_simp; rfl
theorem v102_entry (c : Dev nD) : W11 m ρ c (Proc.devRef .tc main_v102) = truncf .bf16 (W10 m ρ c (Proc.devRef .tc main_arg9)) bitsLt_bf16_f32 := by
  show StableHlo.after hostOps5 (W10 m ρ c) (Proc.devRef .tc main_v102) = _
  after_results
theorem v103_entry (c : Dev nD) : W11 m ρ c (Proc.devRef .tc main_v103) = truncf .bf16 (W10 m ρ c (Proc.devRef .tc main_arg11)) bitsLt_bf16_f32 := by
  show StableHlo.after hostOps5 (W10 m ρ c) (Proc.devRef .tc main_v103) = _
  after_results

end Cert.KernelIdeal.Result

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibGinStages.lean ====
/-
  The three dense stages of a graph-isomorphism network, read entry by entry on the extended reals, generic in the row
  count so that one statement serves a whole array and a block of its rows:
  * `embedRows`: one affine layer followed by a ReLU, `max (row · w + b) 0`;
  * `ginRows`: the node's row plus its neighbours' sum, through a two-layer perceptron with a ReLU after each layer;
  * the read-out head is the two-layer perceptron `LibMlp.mlp2` (no ReLU after the second layer).
  Each stage comes in the two spellings the programs use: the vector-unit spelling (operands rounded to bfloat16 — the
  identity on the extended reals —, matrix products into a zero accumulator, a bias laid out as one row and repeated
  down the rows, the ReLU as a maximum with a zero splat) and the host spelling (`dot_general`, two-step bias
  broadcasts, a maximum with a broadcast zero). Both are the same sums of the same products, term by term, so no
  finiteness is used anywhere. Every entry of a stage depends on ONE row of its operands: `embedRows_rows`,
  `ginRows_rows`, `mlp2_rows` say that a stage of a block of rows is that block of the stage.
-/
import proofs.«101421_j70815420776483_1_alg».proof.Proof.LibMlpRows

noncomputable section

namespace Cert.Net

open Idealize.ShloMosaic Idealize.ShloMosaic.ValueIdx Cert.LibMlp
open scoped BigOperators

/-- The binary32 zero word's value: the floor of every ReLU here. -/
abbrev zr : EReal := Ideal.ofBits .f32 0x00000000#32

/-- One affine layer and a ReLU on every row: entry `(r, q)` is `max (∑ j, X (r, j) · w (j, q) + b q) 0`. -/
def embedRows {R I H : ℕ} (X : (⟨2, ![R, I]⟩ : Shape).Idx → EReal) (w : (⟨2, ![I, H]⟩ : Shape).Idx → EReal)
    (b : (⟨1, ![H]⟩ : Shape).Idx → EReal) : (⟨2, ![R, H]⟩ : Shape).Idx → EReal :=
  fun i => max ((∑ j : Fin I, X (ix2 (i 0) j) * w (ix2 j (i 1))) + b (ix1 (i 1))) zr

/-- A message-passing layer's dense half on every row: the row of `X` plus the row of `A` (the neighbours' sum),
    through the perceptron, floored at zero. -/
def ginRows {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal) :
    (⟨2, ![R, O]⟩ : Shape).Idx → EReal :=
  fun i => max (mlpRow zr (fun j => X (ix2 (i 0) j) + A (ix2 (i 0) j)) w1 b1 w2 b2 (i 1)) zr

theorem embedRows_ix2 {R I H : ℕ} (X : (⟨2, ![R, I]⟩ : Shape).Idx → EReal) (w : (⟨2, ![I, H]⟩ : Shape).Idx → EReal)
    (b : (⟨1, ![H]⟩ : Shape).Idx → EReal) (p : Fin R) (q : Fin H) :
    embedRows X w b (ix2 p q) = max ((∑ j : Fin I, X (ix2 p j) * w (ix2 j q)) + b (ix1 q)) zr := rfl

theorem ginRows_ix2 {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal)
    (p : Fin R) (q : Fin O) :
    ginRows X A w1 b1 w2 b2 (ix2 p q) = max (mlpRow zr (fun j => X (ix2 p j) + A (ix2 p j)) w1 b1 w2 b2 q) zr := rfl

/-! ## A stage of a block of rows is that block of the stage -/

/-- If row `p` of the block `Xb` is row `r` of the array `X`, entry `(p, q)` of the block's stage is entry `(r, q)` of the array's. -/
theorem embedRows_rows {R R' I H : ℕ} (X : (⟨2, ![R, I]⟩ : Shape).Idx → EReal) (Xb : (⟨2, ![R', I]⟩ : Shape).Idx → EReal)
    (w : (⟨2, ![I, H]⟩ : Shape).Idx → EReal) (b : (⟨1, ![H]⟩ : Shape).Idx → EReal) (p : Fin R') (r : Fin R) (q : Fin H)
    (hX : ∀ j, Xb (ix2 p j) = X (ix2 r j)) : embedRows Xb w b (ix2 p q) = embedRows X w b (ix2 r q) := by
  rw [embedRows_ix2, embedRows_ix2]; simp only [hX]

theorem ginRows_rows {R R' I H O : ℕ} (X A : (⟨2, ![R, I]⟩ : Shape).Idx → EReal) (Xb Ab : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) (hA : ∀ j, Ab (ix2 p j) = A (ix2 r j)) :
    ginRows Xb Ab w1 b1 w2 b2 (ix2 p q) = ginRows X A w1 b1 w2 b2 (ix2 r q) := by
  rw [ginRows_ix2, ginRows_ix2]; simp only [hX, hA]

theorem mlp2_rows {R R' I H O : ℕ} (X : (⟨2, ![R, I]⟩ : Shape).Idx → EReal) (Xb : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) : mlp2 Xb w1 b1 w2 b2 (ix2 p q) = mlp2 X w1 b1 w2 b2 (ix2 r q) := by
  rw [mlp2_ix2, mlp2_ix2]; simp only [hX]

/-! ## The vector-unit spellings, at an entry -/

/-- The embedding body: the block rounded to bfloat16 times the (already bfloat16) weights into a zero accumulator, plus
    the bias row repeated down the rows, floored at the zero splat. -/
theorem embed_body_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .bf16) (b : FVec Ideal ⟨1, ![H]⟩ .f32)
    (hw : (⟨2, ![I, H]⟩ : Shape).ShapeCasts ⟨2, ![I, H]⟩)
    (hb : (⟨1, ![H]⟩ : Shape).ShapeCasts ⟨2, ![1, H]⟩) (hB : (⟨2, ![1, H]⟩ : Shape).Broadcasts ⟨2, ![R, H]⟩)
    (ht : FTy.bf16.bits < FTy.f32.bits) (p : Fin R) (q : Fin H) :
    maximumf (addf (matmul d none (truncf .bf16 x ht) (shapeCast ⟨2, ![I, H]⟩ w hw) (constant ⟨2, ![R, H]⟩ .f32 0x00000000#32))
        (broadcastTo ⟨2, ![R, H]⟩ (shapeCast ⟨2, ![1, H]⟩ b hb) hB)) (broadcast ⟨2, ![R, H]⟩ (Scalar.ofBits .f32 0x00000000#32)) (ix2 p q)
    = embedRows x w b (ix2 p q) := by
  subst hd
  simp only [embedRows_ix2, matmul, addf_apply, maximumf_apply, truncf_apply, matmul_zero_plain,
    broadcastTo_1b_ab_apply, shapeCast_a_1a_apply, shapeCast_self, broadcast_apply]
  rfl

/-- The message-passing body: the two loaded blocks added, then the perceptron with a ReLU after each layer. Each
    loaded operand passes through a cast to its own shape first, as the body spells it. -/
theorem gin_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hs1 : (⟨1, ![H]⟩ : Shape).ShapeCasts ⟨1, ![H]⟩) (hs2 : (⟨1, ![O]⟩ : Shape).ShapeCasts ⟨1, ![O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    maximumf (addf (matmul d2 none (truncf .bf16 (maximumf (addf (matmul d1 none
          (truncf .bf16 (addf (shapeCast ⟨2, ![R, I]⟩ x hx) (shapeCast ⟨2, ![R, I]⟩ a hx)) ht) (shapeCast ⟨2, ![I, H]⟩ w1 hw1) (constant ⟨2, ![R, H]⟩ .f32 0x00000000#32))
        (broadcastTo ⟨2, ![R, H]⟩ (shapeCast ⟨2, ![1, H]⟩ (shapeCast ⟨1, ![H]⟩ b1 hs1) hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ (shapeCast ⟨1, ![O]⟩ b2 hs2) hb2) hB2)) (broadcast ⟨2, ![R, O]⟩ (Scalar.ofBits .f32 0x00000000#32)) (ix2 p q)
    = ginRows x a w1 b1 w2 b2 (ix2 p q) := by
  subst hd1 hd2
  simp only [ginRows_ix2, mlpRow, matmul, addf_apply, maximumf_apply, truncf_apply, matmul_zero_plain,
    broadcastTo_1b_ab_apply, shapeCast_a_1a_apply, shapeCast_self, broadcast_apply]
  rfl

/-- The read-out body: the perceptron with one ReLU, between the layers. -/
theorem head_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none
          (truncf .bf16 (shapeCast ⟨2, ![R, I]⟩ x hx) ht) (shapeCast ⟨2, ![I, H]⟩ w1 hw1) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ b2 hb2) hB2) (ix2 p q)
    = mlp2 x w1 b1 w2 b2 (ix2 p q) := by
  subst hd1 hd2
  simp only [mlp2_ix2, mlpRow, matmul, addf_apply, maximumf_apply, truncf_apply, matmul_zero_plain,
    broadcastTo_1b_ab_apply, shapeCast_a_1a_apply, shapeCast_self, broadcast_apply]
  rfl

/-! ## The host spellings, at an entry -/

/-- A bias broadcast to one row and then down the rows, read at an entry. -/
theorem bias_rows_apply {R H : ℕ} (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (r : Fin R) (k : Fin H) :
    broadcastInDim ⟨2, ![R, H]⟩ ![0, 1] hB (broadcastInDim ⟨2, ![1, H]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A scalar zero broadcast to a matrix, read at an entry. -/
theorem zero_rows_apply {R H : ℕ} (hz : (⟨0, ![]⟩ : Shape).BroadcastsInDim ⟨2, ![R, H]⟩ ![]) (r : Fin R) (k : Fin H) :
    broadcastInDim ⟨2, ![R, H]⟩ ![] hz (constant (F := Ideal) ⟨0, ![]⟩ .f32 0x00000000#32) (ix2 r k) = zr :=
  broadcastInDim_apply ![] hz _ (ix2 r k) ix0 (fun a => a.elim0)

/-- The embedding as the host spells it. -/
theorem embed_host_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) (p : Fin R) (q : Fin H) :
    maximumf (addf (Host.dotGeneral d none x w) (broadcastInDim ⟨2, ![R, H]⟩ ![0, 1] hB (broadcastInDim ⟨2, ![1, H]⟩ ![1] hb b)))
      (broadcastInDim ⟨2, ![R, H]⟩ ![] hz (constant (F := Ideal) ⟨0, ![]⟩ .f32 0x00000000#32)) (ix2 p q)
    = embedRows x w b (ix2 p q) := by
  subst hd
  have bias : ∀ (r : Fin R) (k : Fin H), broadcastInDim ⟨2, ![R, H]⟩ ![0, 1] hB (broadcastInDim ⟨2, ![1, H]⟩ ![1] hb b) (ix2 r k) = b (ix1 k) :=
    fun r k => bias_rows_apply b hb hB r k
  have zero : ∀ (r : Fin R) (k : Fin H), broadcastInDim ⟨2, ![R, H]⟩ ![] hz (constant (F := Ideal) ⟨0, ![]⟩ .f32 0x00000000#32) (ix2 r k) = zr :=
    fun r k => zero_rows_apply hz r k
  simp only [embedRows_ix2, Host.dotGeneral, addf_apply, maximumf_apply, dotGeneral_plain, bias, zero]

/-- The message-passing layer as the host spells it: the sum of the two arrays through the perceptron, then the outer ReLU. -/
theorem gin_host_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz1 : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (hz2 : (⟨0, ![]⟩ : Shape).BroadcastsInDim ⟨2, ![R, O]⟩ ![]) (p : Fin R) (q : Fin O) :
    maximumf (addf (Host.dotGeneral d2 none (maximumf (addf (Host.dotGeneral d1 none (addf x a) w1)
        (broadcastInDim ⟨2, ![R, H]⟩ ![0, 1] hB1 (broadcastInDim ⟨2, ![1, H]⟩ ![1] hb1 b1)))
        (broadcastInDim ⟨2, ![R, H]⟩ ![] hz1 (constant (F := Ideal) ⟨0, ![]⟩ .f32 0x00000000#32))) w2)
      (broadcastInDim ⟨2, ![R, O]⟩ ![0, 1] hB2 (broadcastInDim ⟨2, ![1, O]⟩ ![1] hb2 b2)))
      (broadcastInDim ⟨2, ![R, O]⟩ ![] hz2 (constant (F := Ideal) ⟨0, ![]⟩ .f32 0x00000000#32)) (ix2 p q)
    = ginRows x a w1 b1 w2 b2 (ix2 p q) := by
  rw [maximumf_apply, host_mlp_apply d1 hd1 d2 hd2 (addf x a) w1 b1 w2 b2 hb1 hB1 hz1 hb2 hB2 p q, zero_rows_apply, ginRows_ix2]
  simp only [addf_apply]

/-- Rounding to bfloat16 is the identity on the extended reals, as a statement about whole arrays. -/
theorem truncf_id {S : Shape} (x : FVec Ideal S .f32) (ht : FTy.bf16.bits < FTy.f32.bits) :
    (truncf .bf16 x ht : S.Idx → EReal) = x := by
  funext i; simp only [truncf_apply]

end Cert.Net

end
-- ==== Proof.KernelNet.lean ====
/-
  The idealized kernel program's result as ONE function of its thirteen argument arrays, on the extended reals: the
  embedding of the node features, four message-passing layers (each: the layer's input plus its neighbours' sum,
  through that layer's perceptron), the mean pool over each graph, and the read-out head. The weights pass through a
  rounding to bfloat16 on the way in, which on the extended reals is the identity.
-/
import proofs.«101421_j70815420776483_1_alg».proof.Proof.Stretches
import proofs.«101421_j70815420776483_1_alg».proof.Proof.LibGinStages

noncomputable section

namespace Cert.KernelIdeal.Result

open Cert.KernelIdeal Cert.KernelIdeal.Gen Idealize.ShloMosaic Idealize.ShloMosaic.TcCoe

/-- The node embedding. -/
def layer0 (x0 : (⟨S100000x44, .f32⟩ : BufTy).Contents (Elt Ideal)) (x3 : (⟨S44x256, .f32⟩ : BufTy).Contents (Elt Ideal)) (x4 : (⟨S256, .f32⟩ : BufTy).Contents (Elt Ideal)) : (⟨S100000x256, .f32⟩ : BufTy).Contents (Elt Ideal) :=
  Cert.Net.embedRows (R := 100000) (I := 44) (H := 256) x0 (truncf (F := Ideal) (s := S44x256) (φ := .f32) .bf16 x3 bitsLt_bf16_f32) x4

/-- Message-passing layer 1. -/
def layer1 (x0 : (⟨S100000x44, .f32⟩ : BufTy).Contents (Elt Ideal)) (x1 : (⟨S2x200000, .i32⟩ : BufTy).Contents (Elt Ideal)) (x3 : (⟨S44x256, .f32⟩ : BufTy).Contents (Elt Ideal)) (x4 : (⟨S256, .f32⟩ : BufTy).Contents (Elt Ideal)) (x5 : (⟨S4x256x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) : (⟨S100000x256, .f32⟩ : BufTy).Contents (Elt Ideal) :=
  Cert.Net.ginRows (layer0 x0 x3 x4 : S100000x256.Idx → EReal)
    (neighbourSum (layer0 x0 x3 x4) (srcList x1) (dstList x1) : S100000x256.Idx → EReal)
    (w1L0 x5 : S256x512.Idx → EReal) (b1L0 x6 : S512.Idx → EReal) (w2L0 x7 : S512x256.Idx → EReal) (b2L0 x8 : S256.Idx → EReal)

/-- Message-passing layer 2. -/
def layer2 (x0 : (⟨S100000x44, .f32⟩ : BufTy).Contents (Elt Ideal)) (x1 : (⟨S2x200000, .i32⟩ : BufTy).Contents (Elt Ideal)) (x3 : (⟨S44x256, .f32⟩ : BufTy).Contents (Elt Ideal)) (x4 : (⟨S256, .f32⟩ : BufTy).Contents (Elt Ideal)) (x5 : (⟨S4x256x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) : (⟨S100000x256, .f32⟩ : BufTy).Contents (Elt Ideal) :=
  Cert.Net.ginRows (layer1 x0 x1 x3 x4 x5 x6 x7 x8 : S100000x256.Idx → EReal)
    (neighbourSum (layer1 x0 x1 x3 x4 x5 x6 x7 x8) (srcList x1) (dstList x1) : S100000x256.Idx → EReal)
    (w1L1 x5 : S256x512.Idx → EReal) (b1L1 x6 : S512.Idx → EReal) (w2L1 x7 : S512x256.Idx → EReal) (b2L1 x8 : S256.Idx → EReal)

/-- Message-passing layer 3. -/
def layer3 (x0 : (⟨S100000x44, .f32⟩ : BufTy).Contents (Elt Ideal)) (x1 : (⟨S2x200000, .i32⟩ : BufTy).Contents (Elt Ideal)) (x3 : (⟨S44x256, .f32⟩ : BufTy).Contents (Elt Ideal)) (x4 : (⟨S256, .f32⟩ : BufTy).Contents (Elt Ideal)) (x5 : (⟨S4x256x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) : (⟨S100000x256, .f32⟩ : BufTy).Contents (Elt Ideal) :=
  Cert.Net.ginRows (layer2 x0 x1 x3 x4 x5 x6 x7 x8 : S100000x256.Idx → EReal)
    (neighbourSum (layer2 x0 x1 x3 x4 x5 x6 x7 x8) (srcList x1) (dstList x1) : S100000x256.Idx → EReal)
    (w1L2 x5 : S256x512.Idx → EReal) (b1L2 x6 : S512.Idx → EReal) (w2L2 x7 : S512x256.Idx → EReal) (b2L2 x8 : S256.Idx → EReal)

/-- Message-passing layer 4. -/
def layer4 (x0 : (⟨S100000x44, .f32⟩ : BufTy).Contents (Elt Ideal)) (x1 : (⟨S2x200000, .i32⟩ : BufTy).Contents (Elt Ideal)) (x3 : (⟨S44x256, .f32⟩ : BufTy).Contents (Elt Ideal)) (x4 : (⟨S256, .f32⟩ : BufTy).Contents (Elt Ideal)) (x5 : (⟨S4x256x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) : (⟨S100000x256, .f32⟩ : BufTy).Contents (Elt Ideal) :=
  Cert.Net.ginRows (layer3 x0 x1 x3 x4 x5 x6 x7 x8 : S100000x256.Idx → EReal)
    (neighbourSum (layer3 x0 x1 x3 x4 x5 x6 x7 x8) (srcList x1) (dstList x1) : S100000x256.Idx → EReal)
    (w1L3 x5 : S256x512.Idx → EReal) (b1L3 x6 : S512.Idx → EReal) (w2L3 x7 : S512x256.Idx → EReal) (b2L3 x8 : S256.Idx → EReal)

/-- The whole network: the head of the mean pool of the last layer. -/
def network (x0 : (⟨S100000x44, .f32⟩ : BufTy).Contents (Elt Ideal)) (x1 : (⟨S2x200000, .i32⟩ : BufTy).Contents (Elt Ideal)) (x2 : (⟨S100000, .i32⟩ : BufTy).Contents (Elt Ideal)) (x3 : (⟨S44x256, .f32⟩ : BufTy).Contents (Elt Ideal)) (x4 : (⟨S256, .f32⟩ : BufTy).Contents (Elt Ideal)) (x5 : (⟨S4x256x512, .f32⟩ : BufTy).Contents (Elt Ideal)) (x6 : (⟨S4x512, .f32⟩ : BufTy).Contents (Elt Ideal)) (x7 : (⟨S4x512x256, .f32⟩ : BufTy).Contents (Elt Ideal)) (x8 : (⟨S4x256, .f32⟩ : BufTy).Contents (Elt Ideal)) (x9 : (⟨S256x256, .f32⟩ : BufTy).Contents (Elt Ideal)) (x10 : (⟨S256, .f32⟩ : BufTy).Contents (Elt Ideal)) (x11 : (⟨S256x512, .f32⟩ : BufTy).Contents (Elt Ideal)) (x12 : (⟨S512, .f32⟩ : BufTy).Contents (Elt Ideal)) : (⟨S4000x512, .f32⟩ : BufTy).Contents (Elt Ideal) :=
  Cert.LibMlp.mlp2 (meanPool (layer4 x0 x1 x3 x4 x5 x6 x7 x8) x2 : S4000x256.Idx → EReal)
    (truncf (F := Ideal) (s := S256x256) (φ := .f32) .bf16 x9 bitsLt_bf16_f32) (x10 : S256.Idx → EReal)
    (truncf (F := Ideal) (s := S256x512) (φ := .f32) .bf16 x11 bitsLt_bf16_f32) (x12 : S512.Idx → EReal)

end Cert.KernelIdeal.Result

end
-- ==== Proof.RegionEmbed.lean ====
/-
  The embedding region read as one function of whole arrays. The region runs over 50 blocks of 2000 rows: at block
  `t` it loads rows `2000·t … 2000·t + 1999` of the feature array together with the whole weight matrix and the whole
  bias, and writes back `max (rows · w + b) 0` to the same rows of the result array. Every entry of that stage depends
  on one row of the features only, so what block `t` writes back is block `t` of the stage of the WHOLE feature array
  (`flushed_rows`); the 50 blocks fill the 100000 rows (row `r` lies in block `r / 2000`), so after the region the
  result array holds the stage of the whole array (`embed_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Embed

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the embedding stage of the loaded block of rows. -/
theorem pay_apply (x0 : Vec Ideal S2000x44 .f32) (x1 : Vec Ideal S44x256 .bf16) (x2 : Vec Ideal S256 .f32)
    (p : Fin 2000) (q : Fin 256) :
    k0_pay1 x0 x1 x2 (ix2 p q) = Cert.Net.embedRows x0 x1 x2 (ix2 p q) := by
  unfold k0_pay1; exact Cert.Net.embed_body_apply _ rfl _ _ _ _ _ _ _ p q

/-- The printed index maps, decided over the 50 grid points: the feature window and the result window sit at row block
    `t`, column block 0; the weight and bias windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the feature window's block at point `t` is row `2000·t + p` of the feature array. -/
theorem rows_block (c : Dev nD) (t : Fin cfg0.N) (p : Fin 2000) (j : Fin 44) (r : Fin 100000)
    (hr : r.val = 2000 * t.val + p.val) :
    (iblk0 V c 0 t : S2000x44.Idx → EReal) (ix2 p j) = (V c main_arg0 : S100000x44.Idx → EReal) (ix2 r j) := by
  obtain ⟨e0, e1, -⟩ := idx_facts t
  show V c main_arg0 (((cfg0.win 0).blk t).view.emb (ix2 p j)) = V c main_arg0 (ix2 r j)
  refine congrArg _ ?_
  funext a; apply Fin.ext
  match a with
  | ⟨0, _⟩ => show win0_0.index t (0 : Fin 2) * 2000 + 1 * p.val = r.val; omega
  | ⟨1, _⟩ => show win0_0.index t (1 : Fin 2) * 44 + 1 * j.val = j.val; omega

/-- The weight window's block at every point is the whole weight matrix. -/
theorem weights_block (c : Dev nD) (t : Fin cfg0.N) :
    (iblk0 V c 1 t : S44x256.Idx → EReal) = (V c main_v4 : S44x256.Idx → EReal) := by
  obtain ⟨-, -, e0, e1, -⟩ := idx_facts t
  funext y
  show V c main_v4 (((cfg0.win 1).blk t).view.emb y) = V c main_v4 y
  refine congrArg _ ?_
  funext a; apply Fin.ext
  match a with
  | ⟨0, _⟩ => show win0_1.index t (0 : Fin 2) * 44 + 1 * (y 0).val = (y 0).val; omega
  | ⟨1, _⟩ => show win0_1.index t (1 : Fin 2) * 256 + 1 * (y 1).val = (y 1).val; omega

/-- The bias window's block at every point is the whole bias. -/
theorem bias_block (c : Dev nD) (t : Fin cfg0.N) :
    (iblk0 V c 2 t : S256.Idx → EReal) = (V c main_arg4 : S256.Idx → EReal) := by
  obtain ⟨-, -, -, -, e0, -⟩ := idx_facts t
  funext y
  show V c main_arg4 (((cfg0.win 2).blk t).view.emb y) = V c main_arg4 y
  refine congrArg _ ?_
  funext a; apply Fin.ext
  match a with
  | ⟨0, _⟩ => show win0_2.index t (0 : Fin 1) * 256 + 1 * (y 0).val = (y 0).val; omega

/-- Entry `(p, q)` of the result window's block at point `t` sits at row `2000·t + p`, column `q` of the result array. -/
theorem result_entry (t : Fin cfg0.N) (p : Fin 2000) (q : Fin 256) (r : Fin 100000)
    (hr : r.val = 2000 * t.val + p.val) :
    (((cfg0.win 3).blk t).view.emb (ix2 p q) : S100000x256.Idx) = ix2 r q := by
  obtain ⟨-, -, -, -, -, e0, e1⟩ := idx_facts t
  funext a; apply Fin.ext
  match a with
  | ⟨0, _⟩ => show win0_3.index t (0 : Fin 2) * 2000 + 1 * p.val = r.val; omega
  | ⟨1, _⟩ => show win0_3.index t (1 : Fin 2) * 256 + 1 * q.val = q.val; omega

/-- The stage of a block whose rows are rows of the array, with the array's own weights and bias, at an entry. -/
theorem stage_of_block (X : S100000x44.Idx → EReal) (Xb : S2000x44.Idx → EReal) (w w' : S44x256.Idx → EReal)
    (b b' : S256.Idx → EReal) (p : Fin 2000) (r : Fin 100000) (q : Fin 256)
    (hX : ∀ j, Xb (ix2 p j) = X (ix2 r j)) (hw : w' = w) (hb : b' = b) :
    Cert.Net.embedRows Xb w' b' (ix2 p q) = Cert.Net.embedRows X w b (ix2 r q) := by
  subst hw hb; exact Cert.Net.embedRows_rows X Xb w' b' p r q hX

/-- What point `t` writes back is block `t` of the embedding stage of the whole feature array. -/
theorem flushed_rows (c : Dev nD) (t : Fin cfg0.N) :
    (dat0 V c).flushed 3 t = ((cfg0.win 3).blk t).view.read (Elt Ideal)
      (Cert.Net.embedRows (V c main_arg0 : S100000x44.Idx → EReal) (V c main_v4 : S44x256.Idx → EReal) (V c main_arg4 : S256.Idx → EReal)) := by
  show (cfg0.win 3).cut (grid0.coords t) ((dat0 V c).after 3 t) = _
  rw [after0_3]
  unfold out0_3
  rw [View.canon_unit_zero zeros2]
  simp only [View.ld_unit_zero (S := S2000x44) zeros2, View.ld_unit_zero (S := S44x256) zeros2, View.ld_unit_zero (S := S256) zeros1]
  funext y
  obtain ⟨p, q, rfl⟩ : ∃ (p : Fin 2000) (q : Fin 256), y = ix2 p q := ⟨y 0, y 1, eq_ix2 y⟩
  have ht : t.val < 50 := t.isLt
  have hr : 2000 * t.val + p.val < 100000 := by have := p.isLt; omega
  show k0_pay1 (iblk0 V c 0 t) (iblk0 V c 1 t) (iblk0 V c 2 t) (ix2 p q)
    = Cert.Net.embedRows (V c main_arg0 : S100000x44.Idx → EReal) (V c main_v4 : S44x256.Idx → EReal) (V c main_arg4 : S256.Idx → EReal)
        (((cfg0.win 3).blk t).view.emb (ix2 p q))
  rw [result_entry t p q ⟨2000 * t.val + p.val, hr⟩ rfl]
  refine (pay_apply (iblk0 V c 0 t) (iblk0 V c 1 t) (iblk0 V c 2 t) p q).trans ?_
  exact stage_of_block (V c main_arg0) (iblk0 V c 0 t) (V c main_v4) (iblk0 V c 1 t) (V c main_arg4) (iblk0 V c 2 t) p
    ⟨2000 * t.val + p.val, hr⟩ q (fun j => rows_block V c t p j _ rfl) (weights_block V c t) (bias_block V c t)

/-- An index of the result array is in point `t`'s block iff each coordinate is in the block's range on its axis. -/
theorem mem_block (t : Fin cfg0.N) (i : S100000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v5).slice (win0_3.rect t)).set ↔ _
  rw [View.set_slice_whole, Rect.mem_set_unit]
  exact Iff.rfl

/-- Row `r` of the result array lies in block `r / 2000`: the 50 blocks fill the array. -/
theorem rows_covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := N_0
  have ht : (i 0).val / 2000 < cfg0.N := by rw [hN]; omega
  refine ⟨⟨(i 0).val / 2000, ht⟩, flush0_3 _, ?_⟩
  obtain ⟨-, -, -, -, -, e0, e1⟩ := idx_facts ⟨(i 0).val / 2000, ht⟩
  rw [mem_block]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val
      ∧ (i 1).val < win0_3.index ⟨(i 0).val / 2000, ht⟩ (1 : Fin 2) * 256 + 256
    rw [e1]; omega

end Cert.KernelIdeal.Regions.Embed

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After the embedding region the result array holds the embedding stage of the whole feature array. -/
theorem embed_array (c : Dev nD) :
    (dat0 V c).arrAt 3 cfg0.N = Cert.Net.embedRows (V c main_arg0 : S100000x44.Idx → EReal) (V c main_v4 : S44x256.Idx → EReal) (V c main_arg4 : S256.Idx → EReal) :=
  (dat0 V c).arrAt_eq_of_cover 3 _ (fun t _ => Embed.flushed_rows V c t) Embed.rows_covered

end Cert.KernelIdeal.Regions

end
-- ==== Proof.RegionGin1.lean ====
/-
  Message-passing region 1 read as one function of whole arrays. The region runs over 50 blocks of 2000 rows: at
  block `t` it loads rows `2000·t … 2000·t + 1999` of the node array and of the neighbour-sum array together with the
  whole of both weight matrices and both biases, and writes back the layer's dense half — the row plus its
  neighbours' sum through the two-layer perceptron, a ReLU after each layer — to the same rows of the result array.
  Every entry of that stage depends on one row of the two row-tiled arrays only, so what block `t` writes back is
  block `t` of the stage of the WHOLE arrays (`flushed_rows`); the 50 blocks fill the 100000 rows (row `r` lies in
  block `r / 2000`), so after the region the result array holds the stage of the whole arrays (`gin1_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Gin1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the layer's dense half of the two loaded blocks of rows. -/
theorem pay_apply (x0 x1 : Vec Ideal S2000x256 .f32) (x2 : Vec Ideal S256x512 .bf16) (x3 : Vec Ideal S512 .f32)
    (x4 : Vec Ideal S512x256 .bf16) (x5 : Vec Ideal S256 .f32) (p : Fin 2000) (q : Fin 256) :
    k1_pay1 x0 x1 x2 x3 x4 x5 (ix2 p q) = Cert.Net.ginRows x0 x1 x2 x3 x4 x5 (ix2 p q) := by
  unfold k1_pay1; exact Cert.Net.gin_body_apply _ rfl _ rfl _ _ _ _ _ _ _ _ _ _ _ _ _ _ _ _ p q

/-- The printed index maps, decided over the 50 grid points: the two row-tiled windows and the result window sit at row
    block `t`, column block 0; the weight and bias windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of the node window's block at point `t` is row `2000·t + p` of the node array. -/
theorem node_rows_block (c : Dev nD) (t : Fin cfg1.N) (p : Fin 2000) (j : Fin 256) (r : Fin 100000)
    (hr : r.val = 2000 * t.val + p.val) :
    (iblk1 V c 0 t : S2000x256.Idx → EReal) (ix2 p j) = (V c main_v5 : S100000x256.Idx → EReal) (ix2 r j) := by
  obtain ⟨e0, e1, -⟩ := idx_facts t
  show V c main_v5 (((cfg1.win 0).blk t).view.emb (ix2 p j)) = V c main_v5 (ix2 r j)
  refine congrArg _ ?_
  funext a; apply Fin.ext
  match a with
  | ⟨0, _⟩ => show win1_0.index t (0 : Fin 2) * 2000 + 1 * p.val = r.val; omega
  | ⟨1, _⟩ => show win1_0.index t (1 : Fin 2) * 256 + 1 * j.val = j.val; omega

/-- Row `p` of the neighbour-sum window's block at point `t` is row `2000·t + p` of the neighbour-sum array. -/
theorem sum_rows_block (c : Dev nD) (t : Fin cfg1.N) (p : Fin 2000) (j : Fin 256) (r : Fin 100000)
    (hr : r.val = 2000 * t.val + p.val) :
    (iblk1 V c 1 t : S2000x256.Idx → EReal) (ix2 p j) = (V c main_v15 : S100000x256.Idx → EReal) (ix2 r j) := by
  obtain ⟨-, -, e0, e1, -⟩ := idx_facts t
  show V c main_v15 (((cfg1.win 1).blk t).view.emb (ix2 p j)) = V c main_v15 (ix2 r j)
  refine congrArg _ ?_
  funext a; apply Fin.ext
  match a with
  | ⟨0, _⟩ => show win1_1.index t (0 : Fin 2) * 2000 + 1 * p.val = r.val; omega
  | ⟨1, _⟩ => show win1_1.index t (1 : Fin 2) * 256 + 1 * j.val = j.val; omega

/-- The first weight window's block at every point is the whole first weight matrix. -/
theorem weights1_block (c : Dev nD) (t : Fin cfg1.N) :
    (iblk1 V c 2 t : S256x512.Idx → EReal) = (V c main_v18 : S256x512.Idx → EReal) := by
  obtain ⟨-, -, -, -, e0, e1, -⟩ := idx_facts t
  funext y
  show V c main_v18 (((cfg1.win 2).blk t).view.emb y) = V c main_v18 y
  refine congrArg _ ?_
  funext a; apply Fin.ext
  match a with
  | ⟨0, _⟩ => show win1_2.index t (0 : Fin 2) * 256 + 1 * (y 0).val = (y 0).val; omega
  | ⟨1, _⟩ => show win1_2.index t (1 : Fin 2) * 512 + 1 * (y 1).val = (y 1).val; omega

/-- The first bias window's block at every point is the whole first bias. -/
theorem bias1_block (c : Dev nD) (t : Fin cfg1.N) :
    (iblk1 V c 3 t : S512.Idx → EReal) = (V c main_v23 : S512.Idx → EReal) := by
  obtain ⟨-, -, -, -, -, -, e0, -⟩ := idx_facts t
  funext y
  show V c main_v23 (((cfg1.win 3).blk t).view.emb y) = V c main_v23 y
  refine congrArg _ ?_
  funext a; apply Fin.ext
  match a with
  | ⟨0, _⟩ => show win1_3.index t (0 : Fin 1) * 512 + 1 * (y 0).val = (y 0).val; omega

/-- The second weight window's block at every point is the whole second weight matrix. -/
theorem weights2_block (c : Dev nD) (t : Fin cfg1.N) :
    (iblk1 V c 4 t : S512x256.Idx → EReal) = (V c main_v21 : S512x256.Idx → EReal) := by
  obtain ⟨-, -, -, -, -, -, -, e0, e1, -⟩ := idx_facts t
  funext y
  show V c main_v21 (((cfg1.win 4).blk t).view.emb y) = V c main_v21 y
  refine congrArg _ ?_
  funext a; apply Fin.ext
  match a with
  | ⟨0, _⟩ => show win1_4.index t (0 : Fin 2) * 512 + 1 * (y 0).val = (y 0).val; omega
  | ⟨1, _⟩ => show win1_4.index t (1 : Fin 2) * 256 + 1 * (y 1).val = (y 1).val; omega

/-- The second bias window's block at every point is the whole second bias. -/
theorem bias2_block (c : Dev nD) (t : Fin cfg1.N) :
    (iblk1 V c 5 t : S256.Idx → EReal) = (V c main_v25 : S256.Idx → EReal) := by
  obtain ⟨-, -, -, -, -, -, -, -, -, e0, -⟩ := idx_facts t
  funext y
  show V c main_v25 (((cfg1.win 5).blk t).view.emb y) = V c main_v25 y
  refine congrArg _ ?_
  funext a; apply Fin.ext
  match a with
  | ⟨0, _⟩ => show win1_5.index t (0 : Fin 1) * 256 + 1 * (y 0).val = (y 0).val; omega

/-- Entry `(p, q)` of the result window's block at point `t` sits at row `2000·t + p`, column `q` of the result array. -/
theorem result_entry (t : Fin cfg1.N) (p : Fin 2000) (q : Fin 256) (r : Fin 100000)
    (hr : r.val = 2000 * t.val + p.val) :
    (((cfg1.win 6).blk t).view.emb (ix2 p q) : S100000x256.Idx) = ix2 r q := by
  obtain ⟨-, -, -, -, -, -, -, -, -, -, e0, e1⟩ := idx_facts t
  funext a; apply Fin.ext
  match a with
  | ⟨0, _⟩ => show win1_6.index t (0 : Fin 2) * 2000 + 1 * p.val = r.val; omega
  | ⟨1, _⟩ => show win1_6.index t (1 : Fin 2) * 256 + 1 * q.val = q.val; omega

/-- The stage of two blocks whose rows are rows of the arrays, with the arrays' own weights and biases, at an entry. -/
theorem stage_of_block (X A : S100000x256.Idx → EReal) (Xb Ab : S2000x256.Idx → EReal)
    (w1 w1' : S256x512.Idx → EReal) (b1 b1' : S512.Idx → EReal) (w2 w2' : S512x256.Idx → EReal) (b2 b2' : S256.Idx → EReal)
    (p : Fin 2000) (r : Fin 100000) (q : Fin 256)
    (hX : ∀ j, Xb (ix2 p j) = X (ix2 r j)) (hA : ∀ j, Ab (ix2 p j) = A (ix2 r j))
    (hw1 : w1' = w1) (hb1 : b1' = b1) (hw2 : w2' = w2) (hb2 : b2' = b2) :
    Cert.Net.ginRows Xb Ab w1' b1' w2' b2' (ix2 p q) = Cert.Net.ginRows X A w1 b1 w2 b2 (ix2 r q) := by
  subst hw1 hb1 hw2 hb2; exact Cert.Net.ginRows_rows X A Xb Ab w1' b1' w2' b2' p r q hX hA

/-- What point `t` writes back is block `t` of the layer's dense half of the whole arrays. -/
theorem flushed_rows (c : Dev nD) (t : Fin cfg1.N) :
    (dat1 V c).flushed 6 t = ((cfg1.win 6).blk t).view.read (Elt Ideal)
      (Cert.Net.ginRows (V c main_v5 : S100000x256.Idx → EReal) (V c main_v15 : S100000x256.Idx → EReal)
        (V c main_v18 : S256x512.Idx → EReal) (V c main_v23 : S512.Idx → EReal)
        (V c main_v21 : S512x256.Idx → EReal) (V c main_v25 : S256.Idx → EReal)) := by
  show (cfg1.win 6).cut (grid1.coords t) ((dat1 V c).after 6 t) = _
  rw [after1_6]
  unfold out1_6
  rw [View.canon_unit_zero zeros2]
  simp only [View.ld_unit_zero (S := S2000x256) zeros2, View.ld_unit_zero (S := S256x512) zeros2,
    View.ld_unit_zero (S := S512x256) zeros2, View.ld_unit_zero (S := S512) zeros1, View.ld_unit_zero (S := S256) zeros1]
  funext y
  obtain ⟨p, q, rfl⟩ : ∃ (p : Fin 2000) (q : Fin 256), y = ix2 p q := ⟨y 0, y 1, eq_ix2 y⟩
  have ht : t.val < 50 := t.isLt
  have hr : 2000 * t.val + p.val < 100000 := by have := p.isLt; omega
  show k1_pay1 (iblk1 V c 0 t) (iblk1 V c 1 t) (iblk1 V c 2 t) (iblk1 V c 3 t) (iblk1 V c 4 t) (iblk1 V c 5 t) (ix2 p q)
    = Cert.Net.ginRows (V c main_v5 : S100000x256.Idx → EReal) (V c main_v15 : S100000x256.Idx → EReal)
        (V c main_v18 : S256x512.Idx → EReal) (V c main_v23 : S512.Idx → EReal)
        (V c main_v21 : S512x256.Idx → EReal) (V c main_v25 : S256.Idx → EReal)
        (((cfg1.win 6).blk t).view.emb (ix2 p q))
  rw [result_entry t p q ⟨2000 * t.val + p.val, hr⟩ rfl]
  refine (pay_apply (iblk1 V c 0 t) (iblk1 V c 1 t) (iblk1 V c 2 t) (iblk1 V c 3 t) (iblk1 V c 4 t) (iblk1 V c 5 t) p q).trans ?_
  exact stage_of_block (V c main_v5) (V c main_v15) (iblk1 V c 0 t) (iblk1 V c 1 t)
    (V c main_v18) (iblk1 V c 2 t) (V c main_v23) (iblk1 V c 3 t) (V c main_v21) (iblk1 V c 4 t) (V c main_v25) (iblk1 V c 5 t) p
    ⟨2000 * t.val + p.val, hr⟩ q (fun j => node_rows_block V c t p j _ rfl) (fun j => sum_rows_block V c t p j _ rfl)
    (weights1_block V c t) (bias1_block V c t) (weights2_block V c t) (bias2_block V c t)

/-- An index of the result array is in point `t`'s block iff each coordinate is in the block's range on its axis. -/
theorem mem_block (t : Fin cfg1.N) (i : S100000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v26).slice (win1_6.rect t)).set ↔ _
  rw [View.set_slice_whole, Rect.mem_set_unit]
  exact Iff.rfl

/-- Row `r` of the result array lies in block `r / 2000`: the 50 blocks fill the array. -/
theorem rows_covered (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 50 := N_1
  have ht : (i 0).val / 2000 < cfg1.N := by rw [hN]; omega
  refine ⟨⟨(i 0).val / 2000, ht⟩, flush1_6 _, ?_⟩
  obtain ⟨-, -, -, -, -, -, -, -, -, -, e0, e1⟩ := idx_facts ⟨(i 0).val / 2000, ht⟩
  rw [mem_block]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 256 ≤ (i 1).val
      ∧ (i 1).val < win1_6.index ⟨(i 0).val / 2000, ht⟩ (1 : Fin 2) * 256 + 256
    rw [e1]; omega

end Cert.KernelIdeal.Regions.Gin1

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After message-passing region 1 the result array holds the layer's dense half of the whole arrays. -/
theorem gin1_array (c : Dev nD) :
    (dat1 V c).arrAt 6 cfg1.N = Cert.Net.ginRows (V c main_v5 : S100000x256.Idx → EReal) (V c main_v15 : S100000x256.Idx → EReal)
      (V c main_v18 : S256x512.Idx → EReal) (V c main_v23 : S512.Idx → EReal)
      (V c main_v21 : S512x256.Idx → EReal) (V c main_v25 : S256.Idx → EReal) :=
  (dat1 V c).arrAt_eq_of_cover 6 _ (fun t _ => Gin1.flushed_rows V c t) Gin1.rows_covered

end Cert.KernelIdeal.Regions

end
-- ==== Proof.RegionGin2.lean ====
/-
  Message-passing region 2 read as one function of whole arrays. The region runs over 50 blocks of 2000 rows: at
  block `t` it loads rows `2000·t … 2000·t + 1999` of the node array and of the neighbour-sum array together with the
  whole of both weight matrices and both biases, and writes back the layer's dense half — the row plus its
  neighbours' sum through the two-layer perceptron, a ReLU after each layer — to the same rows of the result array.
  Every entry of that stage depends on one row of the two row-tiled arrays only, so what block `t` writes back is
  block `t` of the stage of the WHOLE arrays (`flushed_rows`); the 50 blocks fill the 100000 rows (row `r` lies in
  block `r / 2000`), so after the region the result array holds the stage of the whole arrays (`gin2_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Gin2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the layer's dense half of the two loaded blocks of rows. -/
theorem pay_apply (x0 x1 : Vec Ideal S2000x256 .f32) (x2 : Vec Ideal S256x512 .bf16) (x3 : Vec Ideal S512 .f32)
    (x4 : Vec Ideal S512x256 .bf16) (x5 : Vec Ideal S256 .f32) (p : Fin 2000) (q : Fin 256) :
    k2_pay1 x0 x1 x2 x3 x4 x5 (ix2 p q) = Cert.Net.ginRows x0 x1 x2 x3 x4 x5 (ix2 p q) := by
  unfold k2_pay1; exact Cert.Net.gin_body_apply _ rfl _ rfl _ _ _ _ _ _ _ _ _ _ _ _ _ _ _ _ p q

/-- The printed index maps, decided over the 50 grid points: the two row-tiled windows and the result window sit at row
    block `t`, column block 0; the weight and bias windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of the node window's block at point `t` is row `2000·t + p` of the node array. -/
theorem node_rows_block (c : Dev nD) (t : Fin cfg2.N) (p : Fin 2000) (j : Fin 256) (r : Fin 100000)
    (hr : r.val = 2000 * t.val + p.val) :
    (iblk2 V c 0 t : S2000x256.Idx → EReal) (ix2 p j) = (V c main_v26 : S100000x256.Idx → EReal) (ix2 r j) := by
  obtain ⟨e0, e1, -⟩ := idx_facts t
  show V c main_v26 (((cfg2.win 0).blk t).view.emb (ix2 p j)) = V c main_v26 (ix2 r j)
  refine congrArg _ ?_
  funext a; apply Fin.ext
  match a with
  | ⟨0, _⟩ => show win2_0.index t (0 : Fin 2) * 2000 + 1 * p.val = r.val; omega
  | ⟨1, _⟩ => show win2_0.index t (1 : Fin 2) * 256 + 1 * j.val = j.val; omega

/-- Row `p` of the neighbour-sum window's block at point `t` is row `2000·t + p` of the neighbour-sum array. -/
theorem sum_rows_block (c : Dev nD) (t : Fin cfg2.N) (p : Fin 2000) (j : Fin 256) (r : Fin 100000)
    (hr : r.val = 2000 * t.val + p.val) :
    (iblk2 V c 1 t : S2000x256.Idx → EReal) (ix2 p j) = (V c main_v36 : S100000x256.Idx → EReal) (ix2 r j) := by
  obtain ⟨-, -, e0, e1, -⟩ := idx_facts t
  show V c main_v36 (((cfg2.win 1).blk t).view.emb (ix2 p j)) = V c main_v36 (ix2 r j)
  refine congrArg _ ?_
  funext a; apply Fin.ext
  match a with
  | ⟨0, _⟩ => show win2_1.index t (0 : Fin 2) * 2000 + 1 * p.val = r.val; omega
  | ⟨1, _⟩ => show win2_1.index t (1 : Fin 2) * 256 + 1 * j.val = j.val; omega

/-- The first weight window's block at every point is the whole first weight matrix. -/
theorem weights1_block (c : Dev nD) (t : Fin cfg2.N) :
    (iblk2 V c 2 t : S256x512.Idx → EReal) = (V c main_v39 : S256x512.Idx → EReal) := by
  obtain ⟨-, -, -, -, e0, e1, -⟩ := idx_facts t
  funext y
  show V c main_v39 (((cfg2.win 2).blk t).view.emb y) = V c main_v39 y
  refine congrArg _ ?_
  funext a; apply Fin.ext
  match a with
  | ⟨0, _⟩ => show win2_2.index t (0 : Fin 2) * 256 + 1 * (y 0).val = (y 0).val; omega
  | ⟨1, _⟩ => show win2_2.index t (1 : Fin 2) * 512 + 1 * (y 1).val = (y 1).val; omega

/-- The first bias window's block at every point is the whole first bias. -/
theorem bias1_block (c : Dev nD) (t : Fin cfg2.N) :
    (iblk2 V c 3 t : S512.Idx → EReal) = (V c main_v44 : S512.Idx → EReal) := by
  obtain ⟨-, -, -, -, -, -, e0, -⟩ := idx_facts t
  funext y
  show V c main_v44 (((cfg2.win 3).blk t).view.emb y) = V c main_v44 y
  refine congrArg _ ?_
  funext a; apply Fin.ext
  match a with
  | ⟨0, _⟩ => show win2_3.index t (0 : Fin 1) * 512 + 1 * (y 0).val = (y 0).val; omega

/-- The second weight window's block at every point is the whole second weight matrix. -/
theorem weights2_block (c : Dev nD) (t : Fin cfg2.N) :
    (iblk2 V c 4 t : S512x256.Idx → EReal) = (V c main_v42 : S512x256.Idx → EReal) := by
  obtain ⟨-, -, -, -, -, -, -, e0, e1, -⟩ := idx_facts t
  funext y
  show V c main_v42 (((cfg2.win 4).blk t).view.emb y) = V c main_v42 y
  refine congrArg _ ?_
  funext a; apply Fin.ext
  match a with
  | ⟨0, _⟩ => show win2_4.index t (0 : Fin 2) * 512 + 1 * (y 0).val = (y 0).val; omega
  | ⟨1, _⟩ => show win2_4.index t (1 : Fin 2) * 256 + 1 * (y 1).val = (y 1).val; omega

/-- The second bias window's block at every point is the whole second bias. -/
theorem bias2_block (c : Dev nD) (t : Fin cfg2.N) :
    (iblk2 V c 5 t : S256.Idx → EReal) = (V c main_v46 : S256.Idx → EReal) := by
  obtain ⟨-, -, -, -, -, -, -, -, -, e0, -⟩ := idx_facts t
  funext y
  show V c main_v46 (((cfg2.win 5).blk t).view.emb y) = V c main_v46 y
  refine congrArg _ ?_
  funext a; apply Fin.ext
  match a with
  | ⟨0, _⟩ => show win2_5.index t (0 : Fin 1) * 256 + 1 * (y 0).val = (y 0).val; omega

/-- Entry `(p, q)` of the result window's block at point `t` sits at row `2000·t + p`, column `q` of the result array. -/
theorem result_entry (t : Fin cfg2.N) (p : Fin 2000) (q : Fin 256) (r : Fin 100000)
    (hr : r.val = 2000 * t.val + p.val) :
    (((cfg2.win 6).blk t).view.emb (ix2 p q) : S100000x256.Idx) = ix2 r q := by
  obtain ⟨-, -, -, -, -, -, -, -, -, -, e0, e1⟩ := idx_facts t
  funext a; apply Fin.ext
  match a with
  | ⟨0, _⟩ => show win2_6.index t (0 : Fin 2) * 2000 + 1 * p.val = r.val; omega
  | ⟨1, _⟩ => show win2_6.index t (1 : Fin 2) * 256 + 1 * q.val = q.val; omega

/-- The stage of two blocks whose rows are rows of the arrays, with the arrays' own weights and biases, at an entry. -/
theorem stage_of_block (X A : S100000x256.Idx → EReal) (Xb Ab : S2000x256.Idx → EReal)
    (w1 w1' : S256x512.Idx → EReal) (b1 b1' : S512.Idx → EReal) (w2 w2' : S512x256.Idx → EReal) (b2 b2' : S256.Idx → EReal)
    (p : Fin 2000) (r : Fin 100000) (q : Fin 256)
    (hX : ∀ j, Xb (ix2 p j) = X (ix2 r j)) (hA : ∀ j, Ab (ix2 p j) = A (ix2 r j))
    (hw1 : w1' = w1) (hb1 : b1' = b1) (hw2 : w2' = w2) (hb2 : b2' = b2) :
    Cert.Net.ginRows Xb Ab w1' b1' w2' b2' (ix2 p q) = Cert.Net.ginRows X A w1 b1 w2 b2 (ix2 r q) := by
  subst hw1 hb1 hw2 hb2; exact Cert.Net.ginRows_rows X A Xb Ab w1' b1' w2' b2' p r q hX hA

/-- What point `t` writes back is block `t` of the layer's dense half of the whole arrays. -/
theorem flushed_rows (c : Dev nD) (t : Fin cfg2.N) :
    (dat2 V c).flushed 6 t = ((cfg2.win 6).blk t).view.read (Elt Ideal)
      (Cert.Net.ginRows (V c main_v26 : S100000x256.Idx → EReal) (V c main_v36 : S100000x256.Idx → EReal)
        (V c main_v39 : S256x512.Idx → EReal) (V c main_v44 : S512.Idx → EReal)
        (V c main_v42 : S512x256.Idx → EReal) (V c main_v46 : S256.Idx → EReal)) := by
  show (cfg2.win 6).cut (grid2.coords t) ((dat2 V c).after 6 t) = _
  rw [after2_6]
  unfold out2_6
  rw [View.canon_unit_zero zeros2]
  simp only [View.ld_unit_zero (S := S2000x256) zeros2, View.ld_unit_zero (S := S256x512) zeros2,
    View.ld_unit_zero (S := S512x256) zeros2, View.ld_unit_zero (S := S512) zeros1, View.ld_unit_zero (S := S256) zeros1]
  funext y
  obtain ⟨p, q, rfl⟩ : ∃ (p : Fin 2000) (q : Fin 256), y = ix2 p q := ⟨y 0, y 1, eq_ix2 y⟩
  have ht : t.val < 50 := t.isLt
  have hr : 2000 * t.val + p.val < 100000 := by have := p.isLt; omega
  show k2_pay1 (iblk2 V c 0 t) (iblk2 V c 1 t) (iblk2 V c 2 t) (iblk2 V c 3 t) (iblk2 V c 4 t) (iblk2 V c 5 t) (ix2 p q)
    = Cert.Net.ginRows (V c main_v26 : S100000x256.Idx → EReal) (V c main_v36 : S100000x256.Idx → EReal)
        (V c main_v39 : S256x512.Idx → EReal) (V c main_v44 : S512.Idx → EReal)
        (V c main_v42 : S512x256.Idx → EReal) (V c main_v46 : S256.Idx → EReal)
        (((cfg2.win 6).blk t).view.emb (ix2 p q))
  rw [result_entry t p q ⟨2000 * t.val + p.val, hr⟩ rfl]
  refine (pay_apply (iblk2 V c 0 t) (iblk2 V c 1 t) (iblk2 V c 2 t) (iblk2 V c 3 t) (iblk2 V c 4 t) (iblk2 V c 5 t) p q).trans ?_
  exact stage_of_block (V c main_v26) (V c main_v36) (iblk2 V c 0 t) (iblk2 V c 1 t)
    (V c main_v39) (iblk2 V c 2 t) (V c main_v44) (iblk2 V c 3 t) (V c main_v42) (iblk2 V c 4 t) (V c main_v46) (iblk2 V c 5 t) p
    ⟨2000 * t.val + p.val, hr⟩ q (fun j => node_rows_block V c t p j _ rfl) (fun j => sum_rows_block V c t p j _ rfl)
    (weights1_block V c t) (bias1_block V c t) (weights2_block V c t) (bias2_block V c t)

/-- An index of the result array is in point `t`'s block iff each coordinate is in the block's range on its axis. -/
theorem mem_block (t : Fin cfg2.N) (i : S100000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v47).slice (win2_6.rect t)).set ↔ _
  rw [View.set_slice_whole, Rect.mem_set_unit]
  exact Iff.rfl

/-- Row `r` of the result array lies in block `r / 2000`: the 50 blocks fill the array. -/
theorem rows_covered (i : S100000x256.Idx) :
    ∃ t : Fin cfg2.N, (cfg2.win 6).flush t = true ∧ i ∈ ((cfg2.win 6).blk t).view.set := by
  have hi0 : (i 0).val < 100000 := (i 0).isLt
  have hi1 : (i 1).val < 256 := (i 1).isLt
  have hN : cfg2.N = 50 := N_2
  have ht : (i 0).val / 2000 < cfg2.N := by rw [hN]; omega
  refine ⟨⟨(i 0).val / 2000, ht⟩, flush2_6 _, ?_⟩
  obtain ⟨-, -, -, -, -, -, -, -, -, -, e0, e1⟩ := idx_facts ⟨(i 0).val / 2000, ht⟩
  rw [mem_block]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 256 ≤ (i 1).val
      ∧ (i 1).val < win2_6.index ⟨(i 0).val / 2000, ht⟩ (1 : Fin 2) * 256 + 256
    rw [e1]; omega

end Cert.KernelIdeal.Regions.Gin2

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After message-passing region 2 the result array holds the layer's dense half of the whole arrays. -/
theorem gin2_array (c : Dev nD) :
    (dat2 V c).arrAt 6 cfg2.N = Cert.Net.ginRows (V c main_v26 : S100000x256.Idx → EReal) (V c main_v36 : S100000x256.Idx → EReal)
      (V c main_v39 : S256x512.Idx → EReal) (V c main_v44 : S512.Idx → EReal)
      (V c main_v42 : S512x256.Idx → EReal) (V c main_v46 : S256.Idx → EReal) :=
  (dat2 V c).arrAt_eq_of_cover 6 _ (fun t _ => Gin2.flushed_rows V c t) Gin2.rows_covered

end Cert.KernelIdeal.Regions

end
-- ==== Proof.RegionGin3.lean ====
/-
  Message-passing region 3 read as one function of whole arrays. The region runs over 50 blocks of 2000 rows: at
  block `t` it loads rows `2000·t … 2000·t + 1999` of the node array and of the neighbour-sum array together with the
  whole of both weight matrices and both biases, and writes back the layer's dense half — the row plus its
  neighbours' sum through the two-layer perceptron, a ReLU after each layer — to the same rows of the result array.
  Every entry of that stage depends on one row of the two row-tiled arrays only, so what block `t` writes back is
  block `t` of the stage of the WHOLE arrays (`flushed_rows`); the 50 blocks fill the 100000 rows (row `r` lies in
  block `r / 2000`), so after the region the result array holds the stage of the whole arrays (`gin3_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Gin3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the layer's dense half of the two loaded blocks of rows. -/
theorem pay_apply (x0 x1 : Vec Ideal S2000x256 .f32) (x2 : Vec Ideal S256x512 .bf16) (x3 : Vec Ideal S512 .f32)
    (x4 : Vec Ideal S512x256 .bf16) (x5 : Vec Ideal S256 .f32) (p : Fin 2000) (q : Fin 256) :
    k3_pay1 x0 x1 x2 x3 x4 x5 (ix2 p q) = Cert.Net.ginRows x0 x1 x2 x3 x4 x5 (ix2 p q) := by
  unfold k3_pay1; exact Cert.Net.gin_body_apply _ rfl _ rfl _ _ _ _ _ _ _ _ _ _ _ _ _ _ _ _ p q

/-- The printed index maps, decided over the 50 grid points: the two row-tiled windows and the result window sit at row
    block `t`, column block 0; the weight and bias windows at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row `p` of the node window's block at point `t` is row `2000·t + p` of the node array. -/
theorem node_rows_block (c : Dev nD) (t : Fin cfg3.N) (p : Fin 2000) (j : Fin 256) (r : Fin 100000)
    (hr : r.val = 2000 * t.val + p.val) :
    (iblk3 V c 0 t : S2000x256.Idx → EReal) (ix2 p j) = (V c main_v47 : S100000x256.Idx → EReal) (ix2 r j) := by
  obtain ⟨e0, e1, -⟩ := idx_facts t
  show V c main_v47 (((cfg3.win 0).blk t).view.emb (ix2 p j)) = V c main_v47 (ix2 r j)
  refine congrArg _ ?_
  funext a; apply Fin.ext
  match a with
  | ⟨0, _⟩ => show win3_0.index t (0 : Fin 2) * 2000 + 1 * p.val = r.val; omega
  | ⟨1, _⟩ => show win3_0.index t (1 : Fin 2) * 256 + 1 * j.val = j.val; omega

/-- Row `p` of the neighbour-sum window's block at point `t` is row `2000·t + p` of the neighbour-sum array. -/
theorem sum_rows_block (c : Dev nD) (t : Fin cfg3.N) (p : Fin 2000) (j : Fin 256) (r : Fin 100000)
    (hr : r.val = 2000 * t.val + p.val) :
    (iblk3 V c 1 t : S2000x256.Idx → EReal) (ix2 p j) = (V c main_v57 : S100000x256.Idx → EReal) (ix2 r j) := by
  obtain ⟨-, -, e0, e1, -⟩ := idx_facts t
  show V c main_v57 (((cfg3.win 1).blk t).view.emb (ix2 p j)) = V c main_v57 (ix2 r j)
  refine congrArg _ ?_
  funext a; apply Fin.ext
  match a with
  | ⟨0, _⟩ => show win3_1.index t (0 : Fin 2) * 2000 + 1 * p.val = r.val; omega
  | ⟨1, _⟩ => show win3_1.index t (1 : Fin 2) * 256 + 1 * j.val = j.val; omega

/-- The first weight window's block at every point is the whole first weight matrix. -/
theorem weights1_block (c : Dev nD) (t : Fin cfg3.N) :
    (iblk3 V c 2 t : S256x512.Idx → EReal) = (V c main_v60 : S256x512.Idx → EReal) := by
  obtain ⟨-, -, -, -, e0, e1, -⟩ := idx_facts t
  funext y
  show V c main_v60 (((cfg3.win 2).blk t).view.emb y) = V c main_v60 y
  refine congrArg _ ?_
  funext a; apply Fin.ext
  match a with
  | ⟨0, _⟩ => show win3_2.index t (0 : Fin 2) * 256 + 1 * (y 0).val = (y 0).val; omega
  | ⟨1, _⟩ => show win3_2.index t (1 : Fin 2) * 512 + 1 * (y 1).val = (y 1).val; omega

/-- The first bias window's block at every point is the whole first bias. -/
theorem bias1_block (c : Dev nD) (t : Fin cfg3.N) :
    (iblk3 V c 3 t : S512.Idx → EReal) = (V c main_v65 : S512.Idx → EReal) := by
  obtain ⟨-, -, -, -, -, -, e0, -⟩ := idx_facts t
  funext y
  show V c main_v65 (((cfg3.win 3).blk t).view.emb y) = V c main_v65 y
  refine congrArg _ ?_
  funext a; apply Fin.ext
  match a with
  | ⟨0, _⟩ => show win3_3.index t (0 : Fin 1) * 512 + 1 * (y 0).val = (y 0).val; omega

/-- The second weight window's block at every point is the whole second weight matrix. -/
theorem weights2_block (c : Dev nD) (t : Fin cfg3.N) :
    (iblk3 V c 4 t : S512x256.Idx → EReal) = (V c main_v63 : S512x256.Idx → EReal) := by
  obtain ⟨-, -, -, -, -, -, -, e0, e1, -⟩ := idx_facts t
  funext y
  show V c main_v63 (((cfg3.win 4).blk t).view.emb y) = V c main_v63 y
  refine congrArg _ ?_
  funext a; apply Fin.ext
  match a with
  | ⟨0, _⟩ => show win3_4.index t (0 : Fin 2) * 512 + 1 * (y 0).val = (y 0).val; omega
  | ⟨1, _⟩ => show win3_4.index t (1 : Fin 2) * 256 + 1 * (y 1).val = (y 1).val; omega

/-- The second bias window's block at every point is the whole second bias. -/
theorem bias2_block (c : Dev nD) (t : Fin cfg3.N) :
    (iblk3 V c 5 t : S256.Idx → EReal) = (V c main_v67 : S256.Idx → EReal) := by
  obtain ⟨-, -, -, -, -, -, -, -, -, e0, -⟩ := idx_facts t
  funext y
  show V c main_v67 (((cfg3.win 5).blk t).view.emb y) = V c main_v67 y
  refine congrArg _ ?_
  funext a; apply Fin.ext
  match a with
  | ⟨0, _⟩ => show win3_5.index t (0 : Fin 1) * 256 + 1 * (y 0).val = (y 0).val; omega

/-- Entry `(p, q)` of the result window's block at point `t` sits at row `2000·t + p`, column `q` of the result array. -/
theorem result_entry (t : Fin cfg3.N) (p : Fin 2000) (q : Fin 256) (r : Fin 100000)
    (hr : r.val = 2000 * t.val + p.val) :
    (((cfg3.win 6).blk t).view.emb (ix2 p q) : S100000x256.Idx) = ix2 r q := by
  obtain ⟨-, -, -, -, -, -, -, -, -, -, e0, e1⟩ := idx_facts t
  funext a; apply Fin.ext
  match a with
  | ⟨0, _⟩ => show win3_6.index t (0 : Fin 2) * 2000 + 1 * p.val = r.val; omega
  | ⟨1, _⟩ => show win3_6.index t (1 : Fin 2) * 256 + 1 * q.val = q.val; omega

/-- The stage of two blocks whose rows are rows of the arrays, with the arrays' own weights and biases, at an entry. -/
theorem stage_of_block (X A : S100000x256.Idx → EReal) (Xb Ab : S2000x256.Idx → EReal)
    (w1 w1' : S256x512.Idx → EReal) (b1 b1' : S512.Idx → EReal) (w2 w2' : S512x256.Idx → EReal) (b2 b2' : S256.Idx → EReal)
    (p : Fin 2000) (r : Fin 100000) (q : Fin 256)
    (hX : ∀ j, Xb (ix2 p j) = X (ix2 r j)) (hA : ∀ j, Ab (ix2 p j) = A (ix2 r j))
    (hw1 : w1' = w1) (hb1 : b1' = b1) (hw2 : w2' = w2) (hb2 : b2' = b2) :
    Cert.Net.ginRows Xb Ab w1' b1' w2' b2' (ix2 p q) = Cert.Net.ginRows X A w1 b1 w2 b2 (ix2 r q) := by
  subst hw1 hb1 hw2 hb2; exact Cert.Net.ginRows_rows X A Xb Ab w1' b1' w2' b2' p r q hX hA

/-- What point `t` writes back is block `t` of the layer's dense half of the whole arrays. -/
theorem flushed_rows (c : Dev nD) (t : Fin cfg3.N) :
    (dat3 V c).flushed 6 t = ((cfg3.win 6).blk t).view.read (Elt Ideal)
      (Cert.Net.ginRows (V c main_v47 : S100000x256.Idx → EReal) (V c main_v57 : S100000x256.Idx → EReal)
        (V c main_v60 : S256x512.Idx → EReal) (V c main_v65 : S512.Idx → EReal)
        (V c main_v63 : S512x256.Idx → EReal) (V c main_v67 : S256.Idx → EReal)) := by
  show (cfg3.win 6).cut (grid3.coords t) ((dat3 V c).after 6 t) = _
  rw [after3_6]
  unfold out3_6
  rw [View.canon_unit_zero zeros2]
  simp only [View.ld_unit_zero (S := S2000x256) zeros2, View.ld_unit_zero (S := S256x512) zeros2,
    View.ld_unit_zero (S := S512x256) zeros2, View.ld_unit_zero (S := S512) zeros1, View.ld_unit_zero (S := S256) zeros1]
  funext y
  obtain ⟨p, q, rfl⟩ : ∃ (p : Fin 2000) (q : Fin 256), y = ix2 p q := ⟨y 0, y 1, eq_ix2 y⟩
  have ht : t.val < 50 := t.isLt
  have hr : 2000 * t.val + p.val < 100000 := by have := p.isLt; omega
  show k3_pay1 (iblk3 V c 0 t) (iblk3 V c 1 t) (iblk3 V c 2 t) (iblk3 V c 3 t) (iblk3 V c 4 t) (iblk3 V c 5 t) (ix2 p q)
    = Cert.Net.ginRows (V c main_v47 : S100000x256.Idx → EReal) (V c main_v57 : S100000x256.Idx → EReal)
        (V c main_v60 : S256x512.Idx → EReal) (V c main_v65 : S512.Idx → EReal)
        (V c main_v63 : S512x256.Idx → EReal) (V c main_v67 : S256.Idx → EReal)
        (((cfg3.win 6).blk t).view.emb (ix2 p q))
  rw [result_entry t p q ⟨2000 * t.val + p.val, hr⟩ rfl]
  refine (pay_apply (iblk3 V c 0 t) (iblk3 V c 1 t) (iblk3 V c 2 t) (iblk3 V c 3 t) (iblk3 V c 4 t) (iblk3 V c 5 t) p q).trans ?_
  exact stage_of_block (V c main_v47) (V c main_v57) (iblk3 V c 0 t) (iblk3 V c 1 t)
    (V c main_v60) (iblk3 V c 2 t) (V c main_v65) (iblk3 V c 3 t) (V c main_v63) (iblk3 V c 4 t) (V c main_v67) (iblk3 V c 5 t) p
    ⟨2000 * t.val + p.val, hr⟩ q (fun j => node_rows_block V c t p j _ rfl) (fun j => sum_rows_block V c t p j _ rfl)
    (weights1_block V c t) (bias1_block V c t) (weights2_block V c t) (bias2_block V c t)

/-- An index of the result array is in point `t`'s block iff each coordinate is in the block's range on its axis. -/
theorem mem_block (t : Fin cfg3.N) (i : S100000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v68).slice (win3_6.rect t)).set ↔ _
  rw [View.set_slice_whole, Rect.mem_set_unit]
  exact Iff.rfl

/-- Row `r` of the result array lies in block `r / 2000`: the 50 blocks fill the array. -/
theorem rows_covered (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  have hN : cfg3.N = 50 := N_3
  have ht : (i 0).val / 2000 < cfg3.N := by rw [hN]; omega
  refine ⟨⟨(i 0).val / 2000, ht⟩, flush3_6 _, ?_⟩
  obtain ⟨-, -, -, -, -, -, -, -, -, -, e0, e1⟩ := idx_facts ⟨(i 0).val / 2000, ht⟩
  rw [mem_block]
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, ht⟩ (1 : Fin 2) * 256 ≤ (i 1).val
      ∧ (i 1).val < win3_6.index ⟨(i 0).val / 2000, ht⟩ (1 : Fin 2) * 256 + 256
    rw [e1]; omega

end Cert.KernelIdeal.Regions.Gin3

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After message-passing region 3 the result array holds the layer's dense half of the whole arrays. -/
theorem gin3_array (c : Dev nD) :
    (dat3 V c).arrAt 6 cfg3.N = Cert.Net.ginRows (V c main_v47 : S100000x256.Idx → EReal) (V c main_v57 : S100000x256.Idx → EReal)
      (V c main_v60 : S256x512.Idx → EReal) (V c main_v65 : S512.Idx → EReal)
      (V c main_v63 : S512x256.Idx → EReal) (V c main_v67 : S256.Idx → EReal) :=
  (dat3 V c).arrAt_eq_of_cover 6 _ (fun t _ => Gin3.flushed_rows V c t) Gin3.rows_covered

end Cert.KernelIdeal.Regions

end
-- ==== Proof.RegionGin4.lean ====
/-
  Message-passing region 4 read as one function of whole arrays. The region runs over 50 blocks of 2000 rows: at
  block `t` it loads rows `2000·t … 2000·t + 1999` of the node array and of the neighbour-sum array together with the
  whole of both weight matrices and both biases, and writes back the layer's dense half — the row plus its
  neighbours' sum through the two-layer perceptron, a ReLU after each layer — to the same rows of the result array.
  Every entry of that stage depends on one row of the two row-tiled arrays only, so what block `t` writes back is
  block `t` of the stage of the WHOLE arrays (`flushed_rows`); the 50 blocks fill the 100000 rows (row `r` lies in
  block `r / 2000`), so after the region the result array holds the stage of the whole arrays (`gin4_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Gin4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the layer's dense half of the two loaded blocks of rows. -/
theorem pay_apply (x0 x1 : Vec Ideal S2000x256 .f32) (x2 : Vec Ideal S256x512 .bf16) (x3 : Vec Ideal S512 .f32)
    (x4 : Vec Ideal S512x256 .bf16) (x5 : Vec Ideal S256 .f32) (p : Fin 2000) (q : Fin 256) :
    k4_pay1 x0 x1 x2 x3 x4 x5 (ix2 p q) = Cert.Net.ginRows x0 x1 x2 x3 x4 x5 (ix2 p q) := by
  unfold k4_pay1; exact Cert.Net.gin_body_apply _ rfl _ rfl _ _ _ _ _ _ _ _ _ _ _ _ _ _ _ _ p q

/-- The printed index maps, decided over the 50 grid points: the two row-tiled windows and the result window sit at row
    block `t`, column block 0; the weight and bias windows at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row `p` of the node window's block at point `t` is row `2000·t + p` of the node array. -/
theorem node_rows_block (c : Dev nD) (t : Fin cfg4.N) (p : Fin 2000) (j : Fin 256) (r : Fin 100000)
    (hr : r.val = 2000 * t.val + p.val) :
    (iblk4 V c 0 t : S2000x256.Idx → EReal) (ix2 p j) = (V c main_v68 : S100000x256.Idx → EReal) (ix2 r j) := by
  obtain ⟨e0, e1, -⟩ := idx_facts t
  show V c main_v68 (((cfg4.win 0).blk t).view.emb (ix2 p j)) = V c main_v68 (ix2 r j)
  refine congrArg _ ?_
  funext a; apply Fin.ext
  match a with
  | ⟨0, _⟩ => show win4_0.index t (0 : Fin 2) * 2000 + 1 * p.val = r.val; omega
  | ⟨1, _⟩ => show win4_0.index t (1 : Fin 2) * 256 + 1 * j.val = j.val; omega

/-- Row `p` of the neighbour-sum window's block at point `t` is row `2000·t + p` of the neighbour-sum array. -/
theorem sum_rows_block (c : Dev nD) (t : Fin cfg4.N) (p : Fin 2000) (j : Fin 256) (r : Fin 100000)
    (hr : r.val = 2000 * t.val + p.val) :
    (iblk4 V c 1 t : S2000x256.Idx → EReal) (ix2 p j) = (V c main_v78 : S100000x256.Idx → EReal) (ix2 r j) := by
  obtain ⟨-, -, e0, e1, -⟩ := idx_facts t
  show V c main_v78 (((cfg4.win 1).blk t).view.emb (ix2 p j)) = V c main_v78 (ix2 r j)
  refine congrArg _ ?_
  funext a; apply Fin.ext
  match a with
  | ⟨0, _⟩ => show win4_1.index t (0 : Fin 2) * 2000 + 1 * p.val = r.val; omega
  | ⟨1, _⟩ => show win4_1.index t (1 : Fin 2) * 256 + 1 * j.val = j.val; omega

/-- The first weight window's block at every point is the whole first weight matrix. -/
theorem weights1_block (c : Dev nD) (t : Fin cfg4.N) :
    (iblk4 V c 2 t : S256x512.Idx → EReal) = (V c main_v81 : S256x512.Idx → EReal) := by
  obtain ⟨-, -, -, -, e0, e1, -⟩ := idx_facts t
  funext y
  show V c main_v81 (((cfg4.win 2).blk t).view.emb y) = V c main_v81 y
  refine congrArg _ ?_
  funext a; apply Fin.ext
  match a with
  | ⟨0, _⟩ => show win4_2.index t (0 : Fin 2) * 256 + 1 * (y 0).val = (y 0).val; omega
  | ⟨1, _⟩ => show win4_2.index t (1 : Fin 2) * 512 + 1 * (y 1).val = (y 1).val; omega

/-- The first bias window's block at every point is the whole first bias. -/
theorem bias1_block (c : Dev nD) (t : Fin cfg4.N) :
    (iblk4 V c 3 t : S512.Idx → EReal) = (V c main_v86 : S512.Idx → EReal) := by
  obtain ⟨-, -, -, -, -, -, e0, -⟩ := idx_facts t
  funext y
  show V c main_v86 (((cfg4.win 3).blk t).view.emb y) = V c main_v86 y
  refine congrArg _ ?_
  funext a; apply Fin.ext
  match a with
  | ⟨0, _⟩ => show win4_3.index t (0 : Fin 1) * 512 + 1 * (y 0).val = (y 0).val; omega

/-- The second weight window's block at every point is the whole second weight matrix. -/
theorem weights2_block (c : Dev nD) (t : Fin cfg4.N) :
    (iblk4 V c 4 t : S512x256.Idx → EReal) = (V c main_v84 : S512x256.Idx → EReal) := by
  obtain ⟨-, -, -, -, -, -, -, e0, e1, -⟩ := idx_facts t
  funext y
  show V c main_v84 (((cfg4.win 4).blk t).view.emb y) = V c main_v84 y
  refine congrArg _ ?_
  funext a; apply Fin.ext
  match a with
  | ⟨0, _⟩ => show win4_4.index t (0 : Fin 2) * 512 + 1 * (y 0).val = (y 0).val; omega
  | ⟨1, _⟩ => show win4_4.index t (1 : Fin 2) * 256 + 1 * (y 1).val = (y 1).val; omega

/-- The second bias window's block at every point is the whole second bias. -/
theorem bias2_block (c : Dev nD) (t : Fin cfg4.N) :
    (iblk4 V c 5 t : S256.Idx → EReal) = (V c main_v88 : S256.Idx → EReal) := by
  obtain ⟨-, -, -, -, -, -, -, -, -, e0, -⟩ := idx_facts t
  funext y
  show V c main_v88 (((cfg4.win 5).blk t).view.emb y) = V c main_v88 y
  refine congrArg _ ?_
  funext a; apply Fin.ext
  match a with
  | ⟨0, _⟩ => show win4_5.index t (0 : Fin 1) * 256 + 1 * (y 0).val = (y 0).val; omega

/-- Entry `(p, q)` of the result window's block at point `t` sits at row `2000·t + p`, column `q` of the result array. -/
theorem result_entry (t : Fin cfg4.N) (p : Fin 2000) (q : Fin 256) (r : Fin 100000)
    (hr : r.val = 2000 * t.val + p.val) :
    (((cfg4.win 6).blk t).view.emb (ix2 p q) : S100000x256.Idx) = ix2 r q := by
  obtain ⟨-, -, -, -, -, -, -, -, -, -, e0, e1⟩ := idx_facts t
  funext a; apply Fin.ext
  match a with
  | ⟨0, _⟩ => show win4_6.index t (0 : Fin 2) * 2000 + 1 * p.val = r.val; omega
  | ⟨1, _⟩ => show win4_6.index t (1 : Fin 2) * 256 + 1 * q.val = q.val; omega

/-- The stage of two blocks whose rows are rows of the arrays, with the arrays' own weights and biases, at an entry. -/
theorem stage_of_block (X A : S100000x256.Idx → EReal) (Xb Ab : S2000x256.Idx → EReal)
    (w1 w1' : S256x512.Idx → EReal) (b1 b1' : S512.Idx → EReal) (w2 w2' : S512x256.Idx → EReal) (b2 b2' : S256.Idx → EReal)
    (p : Fin 2000) (r : Fin 100000) (q : Fin 256)
    (hX : ∀ j, Xb (ix2 p j) = X (ix2 r j)) (hA : ∀ j, Ab (ix2 p j) = A (ix2 r j))
    (hw1 : w1' = w1) (hb1 : b1' = b1) (hw2 : w2' = w2) (hb2 : b2' = b2) :
    Cert.Net.ginRows Xb Ab w1' b1' w2' b2' (ix2 p q) = Cert.Net.ginRows X A w1 b1 w2 b2 (ix2 r q) := by
  subst hw1 hb1 hw2 hb2; exact Cert.Net.ginRows_rows X A Xb Ab w1' b1' w2' b2' p r q hX hA

/-- What point `t` writes back is block `t` of the layer's dense half of the whole arrays. -/
theorem flushed_rows (c : Dev nD) (t : Fin cfg4.N) :
    (dat4 V c).flushed 6 t = ((cfg4.win 6).blk t).view.read (Elt Ideal)
      (Cert.Net.ginRows (V c main_v68 : S100000x256.Idx → EReal) (V c main_v78 : S100000x256.Idx → EReal)
        (V c main_v81 : S256x512.Idx → EReal) (V c main_v86 : S512.Idx → EReal)
        (V c main_v84 : S512x256.Idx → EReal) (V c main_v88 : S256.Idx → EReal)) := by
  show (cfg4.win 6).cut (grid4.coords t) ((dat4 V c).after 6 t) = _
  rw [after4_6]
  unfold out4_6
  rw [View.canon_unit_zero zeros2]
  simp only [View.ld_unit_zero (S := S2000x256) zeros2, View.ld_unit_zero (S := S256x512) zeros2,
    View.ld_unit_zero (S := S512x256) zeros2, View.ld_unit_zero (S := S512) zeros1, View.ld_unit_zero (S := S256) zeros1]
  funext y
  obtain ⟨p, q, rfl⟩ : ∃ (p : Fin 2000) (q : Fin 256), y = ix2 p q := ⟨y 0, y 1, eq_ix2 y⟩
  have ht : t.val < 50 := t.isLt
  have hr : 2000 * t.val + p.val < 100000 := by have := p.isLt; omega
  show k4_pay1 (iblk4 V c 0 t) (iblk4 V c 1 t) (iblk4 V c 2 t) (iblk4 V c 3 t) (iblk4 V c 4 t) (iblk4 V c 5 t) (ix2 p q)
    = Cert.Net.ginRows (V c main_v68 : S100000x256.Idx → EReal) (V c main_v78 : S100000x256.Idx → EReal)
        (V c main_v81 : S256x512.Idx → EReal) (V c main_v86 : S512.Idx → EReal)
        (V c main_v84 : S512x256.Idx → EReal) (V c main_v88 : S256.Idx → EReal)
        (((cfg4.win 6).blk t).view.emb (ix2 p q))
  rw [result_entry t p q ⟨2000 * t.val + p.val, hr⟩ rfl]
  refine (pay_apply (iblk4 V c 0 t) (iblk4 V c 1 t) (iblk4 V c 2 t) (iblk4 V c 3 t) (iblk4 V c 4 t) (iblk4 V c 5 t) p q).trans ?_
  exact stage_of_block (V c main_v68) (V c main_v78) (iblk4 V c 0 t) (iblk4 V c 1 t)
    (V c main_v81) (iblk4 V c 2 t) (V c main_v86) (iblk4 V c 3 t) (V c main_v84) (iblk4 V c 4 t) (V c main_v88) (iblk4 V c 5 t) p
    ⟨2000 * t.val + p.val, hr⟩ q (fun j => node_rows_block V c t p j _ rfl) (fun j => sum_rows_block V c t p j _ rfl)
    (weights1_block V c t) (bias1_block V c t) (weights2_block V c t) (bias2_block V c t)

/-- An index of the result array is in point `t`'s block iff each coordinate is in the block's range on its axis. -/
theorem mem_block (t : Fin cfg4.N) (i : S100000x256.Idx) :
    i ∈ ((cfg4.win 6).blk t).view.set ↔ ∀ a : Fin 2, win4_6.index t a * S2000x256.size a ≤ (i a).val
      ∧ (i a).val < win4_6.index t a * S2000x256.size a + S2000x256.size a := by
  show i ∈ ((View.whole main_v89).slice (win4_6.rect t)).set ↔ _
  rw [View.set_slice_whole, Rect.mem_set_unit]
  exact Iff.rfl

/-- Row `r` of the result array lies in block `r / 2000`: the 50 blocks fill the array. -/
theorem rows_covered (i : S100000x256.Idx) :
    ∃ t : Fin cfg4.N, (cfg4.win 6).flush t = true ∧ i ∈ ((cfg4.win 6).blk t).view.set := by
  have hi0 : (i 0).val < 100000 := (i 0).isLt
  have hi1 : (i 1).val < 256 := (i 1).isLt
  have hN : cfg4.N = 50 := N_4
  have ht : (i 0).val / 2000 < cfg4.N := by rw [hN]; omega
  refine ⟨⟨(i 0).val / 2000, ht⟩, flush4_6 _, ?_⟩
  obtain ⟨-, -, -, -, -, -, -, -, -, -, e0, e1⟩ := idx_facts ⟨(i 0).val / 2000, ht⟩
  rw [mem_block]
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_6.index ⟨(i 0).val / 2000, ht⟩ (1 : Fin 2) * 256 ≤ (i 1).val
      ∧ (i 1).val < win4_6.index ⟨(i 0).val / 2000, ht⟩ (1 : Fin 2) * 256 + 256
    rw [e1]; omega

end Cert.KernelIdeal.Regions.Gin4

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After message-passing region 4 the result array holds the layer's dense half of the whole arrays. -/
theorem gin4_array (c : Dev nD) :
    (dat4 V c).arrAt 6 cfg4.N = Cert.Net.ginRows (V c main_v68 : S100000x256.Idx → EReal) (V c main_v78 : S100000x256.Idx → EReal)
      (V c main_v81 : S256x512.Idx → EReal) (V c main_v86 : S512.Idx → EReal)
      (V c main_v84 : S512x256.Idx → EReal) (V c main_v88 : S256.Idx → EReal) :=
  (dat4 V c).arrAt_eq_of_cover 6 _ (fun t _ => Gin4.flushed_rows V c t) Gin4.rows_covered

end Cert.KernelIdeal.Regions

end
-- ==== Proof.RegionHead.lean ====
/-
  The read-out region read as one function of whole arrays. The region runs over 4 blocks of 1000 rows: at block `t`
  it loads rows `1000·t … 1000·t + 999` of the pooled array together with the whole of both weight matrices and both
  biases, and writes back the two-layer perceptron of those rows (one ReLU, between the layers) to the same rows of the
  result array. Every entry of the perceptron depends on one row of the pooled array only, so what block `t` writes
  back is block `t` of the perceptron of the WHOLE array (`flushed_rows`); the 4 blocks fill the 4000 rows (row `r` lies
  in block `r / 1000`), so after the region the result array holds the perceptron of the whole array (`head_array`).
-/
import proofs.«101421_j70815420776483_1_alg».proof.Proof.Gen.KernelIdeal.Frame
import proofs.«101421_j70815420776483_1_alg».proof.Proof.LibGinStages

set_option maxRecDepth 16384

noncomputable section

namespace Cert.KernelIdeal.Regions.Head

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's payload at an entry: the perceptron of the loaded block of rows. -/
theorem pay_apply (x0 : Vec Ideal S1000x256 .f32) (x1 : Vec Ideal S256x256 .bf16) (x2 : Vec Ideal S256 .f32)
    (x3 : Vec Ideal S256x512 .bf16) (x4 : Vec Ideal S512 .f32) (p : Fin 1000) (q : Fin 512) :
    k5_pay1 x0 x1 x2 x3 x4 (ix2 p q) = Cert.LibMlp.mlp2 x0 x1 x2 x3 x4 (ix2 p q) := by
  unfold k5_pay1; exact Cert.Net.head_body_apply _ rfl _ rfl _ _ _ _ _ _ _ _ _ _ _ _ _ p q

/-- The printed index maps, decided over the 4 grid points: the pooled window and the result window sit at row block
    `t`, column block 0; the weight and bias windows at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Row `p` of the pooled window's block at point `t` is row `1000·t + p` of the pooled array. -/
theorem rows_block (c : Dev nD) (t : Fin cfg5.N) (p : Fin 1000) (j : Fin 256) (r : Fin 4000)
    (hr : r.val = 1000 * t.val + p.val) :
    (iblk5 V c 0 t : S1000x256.Idx → EReal) (ix2 p j) = (V c main_v101 : S4000x256.Idx → EReal) (ix2 r j) := by
  obtain ⟨e0, e1, -⟩ := idx_facts t
  show V c main_v101 (((cfg5.win 0).blk t).view.emb (ix2 p j)) = V c main_v101 (ix2 r j)
  refine congrArg _ ?_
  funext a; apply Fin.ext
  match a with
  | ⟨0, _⟩ => show win5_0.index t (0 : Fin 2) * 1000 + 1 * p.val = r.val; omega
  | ⟨1, _⟩ => show win5_0.index t (1 : Fin 2) * 256 + 1 * j.val = j.val; omega

/-- The first weight window's block at every point is the whole first weight matrix. -/
theorem weights1_block (c : Dev nD) (t : Fin cfg5.N) :
    (iblk5 V c 1 t : S256x256.Idx → EReal) = (V c main_v102 : S256x256.Idx → EReal) := by
  obtain ⟨-, -, e0, e1, -⟩ := idx_facts t
  funext y
  show V c main_v102 (((cfg5.win 1).blk t).view.emb y) = V c main_v102 y
  refine congrArg _ ?_
  funext a; apply Fin.ext
  match a with
  | ⟨0, _⟩ => show win5_1.index t (0 : Fin 2) * 256 + 1 * (y 0).val = (y 0).val; omega
  | ⟨1, _⟩ => show win5_1.index t (1 : Fin 2) * 256 + 1 * (y 1).val = (y 1).val; omega

/-- The first bias window's block at every point is the whole first bias. -/
theorem bias1_block (c : Dev nD) (t : Fin cfg5.N) :
    (iblk5 V c 2 t : S256.Idx → EReal) = (V c main_arg10 : S256.Idx → EReal) := by
  obtain ⟨-, -, -, -, e0, -⟩ := idx_facts t
  funext y
  show V c main_arg10 (((cfg5.win 2).blk t).view.emb y) = V c main_arg10 y
  refine congrArg _ ?_
  funext a; apply Fin.ext
  match a with
  | ⟨0, _⟩ => show win5_2.index t (0 : Fin 1) * 256 + 1 * (y 0).val = (y 0).val; omega

/-- The second weight window's block at every point is the whole second weight matrix. -/
theorem weights2_block (c : Dev nD) (t : Fin cfg5.N) :
    (iblk5 V c 3 t : S256x512.Idx → EReal) = (V c main_v103 : S256x512.Idx → EReal) := by
  obtain ⟨-, -, -, -, -, e0, e1, -⟩ := idx_facts t
  funext y
  show V c main_v103 (((cfg5.win 3).blk t).view.emb y) = V c main_v103 y
  refine congrArg _ ?_
  funext a; apply Fin.ext
  match a with
  | ⟨0, _⟩ => show win5_3.index t (0 : Fin 2) * 256 + 1 * (y 0).val = (y 0).val; omega
  | ⟨1, _⟩ => show win5_3.index t (1 : Fin 2) * 512 + 1 * (y 1).val = (y 1).val; omega

/-- The second bias window's block at every point is the whole second bias. -/
theorem bias2_block (c : Dev nD) (t : Fin cfg5.N) :
    (iblk5 V c 4 t : S512.Idx → EReal) = (V c main_arg12 : S512.Idx → EReal) := by
  obtain ⟨-, -, -, -, -, -, -, e0, -⟩ := idx_facts t
  funext y
  show V c main_arg12 (((cfg5.win 4).blk t).view.emb y) = V c main_arg12 y
  refine congrArg _ ?_
  funext a; apply Fin.ext
  match a with
  | ⟨0, _⟩ => show win5_4.index t (0 : Fin 1) * 512 + 1 * (y 0).val = (y 0).val; omega

/-- Entry `(p, q)` of the result window's block at point `t` sits at row `1000·t + p`, column `q` of the result array. -/
theorem result_entry (t : Fin cfg5.N) (p : Fin 1000) (q : Fin 512) (r : Fin 4000)
    (hr : r.val = 1000 * t.val + p.val) :
    (((cfg5.win 5).blk t).view.emb (ix2 p q) : S4000x512.Idx) = ix2 r q := by
  obtain ⟨-, -, -, -, -, -, -, -, e0, e1⟩ := idx_facts t
  funext a; apply Fin.ext
  match a with
  | ⟨0, _⟩ => show win5_5.index t (0 : Fin 2) * 1000 + 1 * p.val = r.val; omega
  | ⟨1, _⟩ => show win5_5.index t (1 : Fin 2) * 512 + 1 * q.val = q.val; omega

/-- The perceptron of a block whose rows are rows of the array, with the array's own weights and biases, at an entry. -/
theorem stage_of_block (X : S4000x256.Idx → EReal) (Xb : S1000x256.Idx → EReal)
    (w1 w1' : S256x256.Idx → EReal) (b1 b1' : S256.Idx → EReal) (w2 w2' : S256x512.Idx → EReal) (b2 b2' : S512.Idx → EReal)
    (p : Fin 1000) (r : Fin 4000) (q : Fin 512)
    (hX : ∀ j, Xb (ix2 p j) = X (ix2 r j))
    (hw1 : w1' = w1) (hb1 : b1' = b1) (hw2 : w2' = w2) (hb2 : b2' = b2) :
    Cert.LibMlp.mlp2 Xb w1' b1' w2' b2' (ix2 p q) = Cert.LibMlp.mlp2 X w1 b1 w2 b2 (ix2 r q) := by
  subst hw1 hb1 hw2 hb2; exact Cert.Net.mlp2_rows X Xb w1' b1' w2' b2' p r q hX

/-- What point `t` writes back is block `t` of the perceptron of the whole pooled array. -/
theorem flushed_rows (c : Dev nD) (t : Fin cfg5.N) :
    (dat5 V c).flushed 5 t = ((cfg5.win 5).blk t).view.read (Elt Ideal)
      (Cert.LibMlp.mlp2 (V c main_v101 : S4000x256.Idx → EReal) (V c main_v102 : S256x256.Idx → EReal)
        (V c main_arg10 : S256.Idx → EReal) (V c main_v103 : S256x512.Idx → EReal) (V c main_arg12 : S512.Idx → EReal)) := by
  show (cfg5.win 5).cut (grid5.coords t) ((dat5 V c).after 5 t) = _
  rw [after5_5]
  unfold out5_5
  rw [View.canon_unit_zero zeros2]
  simp only [View.ld_unit_zero (S := S1000x256) zeros2, View.ld_unit_zero (S := S256x256) zeros2,
    View.ld_unit_zero (S := S256x512) zeros2, View.ld_unit_zero (S := S512) zeros1, View.ld_unit_zero (S := S256) zeros1]
  funext y
  obtain ⟨p, q, rfl⟩ : ∃ (p : Fin 1000) (q : Fin 512), y = ix2 p q := ⟨y 0, y 1, eq_ix2 y⟩
  have hN : cfg5.N = 4 := N_5
  have ht : t.val < 4 := hN ▸ t.isLt
  have hr : 1000 * t.val + p.val < 4000 := by have := p.isLt; omega
  show k5_pay1 (iblk5 V c 0 t) (iblk5 V c 1 t) (iblk5 V c 2 t) (iblk5 V c 3 t) (iblk5 V c 4 t) (ix2 p q)
    = Cert.LibMlp.mlp2 (V c main_v101 : S4000x256.Idx → EReal) (V c main_v102 : S256x256.Idx → EReal)
        (V c main_arg10 : S256.Idx → EReal) (V c main_v103 : S256x512.Idx → EReal) (V c main_arg12 : S512.Idx → EReal)
        (((cfg5.win 5).blk t).view.emb (ix2 p q))
  rw [result_entry t p q ⟨1000 * t.val + p.val, hr⟩ rfl]
  refine (pay_apply (iblk5 V c 0 t) (iblk5 V c 1 t) (iblk5 V c 2 t) (iblk5 V c 3 t) (iblk5 V c 4 t) p q).trans ?_
  exact stage_of_block (V c main_v101) (iblk5 V c 0 t) (V c main_v102) (iblk5 V c 1 t) (V c main_arg10) (iblk5 V c 2 t)
    (V c main_v103) (iblk5 V c 3 t) (V c main_arg12) (iblk5 V c 4 t) p
    ⟨1000 * t.val + p.val, hr⟩ q (fun j => rows_block V c t p j _ rfl)
    (weights1_block V c t) (bias1_block V c t) (weights2_block V c t) (bias2_block V c t)

/-- An index of the result array is in point `t`'s block iff each coordinate is in the block's range on its axis. -/
theorem mem_block (t : Fin cfg5.N) (i : S4000x512.Idx) :
    i ∈ ((cfg5.win 5).blk t).view.set ↔ ∀ a : Fin 2, win5_5.index t a * S1000x512.size a ≤ (i a).val
      ∧ (i a).val < win5_5.index t a * S1000x512.size a + S1000x512.size a := by
  show i ∈ ((View.whole main_v104).slice (win5_5.rect t)).set ↔ _
  rw [View.set_slice_whole, Rect.mem_set_unit]
  exact Iff.rfl

/-- Row `r` of the result array lies in block `r / 1000`: the 4 blocks fill the array. -/
theorem rows_covered (i : S4000x512.Idx) :
    ∃ t : Fin cfg5.N, (cfg5.win 5).flush t = true ∧ i ∈ ((cfg5.win 5).blk t).view.set := by
  have hi0 : (i 0).val < 4000 := (i 0).isLt
  have hi1 : (i 1).val < 512 := (i 1).isLt
  have hN : cfg5.N = 4 := N_5
  have ht : (i 0).val / 1000 < cfg5.N := by rw [hN]; omega
  refine ⟨⟨(i 0).val / 1000, ht⟩, flush5_5 _, ?_⟩
  obtain ⟨-, -, -, -, -, -, -, -, e0, e1⟩ := idx_facts ⟨(i 0).val / 1000, ht⟩
  rw [mem_block]
  intro a
  match a with
  | ⟨0, _⟩ =>
    show win5_5.index ⟨(i 0).val / 1000, ht⟩ (0 : Fin 2) * 1000 ≤ (i 0).val
      ∧ (i 0).val < win5_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win5_5.index ⟨(i 0).val / 1000, ht⟩ (1 : Fin 2) * 512 ≤ (i 1).val
      ∧ (i 1).val < win5_5.index ⟨(i 0).val / 1000, ht⟩ (1 : Fin 2) * 512 + 512
    rw [e1]; omega

end Cert.KernelIdeal.Regions.Head

namespace Cert.KernelIdeal.Regions

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- After the read-out region the result array holds the perceptron of the whole pooled array. -/
theorem head_array (c : Dev nD) :
    (dat5 V c).arrAt 5 cfg5.N = Cert.LibMlp.mlp2 (V c main_v101 : S4000x256.Idx → EReal) (V c main_v102 : S256x256.Idx → EReal)
      (V c main_arg10 : S256.Idx → EReal) (V c main_v103 : S256x512.Idx → EReal) (V c main_arg12 : S512.Idx → EReal) :=
  (dat5 V c).arrAt_eq_of_cover 5 _ (fun t _ => Head.flushed_rows V c t) Head.rows_covered

end Cert.KernelIdeal.Regions

end
-- ==== Proof.KernelValue.lean ====
/-
  The idealized kernel program's result IS the network of its arguments. Each region's output array is its stage of
  the arrays the region finds (the per-region array theorems); what it finds is what the stretch before it computed
  from the previous boundary (the stretch lemmas), the previous layer's output, and untouched arguments (the boundary
  lemmas). Folding these from the launch memory through the six regions gives the result buffer's final contents as
  `network` of the thirteen argument arrays.
-/
import proofs.«101421_j70815420776483_1_alg».proof.Proof.KernelNet
import proofs.«101421_j70815420776483_1_alg».proof.Proof.RegionEmbed
import proofs.«101421_j70815420776483_1_alg».proof.Proof.RegionGin1
import proofs.«101421_j70815420776483_1_alg».proof.Proof.RegionGin2
import proofs.«101421_j70815420776483_1_alg».proof.Proof.RegionGin3
import proofs.«101421_j70815420776483_1_alg».proof.Proof.RegionGin4
import proofs.«101421_j70815420776483_1_alg».proof.Proof.RegionHead

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The embedding region leaves the embedding of the node features. -/
theorem out0 (c : Dev nD) : W2 m ρ c (Proc.devRef .tc main_v5) = layer0 (m ((c : Thread nD τ).loc main_arg0)) (m ((c : Thread nD τ).loc main_arg3)) (m ((c : Thread nD τ).loc main_arg4)) := by
  refine (W2_arr m ρ c 3).trans ((Cert.KernelIdeal.Regions.embed_array (V1 m ρ) c).trans ?_)
  show Cert.Net.embedRows (W1 m ρ c (Proc.devRef .tc main_arg0) : S100000x44.Idx → EReal) (W1 m ρ c (Proc.devRef .tc main_v4) : S44x256.Idx → EReal) (W1 m ρ c (Proc.devRef .tc main_arg4) : S256.Idx → EReal) = _
  rw [arg0_at1 m ρ c, v4_entry m ρ c, arg4_at1 m ρ c]
  rfl

/-- Message-passing region 1 leaves layer 1 of the network. -/
theorem out1 (c : Dev nD) : W4 m ρ c (Proc.devRef .tc main_v26) = layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((Cert.KernelIdeal.Regions.gin1_array (V3 m ρ) c).trans ?_)
  show Cert.Net.ginRows (W3 m ρ c (Proc.devRef .tc main_v5) : S100000x256.Idx → EReal) (W3 m ρ c (Proc.devRef .tc main_v15) : S100000x256.Idx → EReal)
    (W3 m ρ c (Proc.devRef .tc main_v18) : S256x512.Idx → EReal) (W3 m ρ c (Proc.devRef .tc main_v23) : S512.Idx → EReal)
    (W3 m ρ c (Proc.devRef .tc main_v21) : S512x256.Idx → EReal) (W3 m ρ c (Proc.devRef .tc main_v25) : S256.Idx → EReal) = _
  rw [v5_at3 m ρ c, v15_entry m ρ c, v18_entry m ρ c, v23_entry m ρ c, v21_entry m ρ c, v25_entry m ρ c,
    out0 m ρ c, v1_at2 m ρ c, v3_at2 m ρ c, v1_entry m ρ c, v3_entry m ρ c,
    arg5_at2 m ρ c, arg6_at2 m ρ c, arg7_at2 m ρ c, arg8_at2 m ρ c]
  rfl

/-- Message-passing region 2 leaves layer 2 of the network. -/
theorem out2 (c : Dev nD) : W6 m ρ c (Proc.devRef .tc main_v47) = layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ((Cert.KernelIdeal.Regions.gin2_array (V5 m ρ) c).trans ?_)
  show Cert.Net.ginRows (W5 m ρ c (Proc.devRef .tc main_v26) : S100000x256.Idx → EReal) (W5 m ρ c (Proc.devRef .tc main_v36) : S100000x256.Idx → EReal)
    (W5 m ρ c (Proc.devRef .tc main_v39) : S256x512.Idx → EReal) (W5 m ρ c (Proc.devRef .tc main_v44) : S512.Idx → EReal)
    (W5 m ρ c (Proc.devRef .tc main_v42) : S512x256.Idx → EReal) (W5 m ρ c (Proc.devRef .tc main_v46) : S256.Idx → EReal) = _
  rw [v26_at5 m ρ c, v36_entry m ρ c, v39_entry m ρ c, v44_entry m ρ c, v42_entry m ρ c, v46_entry m ρ c,
    out1 m ρ c, v1_at4 m ρ c, v3_at4 m ρ c, v1_entry m ρ c, v3_entry m ρ c,
    arg5_at4 m ρ c, arg6_at4 m ρ c, arg7_at4 m ρ c, arg8_at4 m ρ c]
  rfl

/-- Message-passing region 3 leaves layer 3 of the network. -/
theorem out3 (c : Dev nD) : W8 m ρ c (Proc.devRef .tc main_v68) = layer3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 6).trans ((Cert.KernelIdeal.Regions.gin3_array (V7 m ρ) c).trans ?_)
  show Cert.Net.ginRows (W7 m ρ c (Proc.devRef .tc main_v47) : S100000x256.Idx → EReal) (W7 m ρ c (Proc.devRef .tc main_v57) : S100000x256.Idx → EReal)
    (W7 m ρ c (Proc.devRef .tc main_v60) : S256x512.Idx → EReal) (W7 m ρ c (Proc.devRef .tc main_v65) : S512.Idx → EReal)
    (W7 m ρ c (Proc.devRef .tc main_v63) : S512x256.Idx → EReal) (W7 m ρ c (Proc.devRef .tc main_v67) : S256.Idx → EReal) = _
  rw [v47_at7 m ρ c, v57_entry m ρ c, v60_entry m ρ c, v65_entry m ρ c, v63_entry m ρ c, v67_entry m ρ c,
    out2 m ρ c, v1_at6 m ρ c, v3_at6 m ρ c, v1_entry m ρ c, v3_entry m ρ c,
    arg5_at6 m ρ c, arg6_at6 m ρ c, arg7_at6 m ρ c, arg8_at6 m ρ c]
  rfl

/-- Message-passing region 4 leaves layer 4 of the network. -/
theorem out4 (c : Dev nD) : W10 m ρ c (Proc.devRef .tc main_v89) = layer4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 6).trans ((Cert.KernelIdeal.Regions.gin4_array (V9 m ρ) c).trans ?_)
  show Cert.Net.ginRows (W9 m ρ c (Proc.devRef .tc main_v68) : S100000x256.Idx → EReal) (W9 m ρ c (Proc.devRef .tc main_v78) : S100000x256.Idx → EReal)
    (W9 m ρ c (Proc.devRef .tc main_v81) : S256x512.Idx → EReal) (W9 m ρ c (Proc.devRef .tc main_v86) : S512.Idx → EReal)
    (W9 m ρ c (Proc.devRef .tc main_v84) : S512x256.Idx → EReal) (W9 m ρ c (Proc.devRef .tc main_v88) : S256.Idx → EReal) = _
  rw [v68_at9 m ρ c, v78_entry m ρ c, v81_entry m ρ c, v86_entry m ρ c, v84_entry m ρ c, v88_entry m ρ c,
    out3 m ρ c, v1_at8 m ρ c, v3_at8 m ρ c, v1_entry m ρ c, v3_entry m ρ c,
    arg5_at8 m ρ c, arg6_at8 m ρ c, arg7_at8 m ρ c, arg8_at8 m ρ c]
  rfl

/-- The head region leaves the network's result. -/
theorem result_value (c : Dev nD) : W12 m ρ c (Proc.devRef .tc main_v104) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((Cert.KernelIdeal.Regions.head_array (V11 m ρ) c).trans ?_)
  show Cert.LibMlp.mlp2 (W11 m ρ c (Proc.devRef .tc main_v101) : S4000x256.Idx → EReal) (W11 m ρ c (Proc.devRef .tc main_v102) : S256x256.Idx → EReal)
    (W11 m ρ c (Proc.devRef .tc main_arg10) : S256.Idx → EReal) (W11 m ρ c (Proc.devRef .tc main_v103) : S256x512.Idx → EReal) (W11 m ρ c (Proc.devRef .tc main_arg12) : S512.Idx → EReal) = _
  rw [v101_entry m ρ c, v102_entry m ρ c, v103_entry m ρ c, arg10_at11 m ρ c, arg12_at11 m ρ c,
    out4 m ρ c, arg2_at10 m ρ c, arg9_at10 m ρ c, arg11_at10 m ρ c]
  rfl

end Cert.KernelIdeal.Result

end
-- ==== Proof.RefStages.lean ====
/-
  The reference program's dense stages, each read as the specification's stage of the stages before it, on the
  extended reals. The embedding is one affine layer floored at zero; each of the four message-passing layers adds the
  neighbours' sum to the node's row and sends the result through a two-layer perceptron with a floor at zero after each
  layer; the read-out head is a two-layer perceptron with one floor, between its layers, applied to the pooled rows.
  The neighbours' sums and the pooled rows are carried as opaque arrays: every entry of a dense stage depends on one row
  of its operands only, so nothing about how those arrays were gathered or scattered is used. Each statement is read
  entry by entry: the matrix products are plain sums of products, a bias is a vector repeated down the rows, and the
  floor is the maximum with the zero word's value.
-/
import proofs.«101421_j70815420776483_1_alg».proof.Proof.Gen.ReferenceIdeal.Read
import proofs.«101421_j70815420776483_1_alg».proof.Proof.LibGinStages

noncomputable section

namespace Cert.ReferenceIdeal.RefValue

open Cert.ReferenceIdeal Cert.ReferenceIdeal.Gen Cert.ReferenceIdeal.Read Idealize.ShloMosaic Idealize.ShloMosaic.ValueIdx

/-! ## The reference's dimension records are the plain matrix product's: rows by the contracted axis, times the contracted axis by columns, no batch axis -/

theorem dot_embed : dot_S100000x44_S44x256_S100000x256_1_0_0_1_n_n = DotDims.plain 100000 44 256 := rfl
theorem dot_up : dot_S100000x256_S256x512_S100000x512_1_0_0_1_n_n = DotDims.plain 100000 256 512 := rfl
theorem dot_down : dot_S100000x512_S512x256_S100000x256_1_0_0_1_n_n = DotDims.plain 100000 512 256 := rfl
theorem dot_head1 : dot_S4000x256_S256x256_S4000x256_1_0_0_1_n_n = DotDims.plain 4000 256 256 := rfl
theorem dot_head2 : dot_S4000x256_S256x512_S4000x512_1_0_0_1_n_n = DotDims.plain 4000 256 512 := rfl

/-! ## The embedding -/

/-- The embedding stage: entry `(p, q)` is the row `p` of the features times column `q` of the weights, plus the
    bias, floored at zero. -/
theorem embed_eq (x0 : (⟨S100000x44, .f32⟩ : BufTy).Contents (Elt Ideal)) (x3 : (⟨S44x256, .f32⟩ : BufTy).Contents (Elt Ideal))
    (x4 : (⟨S256, .f32⟩ : BufTy).Contents (Elt Ideal)) :
    val_main_v8 (F := Ideal) x0 x3 x4 = Cert.Net.embedRows x0 x3 x4 := by
  funext i
  obtain ⟨p, q, rfl⟩ : ∃ (p : Fin 100000) (q : Fin 256), i = ValueIdx.ix2 p q := ⟨i 0, i 1, ValueIdx.eq_ix2 i⟩
  unfold val_main_v8 val_main_v7 val_main_v6 val_main_v5 val_main_v4 val_main_call0_v0 val_main_call0_cst
  exact Cert.Net.embed_host_apply _ dot_embed _ _ _ _ _ _ p q

/-! ## The message-passing layers -/

/-- The first message-passing layer: entry `(p, q)` is the perceptron, with a floor at zero after each of its two
    layers, of row `p` of the previous stage plus row `p` of the neighbours' sum. -/
theorem gin1_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    val_main_v37 (F := Ideal) x0 x1 x3 x4 x5 x6 x7 x8
      = Cert.Net.ginRows (val_main_v8 (F := Ideal) x0 x3 x4) (val_main_v18 (F := Ideal) x0 x1 x3 x4)
          (val_main_v21 (F := Ideal) x5) (val_main_v24 (F := Ideal) x6) (val_main_v30 (F := Ideal) x7) (val_main_v33 (F := Ideal) x8) := by
  funext i
  obtain ⟨p, q, rfl⟩ : ∃ (p : Fin 100000) (q : Fin 256), i = ValueIdx.ix2 p q := ⟨i 0, i 1, ValueIdx.eq_ix2 i⟩
  unfold val_main_v37 val_main_v36 val_main_v35 val_main_v34 val_main_v31 val_main_v28 val_main_v27 val_main_v26 val_main_v25 val_main_v22 val_main_v19 val_main_call2_v0 val_main_call2_cst val_main_call1_v0 val_main_call1_cst
  exact Cert.Net.gin_host_apply _ dot_up _ dot_down _ _ _ _ _ _ _ _ _ _ _ _ p q

/-- The second message-passing layer: entry `(p, q)` is the perceptron, with a floor at zero after each of its two
    layers, of row `p` of the previous stage plus row `p` of the neighbours' sum. -/
theorem gin2_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    val_main_v66 (F := Ideal) x0 x1 x3 x4 x5 x6 x7 x8
      = Cert.Net.ginRows (val_main_v37 (F := Ideal) x0 x1 x3 x4 x5 x6 x7 x8) (val_main_v47 (F := Ideal) x0 x1 x3 x4 x5 x6 x7 x8)
          (val_main_v50 (F := Ideal) x5) (val_main_v53 (F := Ideal) x6) (val_main_v59 (F := Ideal) x7) (val_main_v62 (F := Ideal) x8) := by
  funext i
  obtain ⟨p, q, rfl⟩ : ∃ (p : Fin 100000) (q : Fin 256), i = ValueIdx.ix2 p q := ⟨i 0, i 1, ValueIdx.eq_ix2 i⟩
  unfold val_main_v66 val_main_v65 val_main_v64 val_main_v63 val_main_v60 val_main_v57 val_main_v56 val_main_v55 val_main_v54 val_main_v51 val_main_v48 val_main_call4_v0 val_main_call4_cst val_main_call3_v0 val_main_call3_cst
  exact Cert.Net.gin_host_apply _ dot_up _ dot_down _ _ _ _ _ _ _ _ _ _ _ _ p q

/-- The third message-passing layer: entry `(p, q)` is the perceptron, with a floor at zero after each of its two
    layers, of row `p` of the previous stage plus row `p` of the neighbours' sum. -/
theorem gin3_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    val_main_v95 (F := Ideal) x0 x1 x3 x4 x5 x6 x7 x8
      = Cert.Net.ginRows (val_main_v66 (F := Ideal) x0 x1 x3 x4 x5 x6 x7 x8) (val_main_v76 (F := Ideal) x0 x1 x3 x4 x5 x6 x7 x8)
          (val_main_v79 (F := Ideal) x5) (val_main_v82 (F := Ideal) x6) (val_main_v88 (F := Ideal) x7) (val_main_v91 (F := Ideal) x8) := by
  funext i
  obtain ⟨p, q, rfl⟩ : ∃ (p : Fin 100000) (q : Fin 256), i = ValueIdx.ix2 p q := ⟨i 0, i 1, ValueIdx.eq_ix2 i⟩
  unfold val_main_v95 val_main_v94 val_main_v93 val_main_v92 val_main_v89 val_main_v86 val_main_v85 val_main_v84 val_main_v83 val_main_v80 val_main_v77 val_main_call6_v0 val_main_call6_cst val_main_call5_v0 val_main_call5_cst
  exact Cert.Net.gin_host_apply _ dot_up _ dot_down _ _ _ _ _ _ _ _ _ _ _ _ p q

/-- The fourth message-passing layer: entry `(p, q)` is the perceptron, with a floor at zero after each of its two
    layers, of row `p` of the previous stage plus row `p` of the neighbours' sum. -/
theorem gin4_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    val_main_v124 (F := Ideal) x0 x1 x3 x4 x5 x6 x7 x8
      = Cert.Net.ginRows (val_main_v95 (F := Ideal) x0 x1 x3 x4 x5 x6 x7 x8) (val_main_v105 (F := Ideal) x0 x1 x3 x4 x5 x6 x7 x8)
          (val_main_v108 (F := Ideal) x5) (val_main_v111 (F := Ideal) x6) (val_main_v117 (F := Ideal) x7) (val_main_v120 (F := Ideal) x8) := by
  funext i
  obtain ⟨p, q, rfl⟩ : ∃ (p : Fin 100000) (q : Fin 256), i = ValueIdx.ix2 p q := ⟨i 0, i 1, ValueIdx.eq_ix2 i⟩
  unfold val_main_v124 val_main_v123 val_main_v122 val_main_v121 val_main_v118 val_main_v115 val_main_v114 val_main_v113 val_main_v112 val_main_v109 val_main_v106 val_main_call8_v0 val_main_call8_cst val_main_call7_v0 val_main_call7_cst
  exact Cert.Net.gin_host_apply _ dot_up _ dot_down _ _ _ _ _ _ _ _ _ _ _ _ p q

/-! ## The read-out head -/

/-- The head: entry `(p, q)` is the two-layer perceptron, with one floor at zero between its layers, of row `p` of the
    pooled array. -/
theorem head_eq (x0 : (⟨S100000x44, .f32⟩ : BufTy).Contents (Elt Ideal)) (x1 : (⟨S2x200000, .i32⟩ : BufTy).Contents (Elt Ideal))
    (x2 : (⟨S100000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal))
    (x9 : (⟨S256x256, .f32⟩ : BufTy).Contents (Elt Ideal)) (x10 : (⟨S256, .f32⟩ : BufTy).Contents (Elt Ideal))
    (x11 : (⟨S256x512, .f32⟩ : BufTy).Contents (Elt Ideal)) (x12 : (⟨S512, .f32⟩ : BufTy).Contents (Elt Ideal)) :
    val_main_v145 (F := Ideal) x0 x1 x2 x3 x4 x5 x6 x7 x8 x9 x10 x11 x12
      = Cert.LibMlp.mlp2 (val_main_v136 (F := Ideal) x0 x1 x2 x3 x4 x5 x6 x7 x8) x9 x10 x11 x12 := by
  funext i
  obtain ⟨p, q, rfl⟩ : ∃ (p : Fin 4000) (q : Fin 512), i = ValueIdx.ix2 p q := ⟨i 0, i 1, ValueIdx.eq_ix2 i⟩
  unfold val_main_v145 val_main_v144 val_main_v143 val_main_v142 val_main_v141 val_main_v140 val_main_v139 val_main_v138 val_main_v137 val_main_call9_v0 val_main_call9_cst
  exact Cert.LibMlp.host_mlp_apply _ dot_head1 _ dot_head2 _ _ _ _ _ _ _ _ _ _ p q

end Cert.ReferenceIdeal.RefValue

end
-- ==== Proof.Bridge.lean ====
/-
  The kernel program's result and the reference's last stage are the same function of the thirteen argument arrays, on
  the extended reals. Both are the same tower: the embedding, four message-passing layers, the mean pool, the head.
  Going up the tower one stage at a time, each stage of the kernel's closed form is the specification's stage of the
  stage below it, and so is the reference's; the operands agree because the two programs derive them by the same host
  operations (the edge lists, the wrapped sources, the gather and the scatter-add of the neighbours' sum, the slices of
  the stacked weights, the per-graph sums and counts of the pool), and because rounding a weight to bfloat16 is the
  identity on the extended reals.
-/
import proofs.«101421_j70815420776483_1_alg».proof.Proof.KernelNet
import proofs.«101421_j70815420776483_1_alg».proof.Proof.RefStages

noncomputable section

namespace Cert.Proof.Bridge

open Cert.KernelIdeal Cert.KernelIdeal.Result Cert.ReferenceIdeal.Read Cert.ReferenceIdeal.RefValue Idealize.ShloMosaic

/-! ## The embedding -/

/-- The kernel's embedding is the reference's: the same affine layer and floor, the weights rounded to bfloat16 first. -/
theorem layer0_eq (x0 : (⟨S100000x44, .f32⟩ : BufTy).Contents (Elt Ideal)) (x3 : (⟨S44x256, .f32⟩ : BufTy).Contents (Elt Ideal)) (x4 : (⟨S256, .f32⟩ : BufTy).Contents (Elt Ideal)) :
    layer0 x0 x3 x4 = val_main_v8 (F := Ideal) x0 x3 x4 := by
  unfold layer0
  rw [Cert.Net.truncf_id]
  exact (embed_eq x0 x3 x4).symm

/-! ## The operands of the first layer -/

/-- The neighbours' sum of the embedding: both programs gather the rows at the wrapped sources and add them up at the
    targets, from zeros. -/
theorem nsum1_eq (x0 : (⟨S100000x44, .f32⟩ : BufTy).Contents (Elt Ideal)) (x1 : (⟨S2x200000, .i32⟩ : BufTy).Contents (Elt Ideal)) (x3 : (⟨S44x256, .f32⟩ : BufTy).Contents (Elt Ideal)) (x4 : (⟨S256, .f32⟩ : BufTy).Contents (Elt Ideal)) :
    neighbourSum (val_main_v8 (F := Ideal) x0 x3 x4) (srcList x1) (dstList x1) = val_main_v18 (F := Ideal) x0 x1 x3 x4 := rfl

/-- The layer's weights: the same slice of the stacked array in both programs; the kernel's is rounded to bfloat16, the identity. -/
theorem w1L0_eq (x5 : (⟨S4x256x512, .f32⟩ : BufTy).Contents (Elt Ideal)) : (w1L0 (F := Ideal) x5 : S256x512.Idx → EReal) = val_main_v21 (F := Ideal) x5 := by
  unfold w1L0; rw [Cert.Net.truncf_id]; rfl
/-- The layer's weights: the same slice of the stacked array in both programs; the kernel's is rounded to bfloat16, the identity. -/
theorem w2L0_eq (x7 : (⟨S4x512x256, .f32⟩ : BufTy).Contents (Elt Ideal)) : (w2L0 (F := Ideal) x7 : S512x256.Idx → EReal) = val_main_v30 (F := Ideal) x7 := by
  unfold w2L0; rw [Cert.Net.truncf_id]; rfl
/-- The layer's bias: the same slice of the stacked array in both programs. -/
theorem b1L0_eq (x6 : (⟨S4x512, .f32⟩ : BufTy).Contents (Elt Ideal)) : b1L0 (F := Ideal) x6 = val_main_v24 (F := Ideal) x6 := rfl
/-- The layer's bias: the same slice of the stacked array in both programs. -/
theorem b2L0_eq (x8 : (⟨S4x256, .f32⟩ : BufTy).Contents (Elt Ideal)) : b2L0 (F := Ideal) x8 = val_main_v33 (F := Ideal) x8 := rfl

/-- The first message-passing layer. -/
theorem layer1_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    layer1 x0 x1 x3 x4 x5 x6 x7 x8 = val_main_v37 (F := Ideal) x0 x1 x3 x4 x5 x6 x7 x8 := by
  unfold layer1
  rw [gin1_eq, layer0_eq, nsum1_eq, w1L0_eq, w2L0_eq, b1L0_eq, b2L0_eq]

/-! ## The second layer -/

/-- The neighbours' sum of the layer below, by the same gather and scatter-add in both programs. -/
theorem nsum2_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    neighbourSum (val_main_v37 (F := Ideal) x0 x1 x3 x4 x5 x6 x7 x8) (srcList x1) (dstList x1) = val_main_v47 (F := Ideal) x0 x1 x3 x4 x5 x6 x7 x8 := rfl

/-- The layer's weights: the same slice of the stacked array in both programs; the kernel's is rounded to bfloat16, the identity. -/
theorem w1L1_eq (x5 : (⟨S4x256x512, .f32⟩ : BufTy).Contents (Elt Ideal)) : (w1L1 (F := Ideal) x5 : S256x512.Idx → EReal) = val_main_v50 (F := Ideal) x5 := by
  unfold w1L1; rw [Cert.Net.truncf_id]; rfl
/-- The layer's weights: the same slice of the stacked array in both programs; the kernel's is rounded to bfloat16, the identity. -/
theorem w2L1_eq (x7 : (⟨S4x512x256, .f32⟩ : BufTy).Contents (Elt Ideal)) : (w2L1 (F := Ideal) x7 : S512x256.Idx → EReal) = val_main_v59 (F := Ideal) x7 := by
  unfold w2L1; rw [Cert.Net.truncf_id]; rfl
/-- The layer's bias: the same slice of the stacked array in both programs. -/
theorem b1L1_eq (x6 : (⟨S4x512, .f32⟩ : BufTy).Contents (Elt Ideal)) : b1L1 (F := Ideal) x6 = val_main_v53 (F := Ideal) x6 := rfl
/-- The layer's bias: the same slice of the stacked array in both programs. -/
theorem b2L1_eq (x8 : (⟨S4x256, .f32⟩ : BufTy).Contents (Elt Ideal)) : b2L1 (F := Ideal) x8 = val_main_v62 (F := Ideal) x8 := rfl

/-- The second message-passing layer. -/
theorem layer2_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    layer2 x0 x1 x3 x4 x5 x6 x7 x8 = val_main_v66 (F := Ideal) x0 x1 x3 x4 x5 x6 x7 x8 := by
  unfold layer2
  rw [gin2_eq, layer1_eq, nsum2_eq, w1L1_eq, w2L1_eq, b1L1_eq, b2L1_eq]

/-! ## The third layer -/

/-- The neighbours' sum of the layer below, by the same gather and scatter-add in both programs. -/
theorem nsum3_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    neighbourSum (val_main_v66 (F := Ideal) x0 x1 x3 x4 x5 x6 x7 x8) (srcList x1) (dstList x1) = val_main_v76 (F := Ideal) x0 x1 x3 x4 x5 x6 x7 x8 := rfl

/-- The layer's weights: the same slice of the stacked array in both programs; the kernel's is rounded to bfloat16, the identity. -/
theorem w1L2_eq (x5 : (⟨S4x256x512, .f32⟩ : BufTy).Contents (Elt Ideal)) : (w1L2 (F := Ideal) x5 : S256x512.Idx → EReal) = val_main_v79 (F := Ideal) x5 := by
  unfold w1L2; rw [Cert.Net.truncf_id]; rfl
/-- The layer's weights: the same slice of the stacked array in both programs; the kernel's is rounded to bfloat16, the identity. -/
theorem w2L2_eq (x7 : (⟨S4x512x256, .f32⟩ : BufTy).Contents (Elt Ideal)) : (w2L2 (F := Ideal) x7 : S512x256.Idx → EReal) = val_main_v88 (F := Ideal) x7 := by
  unfold w2L2; rw [Cert.Net.truncf_id]; rfl
/-- The layer's bias: the same slice of the stacked array in both programs. -/
theorem b1L2_eq (x6 : (⟨S4x512, .f32⟩ : BufTy).Contents (Elt Ideal)) : b1L2 (F := Ideal) x6 = val_main_v82 (F := Ideal) x6 := rfl
/-- The layer's bias: the same slice of the stacked array in both programs. -/
theorem b2L2_eq (x8 : (⟨S4x256, .f32⟩ : BufTy).Contents (Elt Ideal)) : b2L2 (F := Ideal) x8 = val_main_v91 (F := Ideal) x8 := rfl

/-- The third message-passing layer. -/
theorem layer3_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    layer3 x0 x1 x3 x4 x5 x6 x7 x8 = val_main_v95 (F := Ideal) x0 x1 x3 x4 x5 x6 x7 x8 := by
  unfold layer3
  rw [gin3_eq, layer2_eq, nsum3_eq, w1L2_eq, w2L2_eq, b1L2_eq, b2L2_eq]

/-! ## The fourth layer -/

/-- The neighbours' sum of the layer below, by the same gather and scatter-add in both programs. -/
theorem nsum4_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    neighbourSum (val_main_v95 (F := Ideal) x0 x1 x3 x4 x5 x6 x7 x8) (srcList x1) (dstList x1) = val_main_v105 (F := Ideal) x0 x1 x3 x4 x5 x6 x7 x8 := rfl

/-- The layer's weights: the same slice of the stacked array in both programs; the kernel's is rounded to bfloat16, the identity. -/
theorem w1L3_eq (x5 : (⟨S4x256x512, .f32⟩ : BufTy).Contents (Elt Ideal)) : (w1L3 (F := Ideal) x5 : S256x512.Idx → EReal) = val_main_v108 (F := Ideal) x5 := by
  unfold w1L3; rw [Cert.Net.truncf_id]; rfl
/-- The layer's weights: the same slice of the stacked array in both programs; the kernel's is rounded to bfloat16, the identity. -/
theorem w2L3_eq (x7 : (⟨S4x512x256, .f32⟩ : BufTy).Contents (Elt Ideal)) : (w2L3 (F := Ideal) x7 : S512x256.Idx → EReal) = val_main_v117 (F := Ideal) x7 := by
  unfold w2L3; rw [Cert.Net.truncf_id]; rfl
/-- The layer's bias: the same slice of the stacked array in both programs. -/
theorem b1L3_eq (x6 : (⟨S4x512, .f32⟩ : BufTy).Contents (Elt Ideal)) : b1L3 (F := Ideal) x6 = val_main_v111 (F := Ideal) x6 := rfl
/-- The layer's bias: the same slice of the stacked array in both programs. -/
theorem b2L3_eq (x8 : (⟨S4x256, .f32⟩ : BufTy).Contents (Elt Ideal)) : b2L3 (F := Ideal) x8 = val_main_v120 (F := Ideal) x8 := rfl

/-- The fourth message-passing layer. -/
theorem layer4_eq (x0 : (⟨S100000x44, .f32⟩ : BufTy).Contents (Elt Ideal)) (x1 : (⟨S2x200000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    layer4 x0 x1 x3 x4 x5 x6 x7 x8 = val_main_v124 (F := Ideal) x0 x1 x3 x4 x5 x6 x7 x8 := by
  unfold layer4
  rw [gin4_eq, layer3_eq, nsum4_eq, w1L3_eq, w2L3_eq, b1L3_eq, b2L3_eq]

/-! ## The pool and the head -/

/-- The mean pool of the last layer: per graph, the sum of its nodes' rows over its node count floored at one, by the
    same scatter-adds and the same division in both programs. -/
theorem pool_eq (x0 : (⟨S100000x44, .f32⟩ : BufTy).Contents (Elt Ideal)) (x1 : (⟨S2x200000, .i32⟩ : BufTy).Contents (Elt Ideal)) (x2 : (⟨S100000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal)) :
    meanPool (val_main_v124 (F := Ideal) x0 x1 x3 x4 x5 x6 x7 x8) x2 = val_main_v136 (F := Ideal) x0 x1 x2 x3 x4 x5 x6 x7 x8 := rfl

/-- The kernel program's result is the reference's last stage. -/
theorem network_eq (x0 : (⟨S100000x44, .f32⟩ : BufTy).Contents (Elt Ideal)) (x1 : (⟨S2x200000, .i32⟩ : BufTy).Contents (Elt Ideal)) (x2 : (⟨S100000, .i32⟩ : BufTy).Contents (Elt Ideal))
    (x3 : (⟨S44x256, .f32⟩ : BufTy).Contents (Elt Ideal)) (x4 : (⟨S256, .f32⟩ : BufTy).Contents (Elt Ideal))
    (x5 : (⟨S4x256x512, .f32⟩ : BufTy).Contents (Elt Ideal)) (x6 : (⟨S4x512, .f32⟩ : BufTy).Contents (Elt Ideal))
    (x7 : (⟨S4x512x256, .f32⟩ : BufTy).Contents (Elt Ideal)) (x8 : (⟨S4x256, .f32⟩ : BufTy).Contents (Elt Ideal))
    (x9 : (⟨S256x256, .f32⟩ : BufTy).Contents (Elt Ideal)) (x10 : (⟨S256, .f32⟩ : BufTy).Contents (Elt Ideal))
    (x11 : (⟨S256x512, .f32⟩ : BufTy).Contents (Elt Ideal)) (x12 : (⟨S512, .f32⟩ : BufTy).Contents (Elt Ideal)) :
    Cert.KernelIdeal.Result.network x0 x1 x2 x3 x4 x5 x6 x7 x8 x9 x10 x11 x12
      = Cert.ReferenceIdeal.Read.val_main_v145 (F := Ideal) x0 x1 x2 x3 x4 x5 x6 x7 x8 x9 x10 x11 x12 := by
  unfold network
  rw [head_eq, layer4_eq, pool_eq, Cert.Net.truncf_id, Cert.Net.truncf_id]

end Cert.Proof.Bridge

end
-- ==== Proof.lean ====
/-
  A graph-isomorphism network on 100000 nodes and 4000 graphs — an embedding of the node features, four
  message-passing layers (a node's row plus the sum of its in-neighbours' rows, through a two-layer perceptron with a
  ReLU after each layer), a mean pool over each graph and a two-layer read-out head — computed by a program of six
  row-tiled kernel regions among host gather / scatter-add stretches, against the same network written as plain host
  operations.
  * The three frames: the two kernel programs' are the generated frame certificates; the reference's is its generated
    run with the result dropped.
  * The idealization rewrote nothing, so `preserves` is trivial.
  * `algebraic`: on the extended reals the kernel program ends with its result buffer at `network` of the argument
    arrays (Proof/KernelRun.lean names the result at the last boundary of the program's fold; Proof/KernelValue.lean
    folds the six regions, each region's output array being its stage of what it finds: Proof/Region*.lean), the
    reference ends at its composed term (the generated run), and the two are one function (Proof/Bridge.lean): the same
    sums of the same products, row by row, the bfloat16 roundings being the identity, the gather and scatter-add
    stretches the same operations on equal operands. No finiteness of the inputs is used.
-/
import proofs.«101421_j70815420776483_1_alg».proof.Defs
import proofs.«101421_j70815420776483_1_alg».proof.Proof.Gen.Kernel
import proofs.«101421_j70815420776483_1_alg».proof.Proof.Gen.Kernel.Skeleton
import proofs.«101421_j70815420776483_1_alg».proof.Proof.Gen.Kernel.Launch
import proofs.«101421_j70815420776483_1_alg».proof.Proof.Gen.Kernel.Points
import proofs.«101421_j70815420776483_1_alg».proof.Proof.Gen.Kernel.Frame
import proofs.«101421_j70815420776483_1_alg».proof.Proof.Gen.KernelIdeal
import proofs.«101421_j70815420776483_1_alg».proof.Proof.Gen.KernelIdeal.Skeleton
import proofs.«101421_j70815420776483_1_alg».proof.Proof.Gen.KernelIdeal.Launch
import proofs.«101421_j70815420776483_1_alg».proof.Proof.Gen.KernelIdeal.Points
import proofs.«101421_j70815420776483_1_alg».proof.Proof.Gen.KernelIdeal.Frame
import proofs.«101421_j70815420776483_1_alg».proof.Proof.Gen.ReferenceIdeal
import proofs.«101421_j70815420776483_1_alg».proof.Proof.Gen.Pre_finite_inputs
import proofs.«101421_j70815420776483_1_alg».proof.Proof.Gen.ReferenceIdeal.Run
import proofs.«101421_j70815420776483_1_alg».proof.Proof.Gen.ReferenceIdeal.Read
import proofs.«101421_j70815420776483_1_alg».proof.Proof.KernelRun
import proofs.«101421_j70815420776483_1_alg».proof.Proof.KernelValue
import proofs.«101421_j70815420776483_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with every argument as launched: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, with the result at `network` of the argument arrays. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Result.result_value m ρ c), (h c).2⟩)
      (Cert.KernelIdeal.Result.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v145_eq m' c]
    obtain ⟨a0, a1, a2, a3, a4, a5, a6, a7, a8, a9, a10, a11, a12⟩ := hagree c
    rw [a0, a1, a2, a3, a4, a5, a6, a7, a8, a9, a10, a11, a12]
    exact (Cert.Proof.Bridge.network_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
